-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v99_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_arg12 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S8 .f32) (main_arg9 : FVec F S128 .f32) (main_arg10 : FVec F S128 .f32) (main_arg11 : FVec F S64 .f32) (main_arg12 : FVec F S64 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_v48 main_v49 main_v50

def fn_part1 {F : FTy → Type} [FloatOps F] (main_arg5 : FVec F S128x64 .f32) (main_arg6 : FVec F S64 .f32) (main_arg7 : FVec F S64x8 .f32) (main_arg8 : FVec F S8 .f32) (main_arg9 : FVec F S128 .f32) (main_arg10 : FVec F S128 .f32) (main_arg11 : FVec F S64 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x8 .f32 := Host.absf main_arg7
  let main_cst_10 : FVec F S_ .f32 := constant S_ .f32 0x7F800000#32
  let main_v30 : FVec F S64x8 .f32 := broadcastInDim S64x8 ![] bcast_S_S64x8 main_cst_10
  let main_v31 : IVec S64x8 1 := cmpf .olt main_v29 main_v30
  let main_c_11 : IVec S_ 1 := constantI S_ 1 1#1
  let main_v32 : IVec S_ 1 := (fun x v => Host.reduce IntOp.andi x v reducesTo_S64x8_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) (main_arg7 : FVec F S64x8 .f32) (main_arg8 : FVec F S8 .f32) (main_arg9 : FVec F S128 .f32) (main_arg10 : FVec F S128 .f32) (main_arg11 : FVec F S64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S2000x128 : Shape := ⟨2, ![2000, 128]⟩
abbrev S1700000x128 : Shape := ⟨2, ![1700000, 128]⟩
abbrev S1x128 : Shape := ⟨2, ![1, 128]⟩
abbrev S2x128 : Shape := ⟨2, ![2, 128]⟩
abbrev S100000x64 : Shape := ⟨2, ![100000, 64]⟩
abbrev S2000x64 : Shape := ⟨2, ![2000, 64]⟩
abbrev S1700000x64 : Shape := ⟨2, ![1700000, 64]⟩
abbrev S1x64 : Shape := ⟨2, ![1, 64]⟩
abbrev S2x64 : Shape := ⟨2, ![2, 64]⟩
abbrev S100000x8 : Shape := ⟨2, ![100000, 8]⟩
abbrev S2000x8 : Shape := ⟨2, ![2000, 8]⟩
abbrev S1700000x8 : Shape := ⟨2, ![1700000, 8]⟩
abbrev S1x8 : Shape := ⟨2, ![1, 8]⟩
abbrev S2x8 : Shape := ⟨2, ![2, 8]⟩

abbrev nBuf : Space → Nat
  | .hbm => 139
  | .vmem => 49
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S64x8, .f32⟩
  | 8 => ⟨S8, .f32⟩
  | 9 => ⟨S128, .f32⟩
  | 10 => ⟨S128, .f32⟩
  | 11 => ⟨S64, .f32⟩
  | 12 => ⟨S64, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S2x128, .f32⟩
  | 73 => ⟨S1x128, .f32⟩
  | 74 => ⟨S_, .f32⟩
  | 75 => ⟨S1x128, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S100000x128, .f32⟩
  | 86 => ⟨S100000x64, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x64, .f32⟩
  | 96 => ⟨S1700000x1, .f32⟩
  | 97 => ⟨S1700000x64, .f32⟩
  | 98 => ⟨S1700000x64, .f32⟩
  | 99 => ⟨S_, .f32⟩
  | 100 => ⟨S100000x64, .f32⟩
  | 101 => ⟨S1700000x1, .i32⟩
  | 102 => ⟨S100000x64, .f32⟩
  | 103 => ⟨S1x64, .f32⟩
  | 104 => ⟨S100000x64, .f32⟩
  | 105 => ⟨S2x64, .f32⟩
  | 106 => ⟨S1x64, .f32⟩
  | 107 => ⟨S_, .f32⟩
  | 108 => ⟨S1x64, .f32⟩
  | 109 => ⟨S1x64, .f32⟩
  | 110 => ⟨S1x64, .f32⟩
  | 111 => ⟨S_, .f32⟩
  | 112 => ⟨S1x64, .f32⟩
  | 113 => ⟨S1x64, .f32⟩
  | 114 => ⟨S1x64, .f32⟩
  | 115 => ⟨S1x64, .f32⟩
  | 116 => ⟨S1x64, .f32⟩
  | 117 => ⟨S1x64, .f32⟩
  | 118 => ⟨S100000x64, .f32⟩
  | 119 => ⟨S100000x8, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x8, .f32⟩
  | 1 => ⟨S1700000x1, .f32⟩
  | 2 => ⟨S1700000x8, .f32⟩
  | 3 => ⟨S1700000x8, .f32⟩
  | 4 => ⟨S_, .f32⟩
  | 5 => ⟨S100000x8, .f32⟩
  | 6 => ⟨S1700000x1, .i32⟩
  | 7 => ⟨S100000x8, .f32⟩
  | 8 => ⟨S1x8, .f32⟩
  | 9 => ⟨S100000x8, .f32⟩
  | 10 => ⟨S2x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S1x64, .f32⟩
  | .local _ .vmem, ⟨27, _⟩ => ⟨S2000x64, .f32⟩
  | .local _ .vmem, ⟨28, _⟩ => ⟨S2000x64, .f32⟩
  | .local _ .vmem, ⟨29, _⟩ => ⟨S2x64, .f32⟩
  | .local _ .vmem, ⟨30, _⟩ => ⟨S2000x64, .f32⟩
  | .local _ .vmem, ⟨31, _⟩ => ⟨S2000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S64x8, .f32⟩
  | .local _ .vmem, ⟨41, _⟩ => ⟨S2000x8, .f32⟩
  | .local _ .vmem, ⟨42, _⟩ => ⟨S2000x8, .f32⟩
  | .local _ .vmem, ⟨43, _⟩ => ⟨S2000x8, .f32⟩
  | .local _ .vmem, ⟨44, _⟩ => ⟨S2000x8, .f32⟩
  | .local _ .vmem, ⟨45, _⟩ => ⟨S1x8, .f32⟩
  | .local _ .vmem, ⟨46, _⟩ => ⟨S2000x8, .f32⟩
  | .local _ .vmem, ⟨47, _⟩ => ⟨S2000x8, .f32⟩
  | .local _ .vmem, ⟨48, _⟩ => ⟨S2x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45_0 : Ref sig .tc := ⟨.hbm, 71, rfl⟩
abbrev main_v45_1 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72_0 : Ref sig .tc := ⟨.hbm, 104, rfl⟩
abbrev main_v72_1 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_16 : Ref sig .tc := ⟨.hbm, 120, rfl⟩
abbrev main_v85 : Ref sig .tc := ⟨.hbm, 121, rfl⟩
abbrev main_v86 : Ref sig .tc := ⟨.hbm, 122, rfl⟩
abbrev main_c_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_18 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99_0 : Ref sig .tc := ⟨.hbm, 137, rfl⟩
abbrev main_v99_1 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg5_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg2_1 : Ref sig .tc := ⟨.vmem, 47, rfl⟩
abbrev cc7_stg3_0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc4_sem3_0 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem4_0 : DmaSem sig := 35
abbrev cc5_sem5_0 : DmaSem sig := 36
abbrev cc5_sem5_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem2_1 : DmaSem sig := 47
abbrev cc7_sem3_0 : DmaSem sig := 48

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S2x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x8 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x8 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x8 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x8 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x8 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S2x8 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S2x128_S2x128_0_0 : ∀ a, (![0, 0] : Fin 2 → Nat) a + S2x128.size a ≤ S2x128.size a
  h_S2x128 : 0 < S2x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  slices_S2x128_S1x128_0_0 : S2x128.Slices ![0, 0] S1x128
  bcast_S_S1x128 : S_.BroadcastsInDim S1x128 (![] : Fin 0 → Fin S1x128.rank)
  slices_S2x128_S1x128_1_0 : S2x128.Slices ![1, 0] S1x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S2x64_S2x64_0_0 : ∀ a, (![0, 0] : Fin 2 → Nat) a + S2x64.size a ≤ S2x64.size a
  h_S2x64 : 0 < S2x64.numel
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S64 : S2000x64.Reduces [0] S64
  inb_S2x64_S1x64_0_0 : ∀ a, (![0, 0] : Fin 2 → Nat) a + S1x64.size a ≤ S2x64.size a
  inb_S2x64_S1x64_1_0 : ∀ a, (![1, 0] : Fin 2 → Nat) a + S1x64.size a ≤ S2x64.size a
  slices_S2x64_S1x64_0_0 : S2x64.Slices ![0, 0] S1x64
  bcast_S_S1x64 : S_.BroadcastsInDim S1x64 (![] : Fin 0 → Fin S1x64.rank)
  slices_S2x64_S1x64_1_0 : S2x64.Slices ![1, 0] S1x64
  inb_S64x8_S64x8_0_0 : ∀ a, (![0, 0] : Fin 2 → Nat) a + S64x8.size a ≤ S64x8.size a
  h_S64x8 : 0 < S64x8.numel
  inb_S2000x8_S2000x8_0_0 : ∀ a, (![0, 0] : Fin 2 → Nat) a + S2000x8.size a ≤ S2000x8.size a
  h_S2000x8 : 0 < S2000x8.numel
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  shapeCasts_S8_S1x8 : S8.ShapeCasts S1x8
  inb_S2x8_S2x8_0_0 : ∀ a, (![0, 0] : Fin 2 → Nat) a + S2x8.size a ≤ S2x8.size a
  h_S2x8 : 0 < S2x8.numel
  shapeCasts_S2000x8_S2000x8 : S2000x8.ShapeCasts S2000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  reduces_S2000x8_S8 : S2000x8.Reduces [0] S8
  inb_S2x8_S1x8_0_0 : ∀ a, (![0, 0] : Fin 2 → Nat) a + S1x8.size a ≤ S2x8.size a
  inb_S2x8_S1x8_1_0 : ∀ a, (![1, 0] : Fin 2 → Nat) a + S1x8.size a ≤ S2x8.size a
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x8_S2000x8_1_0_0_1_n_n_wf : DotDims.WF S2000x64 S64x8 S2000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128.size a ≤ S2x128.size a
  hwx1_3 : ∀ i : grid1.Coords, EltTy.bits .f32 = 32 ∨ (Rect.block (s := S2x128) S2x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S100000x64.size a
  hwx4_2 : ∀ i : grid4.Coords, EltTy.bits .f32 = 32 ∨ (Rect.block (s := S100000x64) S2000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2x64.size a ≤ S2x64.size a
  hwx4_3 : ∀ i : grid4.Coords, EltTy.bits .f32 = 32 ∨ (Rect.block (s := S2x64) S2x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S100000x64.size a
  hwx5_5 : ∀ i : grid5.Coords, EltTy.bits .f32 = 32 ∨ (Rect.block (s := S100000x64) S2000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x8.size a ≤ S64x8.size a
  hwx6_1 : ∀ i : grid6.Coords, EltTy.bits .f32 = 32 ∨ (Rect.block (s := S64x8) S64x8.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x8.size a ≤ S100000x8.size a
  hwx6_2 : ∀ i : grid6.Coords, EltTy.bits .f32 = 32 ∨ (Rect.block (s := S100000x8) S2000x8.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x8.size a ≤ S100000x8.size a
  hwx7_0 : ∀ i : grid7.Coords, EltTy.bits .f32 = 32 ∨ (Rect.block (s := S100000x8) S2000x8.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x8.size a ≤ S1x8.size a
  hwx7_1 : ∀ i : grid7.Coords, EltTy.bits .f32 = 32 ∨ (Rect.block (s := S1x8) S1x8.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x8.size a ≤ S100000x8.size a
  hwx7_2 : ∀ i : grid7.Coords, EltTy.bits .f32 = 32 ∨ (Rect.block (s := S100000x8) S2000x8.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S2x8.size a ≤ S2x8.size a
  hwx7_3 : ∀ i : grid7.Coords, EltTy.bits .f32 = 32 ∨ (Rect.block (s := S2x8) S2x8.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x8_S2000x8_1_0_0_1_n_n : DotDims S2000x64 S64x8 S2000x8 where
  lhsContracting := [1]
  rhsContracting := [0]
  lhsNonContracting := [0]
  rhsNonContracting := [1]
  lhsBatch := []
  rhsBatch := []
  wf := dot_S2000x64_S64x8_S2000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S2000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S2x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72_0) S2000x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v72_1) S2x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v72_0) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S2000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v83) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S64x8.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S2000x8.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v97) S2000x8.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S1x8.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v99_0) S2000x8.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v99_1) S2x8.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x8 : Shape := ⟨2, ![100000, 8]⟩
abbrev S1700000x8 : Shape := ⟨2, ![1700000, 8]⟩
abbrev S1x8 : Shape := ⟨2, ![1, 8]⟩

abbrev nBuf : Space → Nat
  | .hbm => 194
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S64x8, .f32⟩
  | 8 => ⟨S8, .f32⟩
  | 9 => ⟨S128, .f32⟩
  | 10 => ⟨S128, .f32⟩
  | 11 => ⟨S64, .f32⟩
  | 12 => ⟨S64, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .i1⟩
  | 76 => ⟨S_, .f32⟩
  | 77 => ⟨S100000x128, .f32⟩
  | 78 => ⟨S100000x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S128, .f32⟩
  | 91 => ⟨S_, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S_, .f32⟩
  | 98 => ⟨S128, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .i1⟩
  | 5 => ⟨S_, .f32⟩
  | 6 => ⟨S100000x64, .f32⟩
  | 7 => ⟨S100000x64, .f32⟩
  | 8 => ⟨S100000x64, .f32⟩
  | 9 => ⟨S_, .f32⟩
  | 10 => ⟨S64, .f32⟩
  | 11 => ⟨S_, .f32⟩
  | 12 => ⟨S64, .f32⟩
  | 13 => ⟨S64, .f32⟩
  | 14 => ⟨S1x64, .f32⟩
  | 15 => ⟨S100000x64, .f32⟩
  | 16 => ⟨S100000x64, .f32⟩
  | 17 => ⟨S100000x64, .f32⟩
  | 18 => ⟨S_, .f32⟩
  | 19 => ⟨S64, .f32⟩
  | 20 => ⟨S_, .f32⟩
  | 21 => ⟨S64, .f32⟩
  | 22 => ⟨S64, .f32⟩
  | 23 => ⟨S1x64, .f32⟩
  | 24 => ⟨S100000x64, .f32⟩
  | 25 => ⟨S100000x64, .f32⟩
  | 26 => ⟨S_, .f32⟩
  | 27 => ⟨S64, .f32⟩
  | 28 => ⟨S64, .f32⟩
  | 29 => ⟨S64, .f32⟩
  | 30 => ⟨S1x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S100000x8, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000x8, .f32⟩
  | 49 => ⟨S1700000x1, .f32⟩
  | 50 => ⟨S1700000x8, .f32⟩
  | 51 => ⟨S1700000x8, .f32⟩
  | 52 => ⟨S_, .f32⟩
  | 53 => ⟨S100000x8, .f32⟩
  | 54 => ⟨S1700000x1, .i32⟩
  | 55 => ⟨S100000x8, .f32⟩
  | 56 => ⟨S1x8, .f32⟩
  | 57 => ⟨S100000x8, .f32⟩
  | 58 => ⟨S100000x8, .f32⟩
  | 59 => ⟨S_, .f32⟩
  | 60 => ⟨S100000x8, .f32⟩
  | 61 => ⟨S100000x8, .i1⟩
  | 62 => ⟨S_, .f32⟩
  | 63 => ⟨S100000x8, .f32⟩
  | 64 => ⟨S100000x8, .f32⟩
  | 65 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_16 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_19 : Ref sig .tc := ⟨.hbm, 130, rfl⟩
abbrev main_v94 : Ref sig .tc := ⟨.hbm, 131, rfl⟩
abbrev main_v95 : Ref sig .tc := ⟨.hbm, 132, rfl⟩
abbrev main_cst_20 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_21 : Ref sig .tc := ⟨.hbm, 137, rfl⟩
abbrev main_v99 : Ref sig .tc := ⟨.hbm, 138, rfl⟩
abbrev main_cst_22 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_23 : Ref sig .tc := ⟨.hbm, 146, rfl⟩
abbrev main_v106 : Ref sig .tc := ⟨.hbm, 147, rfl⟩
abbrev main_cst_24 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_25 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_c_26 : Ref sig .tc := ⟨.hbm, 168, rfl⟩
abbrev main_v125 : Ref sig .tc := ⟨.hbm, 169, rfl⟩
abbrev main_v126 : Ref sig .tc := ⟨.hbm, 170, rfl⟩
abbrev main_c_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_28 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_29 : Ref sig .tc := ⟨.hbm, 187, rfl⟩
abbrev main_v141 : Ref sig .tc := ⟨.hbm, 188, rfl⟩
abbrev main_v142 : Ref sig .tc := ⟨.hbm, 189, rfl⟩
abbrev main_cst_30 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x8_S100000x8_1_0_0_1_n_n_wf : DotDims.WF S100000x64 S64x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf

class Facts : Prop extends Facts₀ where

variable [Facts]
-- ==== Proof.KRun.lean ====
/-
  The idealized kernel's run with its RESULT named.

  Every weakly fair execution of the program terminates without a fault; the argument arrays end as
  launched, and the result array ends at the contents the fold through the program's sixteen
  segments (host stretches and pipelined regions) leaves in it.  The statement is the frame's with one
  more conjunct: the final thread state holds every unscoped buffer at the fold's last valuation, and
  the result buffer is one of them.
-/
import proofs.«153942_j44160853737649_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last valuation of the fold, the arguments as launched. -/
theorem run_result : θ_run defs (onTc (τ := τ) (main (F := F))) ⟨m, fun _ => 0, ρ⟩ (fun r => ∀ c : Dev nD,
      r.2.mem ((c.tc : Thread nD τ).loc main_v99_0) = W16 m ρ c (Proc.devRef .tc main_v99_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v99_0 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.RunResult

end
-- ==== Proof.Kept.lean ====
/- Buffers that a stretch of the idealized kernel's program does not write keep their contents.

  The program's run is a fold through sixteen segments (host stretches and pipelined regions).  Each
  statement here follows one buffer — an argument array, or one of the three index/normalisation
  vectors computed at the start (source indices, destination indices, the per-edge weight) — from the
  segment boundary where a later stretch reads it back to the boundary where it was last written:
  a host stretch keeps every buffer it does not write, a region keeps every buffer that is not one of
  its output arrays.
-/
import proofs.«153942_j44160853737649_1_alg».proof.Proof.Gen.KernelIdeal.Frame
import Idealize.ShloMosaic.PureOps.Ideal

set_option maxRecDepth 16384

noncomputable section

namespace Cert.KernelIdeal.Kept

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

theorem kept_arg0_0_3 : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg3_0_3 : W3 m ρ c (Proc.devRef .tc main_arg3) = W0 m ρ c (Proc.devRef .tc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg4_0_4 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg9_0_6 : W6 m ρ c (Proc.devRef .tc main_arg9) = W0 m ρ c (Proc.devRef .tc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg10_0_6 : W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg5_0_8 : W8 m ρ c (Proc.devRef .tc main_arg5) = W0 m ρ c (Proc.devRef .tc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg6_0_9 : W9 m ρ c (Proc.devRef .tc main_arg6) = W0 m ρ c (Proc.devRef .tc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg11_0_11 : W11 m ρ c (Proc.devRef .tc main_arg11) = W0 m ρ c (Proc.devRef .tc main_arg11) :=
  calc W11 m ρ c (Proc.devRef .tc main_arg11)
    _ = W10 m ρ c (Proc.devRef .tc main_arg11) := W11_of_ne m ρ c main_arg11 (by decide)
    _ = W9 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg12_0_11 : W11 m ρ c (Proc.devRef .tc main_arg12) = W0 m ρ c (Proc.devRef .tc main_arg12) :=
  calc W11 m ρ c (Proc.devRef .tc main_arg12)
    _ = W10 m ρ c (Proc.devRef .tc main_arg12) := W11_of_ne m ρ c main_arg12 (by decide)
    _ = W9 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg7_0_13 : W13 m ρ c (Proc.devRef .tc main_arg7) = W0 m ρ c (Proc.devRef .tc main_arg7) :=
  calc W13 m ρ c (Proc.devRef .tc main_arg7)
    _ = W12 m ρ c (Proc.devRef .tc main_arg7) := W13_of_ne m ρ c main_arg7 (by decide)
    _ = W11 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg7) := W11_of_ne m ρ c main_arg7 (by decide)
    _ = W9 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_arg8_0_14 : W14 m ρ c (Proc.devRef .tc main_arg8) = W0 m ρ c (Proc.devRef .tc main_arg8) :=
  calc W14 m ρ c (Proc.devRef .tc main_arg8)
    _ = W13 m ρ c (Proc.devRef .tc main_arg8) := W14_of_ne m ρ c main_arg8 (by decide)
    _ = W12 m ρ c (Proc.devRef .tc main_arg8) := W13_of_ne m ρ c main_arg8 (by decide)
    _ = W11 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_v3_3_4 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem kept_v6_3_4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem kept_v29_3_4 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem kept_v3_3_9 : W9 m ρ c (Proc.devRef .tc main_v3) = W3 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem kept_v6_3_9 : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem kept_v29_3_9 : W9 m ρ c (Proc.devRef .tc main_v29) = W3 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

theorem kept_v3_3_14 : W14 m ρ c (Proc.devRef .tc main_v3) = W3 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v3) := W11_of_ne m ρ c main_v3 (by decide)
    _ = W9 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)

theorem kept_v6_3_14 : W14 m ρ c (Proc.devRef .tc main_v6) = W3 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := StableHlo.after_of_forall_not_mem (b := Proc.devRef .tc main_v6) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v6) := W11_of_ne m ρ c main_v6 (by decide)
    _ = W9 m ρ c (Proc.devRef .tc main_v6) := StableHlo.after_of_forall_not_mem (b := Proc.devRef .tc main_v6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

theorem kept_v29_3_14 : W14 m ρ c (Proc.devRef .tc main_v29) = W3 m ρ c (Proc.devRef .tc main_v29) :=
  calc W14 m ρ c (Proc.devRef .tc main_v29)
    _ = W13 m ρ c (Proc.devRef .tc main_v29) := W14_of_ne m ρ c main_v29 (by decide)
    _ = W12 m ρ c (Proc.devRef .tc main_v29) := W13_of_ne m ρ c main_v29 (by decide)
    _ = W11 m ρ c (Proc.devRef .tc main_v29) := StableHlo.after_of_forall_not_mem (b := Proc.devRef .tc main_v29) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v29) := W11_of_ne m ρ c main_v29 (by decide)
    _ = W9 m ρ c (Proc.devRef .tc main_v29) := StableHlo.after_of_forall_not_mem (b := Proc.devRef .tc main_v29) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := StableHlo.after_of_forall_not_mem (b := Proc.devRef .tc main_v29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v29) := W6_of_ne m ρ c main_v29 (by decide)
    _ = W4 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)

theorem kept_v45_0_6_7 : W7 m ρ c (Proc.devRef .tc main_v45_0) = W6 m ρ c (Proc.devRef .tc main_v45_0) :=
  calc W7 m ρ c (Proc.devRef .tc main_v45_0)
    _ = W6 m ρ c (Proc.devRef .tc main_v45_0) := StableHlo.after_of_forall_not_mem (b := Proc.devRef .tc main_v45_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem kept_v72_0_11_12 : W12 m ρ c (Proc.devRef .tc main_v72_0) = W11 m ρ c (Proc.devRef .tc main_v72_0) :=
  calc W12 m ρ c (Proc.devRef .tc main_v72_0)
    _ = W11 m ρ c (Proc.devRef .tc main_v72_0) := StableHlo.after_of_forall_not_mem (b := Proc.devRef .tc main_v72_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Kept

end
-- ==== Proof.Spec.lean ====
/-
  The value of each pipelined region of the kernel, as a function of the arrays the region reads —
  stated once, index by index, over the literal shapes.

  * `rowsTimes…`  : a row-tiled matrix product: entry (r, j) is the sum over k of x(r, k) · w(k, j).
  * `activated…`  : bias-add and leaky activation: v = agg(r, j) + b(0, j); the entry is v when v > 0 and
                     slope · v otherwise.
  * `columnSums…` : the two running statistics: row 0 holds each column's sum, row 1 each column's sum of squares.
  * `normalized…` : (y − mean) · rsqrt(var + ε) · γ + β with the four row vectors broadcast down the rows.
-/
import proofs.«153942_j44160853737649_1_alg».proof.KernelIdeal
import Idealize.ShloMosaic.PureOps.Ideal
import Idealize.ShloMosaic.Lib.ValueIdx

noncomputable section

namespace Cert.Bridge

open Cert.KernelIdeal Idealize.ShloMosaic Idealize.ShloMosaic.ValueIdx

def rowsTimesA (x : FVec Ideal S100000x128 .f32) (w : FVec Ideal S128x128 .f32) : FVec Ideal S100000x128 .f32 :=
  fun i => ∑ k : Fin 128, x (ix2 (⟨(i 0).val, (i 0).isLt⟩ : Fin 100000) k) * w (ix2 k (⟨(i 1).val, (i 1).isLt⟩ : Fin 128))
def rowsTimesB (x : FVec Ideal S100000x128 .f32) (w : FVec Ideal S128x64 .f32) : FVec Ideal S100000x64 .f32 :=
  fun i => ∑ k : Fin 128, x (ix2 (⟨(i 0).val, (i 0).isLt⟩ : Fin 100000) k) * w (ix2 k (⟨(i 1).val, (i 1).isLt⟩ : Fin 64))
def rowsTimesC (x : FVec Ideal S100000x64 .f32) (w : FVec Ideal S64x8 .f32) : FVec Ideal S100000x8 .f32 :=
  fun i => ∑ k : Fin 64, x (ix2 (⟨(i 0).val, (i 0).isLt⟩ : Fin 100000) k) * w (ix2 k (⟨(i 1).val, (i 1).isLt⟩ : Fin 8))

def activatedA (agg : FVec Ideal S100000x128 .f32) (b : FVec Ideal S1x128 .f32) : FVec Ideal S100000x128 .f32 :=
  fun i => let v := agg i + b (ix2 (0 : Fin 1) (⟨(i 1).val, (i 1).isLt⟩ : Fin 128))
    Scalar.select (Ideal.cmp .ogt v (Ideal.ofBits .f32 0x00000000#32)) v (Ideal.ofBits .f32 0x3C23D70A#32 * v)
def activatedB (agg : FVec Ideal S100000x64 .f32) (b : FVec Ideal S1x64 .f32) : FVec Ideal S100000x64 .f32 :=
  fun i => let v := agg i + b (ix2 (0 : Fin 1) (⟨(i 1).val, (i 1).isLt⟩ : Fin 64))
    Scalar.select (Ideal.cmp .ogt v (Ideal.ofBits .f32 0x00000000#32)) v (Ideal.ofBits .f32 0x3C23D70A#32 * v)
def activatedC (agg : FVec Ideal S100000x8 .f32) (b : FVec Ideal S1x8 .f32) : FVec Ideal S100000x8 .f32 :=
  fun i => let v := agg i + b (ix2 (0 : Fin 1) (⟨(i 1).val, (i 1).isLt⟩ : Fin 8))
    Scalar.select (Ideal.cmp .ogt v (Ideal.ofBits .f32 0x00000000#32)) v (Ideal.ofBits .f32 0x3C23D70A#32 * v)

def columnSumsA (y : FVec Ideal S100000x128 .f32) : FVec Ideal S2x128 .f32 :=
  fun i => if (i 0).val = 0 then ∑ r : Fin 100000, y (ix2 r (⟨(i 1).val, (i 1).isLt⟩ : Fin 128))
    else ∑ r : Fin 100000, y (ix2 r (⟨(i 1).val, (i 1).isLt⟩ : Fin 128)) * y (ix2 r (⟨(i 1).val, (i 1).isLt⟩ : Fin 128))
def columnSumsB (y : FVec Ideal S100000x64 .f32) : FVec Ideal S2x64 .f32 :=
  fun i => if (i 0).val = 0 then ∑ r : Fin 100000, y (ix2 r (⟨(i 1).val, (i 1).isLt⟩ : Fin 64))
    else ∑ r : Fin 100000, y (ix2 r (⟨(i 1).val, (i 1).isLt⟩ : Fin 64)) * y (ix2 r (⟨(i 1).val, (i 1).isLt⟩ : Fin 64))

def normalizedA (y : FVec Ideal S100000x128 .f32) (mean var gamma beta : FVec Ideal S1x128 .f32) : FVec Ideal S100000x128 .f32 :=
  fun i => (y i - mean (ix2 (0 : Fin 1) (⟨(i 1).val, (i 1).isLt⟩ : Fin 128))) * Ideal.rsqrt (var (ix2 (0 : Fin 1) (⟨(i 1).val, (i 1).isLt⟩ : Fin 128)) + Ideal.ofBits .f32 0x3727C5AC#32) * gamma (ix2 (0 : Fin 1) (⟨(i 1).val, (i 1).isLt⟩ : Fin 128)) + beta (ix2 (0 : Fin 1) (⟨(i 1).val, (i 1).isLt⟩ : Fin 128))
def normalizedB (y : FVec Ideal S100000x64 .f32) (mean var gamma beta : FVec Ideal S1x64 .f32) : FVec Ideal S100000x64 .f32 :=
  fun i => (y i - mean (ix2 (0 : Fin 1) (⟨(i 1).val, (i 1).isLt⟩ : Fin 64))) * Ideal.rsqrt (var (ix2 (0 : Fin 1) (⟨(i 1).val, (i 1).isLt⟩ : Fin 64)) + Ideal.ofBits .f32 0x3727C5AC#32) * gamma (ix2 (0 : Fin 1) (⟨(i 1).val, (i 1).isLt⟩ : Fin 64)) + beta (ix2 (0 : Fin 1) (⟨(i 1).val, (i 1).isLt⟩ : Fin 64))

end Cert.Bridge

end
-- ==== Proof.Algebra.lean ====
/-
  Extended-real arithmetic used to join the two batch-normalisations.

  The kernel computes a column's variance as  E[y²] − (E[y])²  from two running sums; the reference
  computes it as  E[(y − E[y])²].  Over the reals the two agree; over the extended reals they agree
  as soon as every entry of the column is a real number, which is what this module records, together
  with the closure of "is a real number" under the operations both programs apply.
-/
import Idealize.ShloMosaic.PureOps.Ideal

noncomputable section

namespace Cert.Bridge

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Division by a nonzero real keeps a real number real. -/
theorem IsReal.div_coe {x : EReal} (hx : IsReal x) {n : ℝ} (hn : n ≠ 0) : IsReal (Ideal.div x (n : EReal)) := by
  obtain ⟨a, rfl⟩ := hx
  rw [Ideal.div_coe hn]; exact (IsReal.coe a).mul (IsReal.coe _)

/-- The reciprocal square root of a positive real is a real. -/
theorem IsReal.rsqrt_pos {r : ℝ} (hr : 0 < r) : IsReal (Ideal.rsqrt (r : EReal)) := by
  refine ⟨(Real.sqrt r)⁻¹, ?_⟩
  show (if r < 0 then (⊥ : EReal) else if r = 0 then ⊤ else ((Real.sqrt r)⁻¹ : ℝ)) = _
  rw [if_neg (not_lt.mpr hr.le), if_neg hr.ne']

/-! ### The literals of the two programs -/

/-- The word of +0.0 is zero. -/
theorem ofBits_zero : Ideal.ofBits .f32 0x00000000#32 = 0 := by
  simp [Ideal.ofBits, Ideal.ieee]

/-- The word of 1.0 is one. -/
theorem ofBits_one : Ideal.ofBits .f32 0x3F800000#32 = ((1 : ℝ) : EReal) := by
  simp [Ideal.ofBits, Ideal.ieee, -EReal.coe_mul]; norm_num

/-- The word of 100000.0, the number of rows, is the real 100000. -/
theorem ofBits_rows : Ideal.ofBits .f32 0x47C35000#32 = ((100000 : ℝ) : EReal) := by
  simp [Ideal.ofBits, Ideal.ieee, -EReal.coe_mul]; norm_num

/-- The leaky slope's word (the f32 nearest 0.01) is a real number. -/
theorem ofBits_slope_val : Ideal.ofBits .f32 0x3C23D70A#32 = ((10737418 / 2 ^ 30 : ℝ) : EReal) := by
  simp [Ideal.ofBits, Ideal.ieee, -EReal.coe_mul]; norm_num

theorem ofBits_slope : IsReal (Ideal.ofBits .f32 0x3C23D70A#32) := ⟨_, ofBits_slope_val⟩

/-- The batch-norm epsilon's word (the f32 nearest 1e-5) is a positive real. -/
theorem ofBits_eps_val : Ideal.ofBits .f32 0x3727C5AC#32 = ((10995116 / 2 ^ 40 : ℝ) : EReal) := by
  simp [Ideal.ofBits, Ideal.ieee, -EReal.coe_mul]; norm_num

theorem ofBits_eps : ∃ e : ℝ, 0 < e ∧ Ideal.ofBits .f32 0x3727C5AC#32 = (e : EReal) :=
  ⟨_, by norm_num, ofBits_eps_val⟩

/-! ### The variance identity -/

/-- Over the reals: mean of squares minus squared mean is the mean squared deviation, for a column
    with as many entries as the divisor says. -/
theorem real_var {ι : Type*} [Fintype ι] (y : ι → ℝ) (n : ℝ) (hn : n ≠ 0) (hcard : (Fintype.card ι : ℝ) = n) :
    (∑ i, y i * y i) * (1 / n) - (∑ i, y i) * (1 / n) * ((∑ i, y i) * (1 / n))
      = (∑ i, (y i - (∑ j, y j) * (1 / n)) * (y i - (∑ j, y j) * (1 / n))) * (1 / n) := by
  set S := ∑ i, y i with hS
  set μ := S * (1 / n) with hμ
  have h1 : ∀ i, (y i - μ) * (y i - μ) = y i * y i - 2 * μ * y i + μ * μ := fun i => by ring
  simp_rw [h1]
  rw [Finset.sum_add_distrib, Finset.sum_sub_distrib, ← Finset.mul_sum, Finset.sum_const, Finset.card_univ,
    nsmul_eq_mul, hcard, ← hS]
  rw [hμ]; field_simp; ring

/-- The same over the extended reals, for a column of real numbers: the kernel's variance is the reference's. -/
theorem var_identity {ι : Type*} [Fintype ι] (y : ι → EReal) (hy : ∀ i, IsReal (y i)) (n : ℝ) (hn : n ≠ 0)
    (hcard : (Fintype.card ι : ℝ) = n) :
    Ideal.div (∑ i, y i * y i) (n : EReal) - Ideal.div (∑ i, y i) (n : EReal) * Ideal.div (∑ i, y i) (n : EReal)
      = Ideal.div (∑ i, (y i - Ideal.div (∑ j, y j) (n : EReal)) * (y i - Ideal.div (∑ j, y j) (n : EReal))) (n : EReal) := by
  choose r hr using hy
  have hyr : y = fun i => (r i : EReal) := funext hr
  subst hyr
  simp only [Ideal.div_coe hn, ← EReal.coe_mul, ← coe_sum, ← EReal.coe_sub]
  exact congrArg _ (real_var r n hn hcard)

end Cert.Bridge

end
-- ==== Proof.Bridge.lean ====
/-
  The kernel's regions and the reference's host operations compute the same functions.

  * A row-tiled matrix product into a zero accumulator is the host's contraction: both are, entry by entry,
    the sum over the contracted axis of the products.
  * Bias-add followed by the leaky activation is pointwise the same expression on both sides; the kernel stages
    the bias as one row, the reference broadcasts it down the rows.
  * Batch normalisation: the kernel divides the running column sums Σy and Σy² by the row count and forms
    E[y²] − E[y]²; the reference forms E[(y − E[y])²].  For a column of real numbers these agree, and everything
    else in the two normalisations is the same expression.
-/
import proofs.«153942_j44160853737649_1_alg».proof.Proof.RefRead
import proofs.«153942_j44160853737649_1_alg».proof.Proof.Spec
import proofs.«153942_j44160853737649_1_alg».proof.Proof.Algebra
import Idealize.ShloMosaic.Lib.Pipeline.Value
import Idealize.ShloMosaic.Lib.ValueIdx
import Idealize.ShloMosaic.PureOps.Ideal.Laws

noncomputable section

namespace Cert.Bridge

open Cert.ReferenceIdeal Cert.ReferenceIdeal.Gen Cert.ReferenceIdeal.Read Idealize.ShloMosaic Idealize.ShloMosaic.ValueIdx

/-! ## The matrix product into 128 columns -/

/-- The host's contraction read at an index: the sum over the contracted axis of the products. -/
theorem dotA_apply (x : FVec Ideal S100000x128 .f32) (w : FVec Ideal S128x128 .f32) (i : S100000x128.Idx) :
    Host.dotGeneral (F := Ideal) dot_S100000x128_S128x128_S100000x128_1_0_0_1_n_n none x w i = ∑ k : Fin 128, x (lidx_main_v30 i k) * w (ridx_main_v30 i k) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v30 i k := funext fun a => Fin.ext (by
    match a with
    | ⟨0, _⟩ => exact lhs_main_v30_0 _ _
    | ⟨1, _⟩ => exact (lhs_main_v30_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v30 i k := funext fun a => Fin.ext (by
    match a with
    | ⟨0, _⟩ => exact (rhs_main_v30_0 _ _).trans hk
    | ⟨1, _⟩ => exact rhs_main_v30_1 _ _)
  rw [el, er]

/-- The kernel's row-tiled product is the host's contraction of the same two arrays. -/
theorem rowsTimesA_eq (x : FVec Ideal S100000x128 .f32) (w : FVec Ideal S128x128 .f32) :
    rowsTimesA x w = Host.dotGeneral (F := Ideal) dot_S100000x128_S128x128_S100000x128_1_0_0_1_n_n none x w := by
  funext i
  rw [dotA_apply]
  unfold rowsTimesA
  refine Finset.sum_congr rfl fun k _ => ?_
  have e1 : (ix2 (⟨(i 0).val, (i 0).isLt⟩ : Fin 100000) k : S100000x128.Idx) = lidx_main_v30 i k :=
    funext fun a => by match a with | ⟨0, _⟩ => rfl | ⟨1, _⟩ => rfl
  have e2 : (ix2 k (⟨(i 1).val, (i 1).isLt⟩ : Fin 128) : S128x128.Idx) = ridx_main_v30 i k :=
    funext fun a => by match a with | ⟨0, _⟩ => rfl | ⟨1, _⟩ => rfl
  rw [e1, e2]

/-! ## The matrix product into 64 columns -/

/-- The host's contraction read at an index: the sum over the contracted axis of the products. -/
theorem dotB_apply (x : FVec Ideal S100000x128 .f32) (w : FVec Ideal S128x64 .f32) (i : S100000x64.Idx) :
    Host.dotGeneral (F := Ideal) dot_S100000x128_S128x64_S100000x64_1_0_0_1_n_n none x w i = ∑ k : Fin 128, x (lidx_main_v77 i k) * w (ridx_main_v77 i k) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lidx_main_v77 i k := funext fun a => Fin.ext (by
    match a with
    | ⟨0, _⟩ => exact lhs_main_v77_0 _ _
    | ⟨1, _⟩ => exact (lhs_main_v77_1 _ _).trans hk)
  have er : dot_S100000x128_S128x64_S100000x64_1_0_0_1_n_n.rhsIdx i ((ValueIdx.contrEquiv1 dot_S100000x128_S128x64_S100000x64_1_0_0_1_n_n 128 rfl rfl).symm k) = ridx_main_v77 i k := funext fun a => Fin.ext (by
    match a with
    | ⟨0, _⟩ => exact (rhs_main_v77_0 _ _).trans hk
    | ⟨1, _⟩ => exact rhs_main_v77_1 _ _)
  rw [el, er]

/-- The kernel's row-tiled product is the host's contraction of the same two arrays. -/
theorem rowsTimesB_eq (x : FVec Ideal S100000x128 .f32) (w : FVec Ideal S128x64 .f32) :
    rowsTimesB x w = Host.dotGeneral (F := Ideal) dot_S100000x128_S128x64_S100000x64_1_0_0_1_n_n none x w := by
  funext i
  rw [dotB_apply]
  unfold rowsTimesB
  refine Finset.sum_congr rfl fun k _ => ?_
  have e1 : (ix2 (⟨(i 0).val, (i 0).isLt⟩ : Fin 100000) k : S100000x128.Idx) = lidx_main_v77 i k :=
    funext fun a => by match a with | ⟨0, _⟩ => rfl | ⟨1, _⟩ => rfl
  have e2 : (ix2 k (⟨(i 1).val, (i 1).isLt⟩ : Fin 64) : S128x64.Idx) = ridx_main_v77 i k :=
    funext fun a => by match a with | ⟨0, _⟩ => rfl | ⟨1, _⟩ => rfl
  rw [e1, e2]

/-! ## The matrix product into 8 columns -/

/-- The host's contraction read at an index: the sum over the contracted axis of the products. -/
theorem dotC_apply (x : FVec Ideal S100000x64 .f32) (w : FVec Ideal S64x8 .f32) (i : S100000x8.Idx) :
    Host.dotGeneral (F := Ideal) dot_S100000x64_S64x8_S100000x8_1_0_0_1_n_n none x w i = ∑ k : Fin 64, x (lidx_main_v124 i k) * w (ridx_main_v124 i k) := by
  simp only [Host.dotGeneral]
  rw [Ideal.dotGeneral_apply, ← Equiv.sum_comp (ValueIdx.contrEquiv1 dot_S100000x64_S64x8_S100000x8_1_0_0_1_n_n 64 rfl rfl).symm]
  refine Finset.sum_congr rfl fun k _ => ?_
  have hk := ValueIdx.contrEquiv1_symm_val dot_S100000x64_S64x8_S100000x8_1_0_0_1_n_n 64 rfl rfl k
  have el : dot_S100000x64_S64x8_S100000x8_1_0_0_1_n_n.lhsIdx i ((ValueIdx.contrEquiv1 dot_S100000x64_S64x8_S100000x8_1_0_0_1_n_n 64 rfl rfl).symm k) = lidx_main_v124 i k := funext fun a => Fin.ext (by
    match a with
    | ⟨0, _⟩ => exact lhs_main_v124_0 _ _
    | ⟨1, _⟩ => exact (lhs_main_v124_1 _ _).trans hk)
  have er : dot_S100000x64_S64x8_S100000x8_1_0_0_1_n_n.rhsIdx i ((ValueIdx.contrEquiv1 dot_S100000x64_S64x8_S100000x8_1_0_0_1_n_n 64 rfl rfl).symm k) = ridx_main_v124 i k := funext fun a => Fin.ext (by
    match a with
    | ⟨0, _⟩ => exact (rhs_main_v124_0 _ _).trans hk
    | ⟨1, _⟩ => exact rhs_main_v124_1 _ _)
  rw [el, er]

/-- The kernel's row-tiled product is the host's contraction of the same two arrays. -/
theorem rowsTimesC_eq (x : FVec Ideal S100000x64 .f32) (w : FVec Ideal S64x8 .f32) :
    rowsTimesC x w = Host.dotGeneral (F := Ideal) dot_S100000x64_S64x8_S100000x8_1_0_0_1_n_n none x w := by
  funext i
  rw [dotC_apply]
  unfold rowsTimesC
  refine Finset.sum_congr rfl fun k _ => ?_
  have e1 : (ix2 (⟨(i 0).val, (i 0).isLt⟩ : Fin 100000) k : S100000x64.Idx) = lidx_main_v124 i k :=
    funext fun a => by match a with | ⟨0, _⟩ => rfl | ⟨1, _⟩ => rfl
  have e2 : (ix2 k (⟨(i 1).val, (i 1).isLt⟩ : Fin 8) : S64x8.Idx) = ridx_main_v124 i k :=
    funext fun a => by match a with | ⟨0, _⟩ => rfl | ⟨1, _⟩ => rfl
  rw [e1, e2]

/-! ## Bias and leaky activation over 128 columns -/

/-- The reference's bias-add and activation, as a function of the aggregate it is applied to. -/
def refActA (agg : FVec Ideal S100000x128 .f32) (b : FVec Ideal S128 .f32) : FVec Ideal S100000x128 .f32 :=
  select (cmpf .ogt (addf agg (val_main_v45 (F := Ideal) b)) (val_main_v47 (F := Ideal))) (addf agg (val_main_v45 (F := Ideal) b))
    (mulf (val_main_v49 (F := Ideal)) (addf agg (val_main_v45 (F := Ideal) b)))

/-- The bias as the kernel stages it (the vector recast as one row) read at column j is the bias as the reference
    broadcasts it, read at any row of column j. -/
theorem biasA_eq (b : FVec Ideal S128 .f32) (sc : S128.ShapeCasts S1x128) (i : S100000x128.Idx) :
    shapeCast S1x128 b sc (ix2 (0 : Fin 1) (⟨(i 1).val, (i 1).isLt⟩ : Fin 128)) = val_main_v45 (F := Ideal) b i := by
  rw [val_main_v45_apply, val_main_v44_apply]
  refine (shapeCast_addUnit_apply _ b sc _).trans (congrArg b (funext fun a => ?_))
  match a with | ⟨0, _⟩ => exact Fin.ext rfl

theorem actA_eq (agg : FVec Ideal S100000x128 .f32) (b : FVec Ideal S128 .f32) (sc : S128.ShapeCasts S1x128) :
    activatedA agg (shapeCast S1x128 b sc) = refActA agg b := by
  funext i
  have h0 : val_main_v47 (F := Ideal) i = Ideal.ofBits .f32 0x00000000#32 := by rw [val_main_v47_apply, val_main_cst_9_apply]; rfl
  have h1 : val_main_v49 (F := Ideal) i = Ideal.ofBits .f32 0x3C23D70A#32 := by rw [val_main_v49_apply, val_main_cst_10_apply]; rfl
  show Scalar.select (Ideal.cmp .ogt (agg i + shapeCast S1x128 b sc (ix2 (0 : Fin 1) (⟨(i 1).val, (i 1).isLt⟩ : Fin 128))) (Ideal.ofBits .f32 0x00000000#32))
      (agg i + shapeCast S1x128 b sc (ix2 (0 : Fin 1) (⟨(i 1).val, (i 1).isLt⟩ : Fin 128)))
      (Ideal.ofBits .f32 0x3C23D70A#32 * (agg i + shapeCast S1x128 b sc (ix2 (0 : Fin 1) (⟨(i 1).val, (i 1).isLt⟩ : Fin 128))))
    = Scalar.select (Ideal.cmp .ogt (agg i + val_main_v45 (F := Ideal) b i) (val_main_v47 (F := Ideal) i)) (agg i + val_main_v45 (F := Ideal) b i)
      (val_main_v49 (F := Ideal) i * (agg i + val_main_v45 (F := Ideal) b i))
  rw [biasA_eq b sc i, h0, h1]

/-! ## Bias and leaky activation over 64 columns -/

/-- The reference's bias-add and activation, as a function of the aggregate it is applied to. -/
def refActB (agg : FVec Ideal S100000x64 .f32) (b : FVec Ideal S64 .f32) : FVec Ideal S100000x64 .f32 :=
  select (cmpf .ogt (addf agg (val_main_v92 (F := Ideal) b)) (val_main_v94 (F := Ideal))) (addf agg (val_main_v92 (F := Ideal) b))
    (mulf (val_main_v96 (F := Ideal)) (addf agg (val_main_v92 (F := Ideal) b)))

/-- The bias as the kernel stages it (the vector recast as one row) read at column j is the bias as the reference
    broadcasts it, read at any row of column j. -/
theorem biasB_eq (b : FVec Ideal S64 .f32) (sc : S64.ShapeCasts S1x64) (i : S100000x64.Idx) :
    shapeCast S1x64 b sc (ix2 (0 : Fin 1) (⟨(i 1).val, (i 1).isLt⟩ : Fin 64)) = val_main_v92 (F := Ideal) b i := by
  rw [val_main_v92_apply, val_main_v91_apply]
  refine (shapeCast_addUnit_apply _ b sc _).trans (congrArg b (funext fun a => ?_))
  match a with | ⟨0, _⟩ => exact Fin.ext rfl

theorem actB_eq (agg : FVec Ideal S100000x64 .f32) (b : FVec Ideal S64 .f32) (sc : S64.ShapeCasts S1x64) :
    activatedB agg (shapeCast S1x64 b sc) = refActB agg b := by
  funext i
  have h0 : val_main_v94 (F := Ideal) i = Ideal.ofBits .f32 0x00000000#32 := by rw [val_main_v94_apply, val_main_cst_19_apply]; rfl
  have h1 : val_main_v96 (F := Ideal) i = Ideal.ofBits .f32 0x3C23D70A#32 := by rw [val_main_v96_apply, val_main_cst_20_apply]; rfl
  show Scalar.select (Ideal.cmp .ogt (agg i + shapeCast S1x64 b sc (ix2 (0 : Fin 1) (⟨(i 1).val, (i 1).isLt⟩ : Fin 64))) (Ideal.ofBits .f32 0x00000000#32))
      (agg i + shapeCast S1x64 b sc (ix2 (0 : Fin 1) (⟨(i 1).val, (i 1).isLt⟩ : Fin 64)))
      (Ideal.ofBits .f32 0x3C23D70A#32 * (agg i + shapeCast S1x64 b sc (ix2 (0 : Fin 1) (⟨(i 1).val, (i 1).isLt⟩ : Fin 64))))
    = Scalar.select (Ideal.cmp .ogt (agg i + val_main_v92 (F := Ideal) b i) (val_main_v94 (F := Ideal) i)) (agg i + val_main_v92 (F := Ideal) b i)
      (val_main_v96 (F := Ideal) i * (agg i + val_main_v92 (F := Ideal) b i))
  rw [biasB_eq b sc i, h0, h1]

/-! ## Bias and leaky activation over 8 columns -/

/-- The reference's bias-add and activation, as a function of the aggregate it is applied to. -/
def refActC (agg : FVec Ideal S100000x8 .f32) (b : FVec Ideal S8 .f32) : FVec Ideal S100000x8 .f32 :=
  select (cmpf .ogt (addf agg (val_main_v139 (F := Ideal) b)) (val_main_v141 (F := Ideal))) (addf agg (val_main_v139 (F := Ideal) b))
    (mulf (val_main_v143 (F := Ideal)) (addf agg (val_main_v139 (F := Ideal) b)))

/-- The bias as the kernel stages it (the vector recast as one row) read at column j is the bias as the reference
    broadcasts it, read at any row of column j. -/
theorem biasC_eq (b : FVec Ideal S8 .f32) (sc : S8.ShapeCasts S1x8) (i : S100000x8.Idx) :
    shapeCast S1x8 b sc (ix2 (0 : Fin 1) (⟨(i 1).val, (i 1).isLt⟩ : Fin 8)) = val_main_v139 (F := Ideal) b i := by
  rw [val_main_v139_apply, val_main_v138_apply]
  refine (shapeCast_addUnit_apply _ b sc _).trans (congrArg b (funext fun a => ?_))
  match a with | ⟨0, _⟩ => exact Fin.ext rfl

theorem actC_eq (agg : FVec Ideal S100000x8 .f32) (b : FVec Ideal S8 .f32) (sc : S8.ShapeCasts S1x8) :
    activatedC agg (shapeCast S1x8 b sc) = refActC agg b := by
  funext i
  have h0 : val_main_v141 (F := Ideal) i = Ideal.ofBits .f32 0x00000000#32 := by rw [val_main_v141_apply, val_main_cst_29_apply]; rfl
  have h1 : val_main_v143 (F := Ideal) i = Ideal.ofBits .f32 0x3C23D70A#32 := by rw [val_main_v143_apply, val_main_cst_30_apply]; rfl
  show Scalar.select (Ideal.cmp .ogt (agg i + shapeCast S1x8 b sc (ix2 (0 : Fin 1) (⟨(i 1).val, (i 1).isLt⟩ : Fin 8))) (Ideal.ofBits .f32 0x00000000#32))
      (agg i + shapeCast S1x8 b sc (ix2 (0 : Fin 1) (⟨(i 1).val, (i 1).isLt⟩ : Fin 8)))
      (Ideal.ofBits .f32 0x3C23D70A#32 * (agg i + shapeCast S1x8 b sc (ix2 (0 : Fin 1) (⟨(i 1).val, (i 1).isLt⟩ : Fin 8))))
    = Scalar.select (Ideal.cmp .ogt (agg i + val_main_v139 (F := Ideal) b i) (val_main_v141 (F := Ideal) i)) (agg i + val_main_v139 (F := Ideal) b i)
      (val_main_v143 (F := Ideal) i * (agg i + val_main_v139 (F := Ideal) b i))
  rw [biasC_eq b sc i, h0, h1]

end Cert.Bridge

end
-- ==== Proof.BridgeBN.lean ====
/-
  The two batch normalisations compute the same function.

  The kernel divides the running column sums Σy and Σy² by the row count and forms E[y²] − E[y]²; the reference
  forms the mean, the deviations y − E[y], and the mean of their squares E[(y − E[y])²].  For a column of real
  numbers the two variances agree, and the rest of the two normalisations is the same expression:
  (y − mean) · rsqrt(var + ε) · γ + β, with the per-column quantities broadcast down the rows.
-/
import proofs.«153942_j44160853737649_1_alg».proof.Proof.RefRead
import proofs.«153942_j44160853737649_1_alg».proof.Proof.Spec
import proofs.«153942_j44160853737649_1_alg».proof.Proof.Algebra
import Idealize.ShloMosaic.Lib.Pipeline.Value
import Idealize.ShloMosaic.Lib.ValueIdx
import Idealize.ShloMosaic.PureOps.Ideal.Laws

noncomputable section

namespace Cert.Bridge

open Cert.ReferenceIdeal Cert.ReferenceIdeal.Gen Cert.ReferenceIdeal.Read Idealize.ShloMosaic Idealize.ShloMosaic.ValueIdx

/-- The normalisation formula respects equality of its five scalar arguments. -/
theorem bnFormula_congr {a a' m m' v v' g g' s s' : EReal} (e : EReal) (ha : a = a') (hm : m = m') (hv : v = v') (hg : g = g')
    (hs : s = s') : (a - m) * Ideal.rsqrt (v + e) * g + s = (a' - m') * Ideal.rsqrt (v' + e) * g' + s' := by
  subst ha hm hv hg hs; rfl

/-! ## Batch normalisation over 128 columns -/

/-- A column sum of the reference: the initial value plus the sum down the rows. -/
theorem reduceRowsA_apply (y : FVec Ideal S100000x128 .f32) (init : FVec Ideal S_ .f32) (J : S128.Idx) :
    Host.reduceAdd y init reducesTo_S100000x128_S128_d0 h_S_ J
      = init (Shape.Idx.first h_S_) + ∑ k : Fin 100000, y (ix2 k (⟨(J 0).val, (J 0).isLt⟩ : Fin 128)) := by
  simp only [Host.reduceAdd, Ideal.hostReduceAdd_def]
  rw [Ideal.hostReduceAdd_single reducesTo_S100000x128_S128_d0 (by decide)]
  refine congrArg (_ + ·) (Finset.sum_congr rfl fun k _ => ?_)
  exact congrArg y (funext fun a => Fin.ext (by match a with | ⟨0, _⟩ => rfl | ⟨1, _⟩ => rfl))

/-- A vector broadcast to one row and then down the rows, read at (r, j), is the vector at j. -/
theorem bcast2A_apply (v : FVec Ideal S128 .f32) (i : S100000x128.Idx) :
    broadcastInDim S100000x128 ![0, 1] bcast_S1x128_S100000x128_0_1 (broadcastInDim S1x128 ![1] bcast_S128_S1x128_1 v) i
      = v (ix1 (⟨(i 1).val, (i 1).isLt⟩ : Fin 128)) := by
  refine (broadcastInDim_apply _ bcast_S1x128_S100000x128_0_1 _ i (ix2 (0 : Fin 1) (⟨(i 1).val, (i 1).isLt⟩ : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ bcast_S128_S1x128_1 v _ (ix1 (⟨(i 1).val, (i 1).isLt⟩ : Fin 128)) (fun a => match a with
    | ⟨0, _⟩ => by show (i 1).val = if (128 : Nat) = 1 then 0 else (i 1).val; rw [if_neg (by decide)])

/-- A vector recast as one row, read at column j, is the vector at j. -/
theorem vecRowA (g : FVec Ideal S128 .f32) (sc : S128.ShapeCasts S1x128) (j : Fin 128) :
    shapeCast S1x128 g sc (ix2 (0 : Fin 1) j) = g (ix1 j) := by
  refine (shapeCast_addUnit_apply _ g sc _).trans (congrArg g (funext fun a => ?_))
  match a with | ⟨0, _⟩ => rfl

/-- Row 0 of the running statistics, sliced out, at column j: the column's sum. -/
theorem statRow0A (y : FVec Ideal S100000x128 .f32) (sl0 : Cert.KernelIdeal.S2x128.Slices ![0, 0] S1x128) (j : Fin 128) :
    extractStridedSlice S1x128 ![0, 0] (columnSumsA y) sl0 (ix2 (0 : Fin 1) j) = ∑ r : Fin 100000, y (ix2 r j) := by
  refine (extractStridedSlice_apply ![0, 0] _ sl0 _ (ix2 (0 : Fin 2) j) (fun a => match a with
    | ⟨0, _⟩ => rfl
    | ⟨1, _⟩ => (Nat.zero_add _).symm)).trans ?_
  exact if_pos rfl

/-- Row 1 of the running statistics, sliced out, at column j: the column's sum of squares. -/
theorem statRow1A (y : FVec Ideal S100000x128 .f32) (sl1 : Cert.KernelIdeal.S2x128.Slices ![1, 0] S1x128) (j : Fin 128) :
    extractStridedSlice S1x128 ![1, 0] (columnSumsA y) sl1 (ix2 (0 : Fin 1) j)
      = ∑ r : Fin 100000, y (ix2 r j) * y (ix2 r j) := by
  refine (extractStridedSlice_apply ![1, 0] _ sl1 _ (ix2 (1 : Fin 2) j) (fun a => match a with
    | ⟨0, _⟩ => rfl
    | ⟨1, _⟩ => (Nat.zero_add _).symm)).trans ?_
  exact if_neg Nat.one_ne_zero

/-- A row vector divided by the row count broadcast from a scalar, read at an index. -/
theorem divRowsA_apply (X : FVec Ideal S1x128 .f32) (bc : S_.BroadcastsInDim S1x128 (![] : Fin 0 → Fin S1x128.rank)) (k : S1x128.Idx) :
    Host.divf X (broadcastInDim S1x128 ![] bc (constant S_ .f32 0x47C35000#32)) k = Ideal.div (X k) ((100000 : ℝ) : EReal) := by
  show Ideal.div (X k) (broadcastInDim S1x128 ![] bc (constant (F := Ideal) S_ .f32 0x47C35000#32) k) = _
  rw [broadcastInDim_apply _ bc (constant (F := Ideal) S_ .f32 0x47C35000#32) k (fun a => a.elim0) (fun a => a.elim0)]
  show Ideal.div (X k) (Ideal.ofBits .f32 0x47C35000#32) = _
  rw [ofBits_rows]

/-- The kernel's normalisation read at an index whose column is j. -/
theorem normalizedA_apply (y : FVec Ideal S100000x128 .f32) (mean var gamma beta : FVec Ideal S1x128 .f32)
    (i : S100000x128.Idx) (j : Fin 128) (hj : (i 1).val = j.val) :
    normalizedA y mean var gamma beta i
      = (y i - mean (ix2 (0 : Fin 1) j)) * Ideal.rsqrt (var (ix2 (0 : Fin 1) j) + Ideal.ofBits .f32 0x3727C5AC#32) * gamma (ix2 (0 : Fin 1) j) + beta (ix2 (0 : Fin 1) j) := by
  have e : (⟨(i 1).val, (i 1).isLt⟩ : Fin 128) = j := Fin.ext hj
  unfold normalizedA
  rw [e]

/-- The reference's column means. -/
def bnMeanA (y : FVec Ideal S100000x128 .f32) : FVec Ideal S128 .f32 :=
  Host.divf (Host.reduceAdd y (val_main_cst_11 (F := Ideal)) reducesTo_S100000x128_S128_d0 h_S_) (val_main_v53 (F := Ideal))

/-- The reference's deviations from a vector of column values broadcast down the rows. -/
def bnDevA (y : FVec Ideal S100000x128 .f32) (M : FVec Ideal S128 .f32) : FVec Ideal S100000x128 .f32 :=
  subf y (broadcastInDim S100000x128 ![0, 1] bcast_S1x128_S100000x128_0_1 (broadcastInDim S1x128 ![1] bcast_S128_S1x128_1 M))

/-- The reference's column means of squares of an array. -/
def bnVarA (d : FVec Ideal S100000x128 .f32) : FVec Ideal S128 .f32 :=
  Host.divf (Host.reduceAdd (mulf d d) (val_main_cst_13 (F := Ideal)) reducesTo_S100000x128_S128_d0 h_S_) (val_main_v60 (F := Ideal))

/-- The reference's scaling of the deviations by the reciprocal root of the variance plus ε, and the affine map. -/
def bnOutA (d : FVec Ideal S100000x128 .f32) (Vr g b : FVec Ideal S128 .f32) : FVec Ideal S100000x128 .f32 :=
  addf (mulf (mulf d (broadcastInDim S100000x128 ![0, 1] bcast_S1x128_S100000x128_0_1 (broadcastInDim S1x128 ![1] bcast_S128_S1x128_1 (Host.rsqrt (addf Vr (val_main_v65 (F := Ideal)))))))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 b))

/-- The reference's normalisation, as a function of the activations it normalises. -/
def refBNA (y : FVec Ideal S100000x128 .f32) (g b : FVec Ideal S128 .f32) : FVec Ideal S100000x128 .f32 :=
  bnOutA (bnDevA y (bnMeanA y)) (bnVarA (bnDevA y (bnMeanA y))) g b

/-- The reference's stages from the activations to the normalised array are that function. -/
theorem refBNA_stage (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 x9 x10 : (⟨S128, .f32⟩ : BufTy).Contents (Elt Ideal)) :
    refBNA (val_main_v51 (F := Ideal) x0 x1 x3 x4) x9 x10 = val_main_v76 (F := Ideal) x0 x1 x3 x4 x9 x10 := by
  generalize hy : val_main_v51 (F := Ideal) x0 x1 x3 x4 = y
  unfold val_main_v76 val_main_v75 val_main_v74 val_main_v73 val_main_v72 val_main_v71 val_main_v70 val_main_v69 val_main_v68
    val_main_v67 val_main_v66 val_main_v64 val_main_v63 val_main_v62 val_main_v61 val_main_v59 val_main_v58 val_main_v57
    val_main_v56 val_main_v55 val_main_v54 val_main_v52
  rw [hy]
  rfl

/-- The reference's column mean at column j. -/
theorem bnMeanA_apply (y : FVec Ideal S100000x128 .f32) (j : Fin 128) :
    bnMeanA y (ix1 j) = Ideal.div (∑ k : Fin 100000, y (ix2 k j)) ((100000 : ℝ) : EReal) := by
  unfold bnMeanA
  show Ideal.div (Host.reduceAdd y (val_main_cst_11 (F := Ideal)) reducesTo_S100000x128_S128_d0 h_S_ (ix1 j)) (val_main_v53 (F := Ideal) (ix1 j)) = _
  rw [reduceRowsA_apply, val_main_v53_apply, val_main_cst_12_apply, val_main_cst_11_apply]
  simp only [Ideal.ofBits_def, ofBits_zero, zero_add, ofBits_rows]

/-- The reference's column mean of squares at column j. -/
theorem bnVarA_apply (d : FVec Ideal S100000x128 .f32) (j : Fin 128) :
    bnVarA d (ix1 j) = Ideal.div (∑ k : Fin 100000, d (ix2 k j) * d (ix2 k j)) ((100000 : ℝ) : EReal) := by
  unfold bnVarA
  show Ideal.div (Host.reduceAdd (mulf d d) (val_main_cst_13 (F := Ideal)) reducesTo_S100000x128_S128_d0 h_S_ (ix1 j)) (val_main_v60 (F := Ideal) (ix1 j)) = _
  rw [reduceRowsA_apply, val_main_v60_apply, val_main_cst_14_apply, val_main_cst_13_apply]
  simp only [Ideal.ofBits_def, ofBits_zero, zero_add, ofBits_rows]
  rfl

/-- A deviation at an index whose column is j. -/
theorem bnDevA_apply (y : FVec Ideal S100000x128 .f32) (M : FVec Ideal S128 .f32) (i : S100000x128.Idx) (j : Fin 128)
    (hj : (i 1).val = j.val) : bnDevA y M i = y i - M (ix1 j) := by
  have e : (⟨(i 1).val, (i 1).isLt⟩ : Fin 128) = j := Fin.ext hj
  unfold bnDevA
  show y i - broadcastInDim S100000x128 ![0, 1] bcast_S1x128_S100000x128_0_1 (broadcastInDim S1x128 ![1] bcast_S128_S1x128_1 M) i = _
  rw [bcast2A_apply, e]

/-- The reference's last stage at an index whose column is j. -/
theorem bnOutA_apply (d : FVec Ideal S100000x128 .f32) (Vr g b : FVec Ideal S128 .f32) (i : S100000x128.Idx) (j : Fin 128)
    (hj : (i 1).val = j.val) :
    bnOutA d Vr g b i = d i * Ideal.rsqrt (Vr (ix1 j) + Ideal.ofBits .f32 0x3727C5AC#32) * g (ix1 j) + b (ix1 j) := by
  have e : (⟨(i 1).val, (i 1).isLt⟩ : Fin 128) = j := Fin.ext hj
  unfold bnOutA
  show d i * broadcastInDim S100000x128 ![0, 1] bcast_S1x128_S100000x128_0_1 (broadcastInDim S1x128 ![1] bcast_S128_S1x128_1 (Host.rsqrt (addf Vr (val_main_v65 (F := Ideal))))) i
      * broadcastInDim S100000x128 ![0, 1] bcast_S1x128_S100000x128_0_1 (broadcastInDim S1x128 ![1] bcast_S128_S1x128_1 g) i
      + broadcastInDim S100000x128 ![0, 1] bcast_S1x128_S100000x128_0_1 (broadcastInDim S1x128 ![1] bcast_S128_S1x128_1 b) i = _
  rw [bcast2A_apply, bcast2A_apply, bcast2A_apply, e]
  show d i * Ideal.rsqrt (Vr (ix1 j) + val_main_v65 (F := Ideal) (ix1 j)) * g (ix1 j) + b (ix1 j) = _
  rw [val_main_v65_apply, val_main_cst_15_apply]
  rfl

/-- The reference's normalisation at an index whose column is j: the deviation from the column's mean, scaled by the
    reciprocal root of the column's mean squared deviation plus ε, then the affine map. -/
theorem refBNA_apply (y : FVec Ideal S100000x128 .f32) (g b : FVec Ideal S128 .f32) (i : S100000x128.Idx) (j : Fin 128)
    (hj : (i 1).val = j.val) :
    refBNA y g b i
      = (y i - Ideal.div (∑ q : Fin 100000, y (ix2 q j)) ((100000 : ℝ) : EReal))
          * Ideal.rsqrt (Ideal.div (∑ r : Fin 100000, (y (ix2 r j) - Ideal.div (∑ q : Fin 100000, y (ix2 q j)) ((100000 : ℝ) : EReal))
                * (y (ix2 r j) - Ideal.div (∑ q : Fin 100000, y (ix2 q j)) ((100000 : ℝ) : EReal))) ((100000 : ℝ) : EReal)
              + Ideal.ofBits .f32 0x3727C5AC#32)
          * g (ix1 j) + b (ix1 j) := by
  unfold refBNA
  rw [bnOutA_apply _ _ g b i j hj, bnVarA_apply, bnDevA_apply y _ i j hj, bnMeanA_apply]
  have hd : ∀ r : Fin 100000, bnDevA y (bnMeanA y) (ix2 r j)
      = y (ix2 r j) - Ideal.div (∑ q : Fin 100000, y (ix2 q j)) ((100000 : ℝ) : EReal) := fun r => by
    rw [bnDevA_apply y _ (ix2 r j) j rfl, bnMeanA_apply]
  simp only [hd]

/-- The two normalisations agree on real activations, for any row vectors that hold the kernel's column mean, column
    mean of squares, scale and shift: E[y²] − E[y]² is E[(y − E[y])²] column by column, and the rest is the same
    expression. -/
theorem bnA_core (y : FVec Ideal S100000x128 .f32) (hy : ∀ i, IsReal (y i)) (g b : FVec Ideal S128 .f32)
    (M Q G B : FVec Ideal S1x128 .f32)
    (hM : ∀ j : Fin 128, M (ix2 (0 : Fin 1) j) = Ideal.div (∑ r : Fin 100000, y (ix2 r j)) ((100000 : ℝ) : EReal))
    (hQ : ∀ j : Fin 128, Q (ix2 (0 : Fin 1) j) = Ideal.div (∑ r : Fin 100000, y (ix2 r j) * y (ix2 r j)) ((100000 : ℝ) : EReal))
    (hG : ∀ j : Fin 128, G (ix2 (0 : Fin 1) j) = g (ix1 j)) (hB : ∀ j : Fin 128, B (ix2 (0 : Fin 1) j) = b (ix1 j)) :
    normalizedA y M (subf Q (mulf M M)) G B = refBNA y g b := by
  funext i
  obtain ⟨j, hj⟩ : ∃ j : Fin 128, (i 1).val = j.val := ⟨⟨(i 1).val, (i 1).isLt⟩, rfl⟩
  rw [normalizedA_apply y M (subf Q (mulf M M)) G B i j hj, refBNA_apply y g b i j hj]
  refine bnFormula_congr _ rfl (hM j) ?_ (hG j) (hB j)
  show Q (ix2 (0 : Fin 1) j) - M (ix2 (0 : Fin 1) j) * M (ix2 (0 : Fin 1) j) = _
  rw [hQ, hM]
  exact var_identity (fun r : Fin 100000 => y (ix2 r j)) (fun r => hy _) 100000 (by norm_num) (by simp)

/-- The two normalisations agree on activations that are real numbers: the kernel's mean is Σy / 100000 and its variance
    Σy² / 100000 minus the squared mean, both read off its running column sums. -/
theorem bnA_eq (y : FVec Ideal S100000x128 .f32) (hy : ∀ i, IsReal (y i)) (g b : FVec Ideal S128 .f32)
    (sc : S128.ShapeCasts S1x128) (sl0 : Cert.KernelIdeal.S2x128.Slices ![0, 0] S1x128) (sl1 : Cert.KernelIdeal.S2x128.Slices ![1, 0] S1x128)
    (bc : S_.BroadcastsInDim S1x128 (![] : Fin 0 → Fin S1x128.rank)) :
    normalizedA y
      (Host.divf (extractStridedSlice S1x128 ![0, 0] (columnSumsA y) sl0) (broadcastInDim S1x128 ![] bc (constant S_ .f32 0x47C35000#32)))
      (subf (Host.divf (extractStridedSlice S1x128 ![1, 0] (columnSumsA y) sl1) (broadcastInDim S1x128 ![] bc (constant S_ .f32 0x47C35000#32)))
        (mulf (Host.divf (extractStridedSlice S1x128 ![0, 0] (columnSumsA y) sl0) (broadcastInDim S1x128 ![] bc (constant S_ .f32 0x47C35000#32)))
              (Host.divf (extractStridedSlice S1x128 ![0, 0] (columnSumsA y) sl0) (broadcastInDim S1x128 ![] bc (constant S_ .f32 0x47C35000#32)))))
      (shapeCast S1x128 g sc) (shapeCast S1x128 b sc)
    = refBNA y g b :=
  bnA_core y hy g b _ _ _ _
    (fun j => by rw [divRowsA_apply, statRow0A])
    (fun j => by rw [divRowsA_apply, statRow1A])
    (vecRowA g sc) (vecRowA b sc)

/-! ## Batch normalisation over 64 columns -/

/-- A column sum of the reference: the initial value plus the sum down the rows. -/
theorem reduceRowsB_apply (y : FVec Ideal S100000x64 .f32) (init : FVec Ideal S_ .f32) (J : S64.Idx) :
    Host.reduceAdd y init reducesTo_S100000x64_S64_d0 h_S_ J
      = init (Shape.Idx.first h_S_) + ∑ k : Fin 100000, y (ix2 k (⟨(J 0).val, (J 0).isLt⟩ : Fin 64)) := by
  simp only [Host.reduceAdd, Ideal.hostReduceAdd_def]
  rw [Ideal.hostReduceAdd_single reducesTo_S100000x64_S64_d0 (by decide)]
  refine congrArg (_ + ·) (Finset.sum_congr rfl fun k _ => ?_)
  exact congrArg y (funext fun a => Fin.ext (by match a with | ⟨0, _⟩ => rfl | ⟨1, _⟩ => rfl))

/-- A vector broadcast to one row and then down the rows, read at (r, j), is the vector at j. -/
theorem bcast2B_apply (v : FVec Ideal S64 .f32) (i : S100000x64.Idx) :
    broadcastInDim S100000x64 ![0, 1] bcast_S1x64_S100000x64_0_1 (broadcastInDim S1x64 ![1] bcast_S64_S1x64_1 v) i
      = v (ix1 (⟨(i 1).val, (i 1).isLt⟩ : Fin 64)) := by
  refine (broadcastInDim_apply _ bcast_S1x64_S100000x64_0_1 _ i (ix2 (0 : Fin 1) (⟨(i 1).val, (i 1).isLt⟩ : Fin 64)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ bcast_S64_S1x64_1 v _ (ix1 (⟨(i 1).val, (i 1).isLt⟩ : Fin 64)) (fun a => match a with
    | ⟨0, _⟩ => by show (i 1).val = if (64 : Nat) = 1 then 0 else (i 1).val; rw [if_neg (by decide)])

/-- A vector recast as one row, read at column j, is the vector at j. -/
theorem vecRowB (g : FVec Ideal S64 .f32) (sc : S64.ShapeCasts S1x64) (j : Fin 64) :
    shapeCast S1x64 g sc (ix2 (0 : Fin 1) j) = g (ix1 j) := by
  refine (shapeCast_addUnit_apply _ g sc _).trans (congrArg g (funext fun a => ?_))
  match a with | ⟨0, _⟩ => rfl

/-- Row 0 of the running statistics, sliced out, at column j: the column's sum. -/
theorem statRow0B (y : FVec Ideal S100000x64 .f32) (sl0 : Cert.KernelIdeal.S2x64.Slices ![0, 0] S1x64) (j : Fin 64) :
    extractStridedSlice S1x64 ![0, 0] (columnSumsB y) sl0 (ix2 (0 : Fin 1) j) = ∑ r : Fin 100000, y (ix2 r j) := by
  refine (extractStridedSlice_apply ![0, 0] _ sl0 _ (ix2 (0 : Fin 2) j) (fun a => match a with
    | ⟨0, _⟩ => rfl
    | ⟨1, _⟩ => (Nat.zero_add _).symm)).trans ?_
  exact if_pos rfl

/-- Row 1 of the running statistics, sliced out, at column j: the column's sum of squares. -/
theorem statRow1B (y : FVec Ideal S100000x64 .f32) (sl1 : Cert.KernelIdeal.S2x64.Slices ![1, 0] S1x64) (j : Fin 64) :
    extractStridedSlice S1x64 ![1, 0] (columnSumsB y) sl1 (ix2 (0 : Fin 1) j)
      = ∑ r : Fin 100000, y (ix2 r j) * y (ix2 r j) := by
  refine (extractStridedSlice_apply ![1, 0] _ sl1 _ (ix2 (1 : Fin 2) j) (fun a => match a with
    | ⟨0, _⟩ => rfl
    | ⟨1, _⟩ => (Nat.zero_add _).symm)).trans ?_
  exact if_neg Nat.one_ne_zero

/-- A row vector divided by the row count broadcast from a scalar, read at an index. -/
theorem divRowsB_apply (X : FVec Ideal S1x64 .f32) (bc : S_.BroadcastsInDim S1x64 (![] : Fin 0 → Fin S1x64.rank)) (k : S1x64.Idx) :
    Host.divf X (broadcastInDim S1x64 ![] bc (constant S_ .f32 0x47C35000#32)) k = Ideal.div (X k) ((100000 : ℝ) : EReal) := by
  show Ideal.div (X k) (broadcastInDim S1x64 ![] bc (constant (F := Ideal) S_ .f32 0x47C35000#32) k) = _
  rw [broadcastInDim_apply _ bc (constant (F := Ideal) S_ .f32 0x47C35000#32) k (fun a => a.elim0) (fun a => a.elim0)]
  show Ideal.div (X k) (Ideal.ofBits .f32 0x47C35000#32) = _
  rw [ofBits_rows]

/-- The kernel's normalisation read at an index whose column is j. -/
theorem normalizedB_apply (y : FVec Ideal S100000x64 .f32) (mean var gamma beta : FVec Ideal S1x64 .f32)
    (i : S100000x64.Idx) (j : Fin 64) (hj : (i 1).val = j.val) :
    normalizedB y mean var gamma beta i
      = (y i - mean (ix2 (0 : Fin 1) j)) * Ideal.rsqrt (var (ix2 (0 : Fin 1) j) + Ideal.ofBits .f32 0x3727C5AC#32) * gamma (ix2 (0 : Fin 1) j) + beta (ix2 (0 : Fin 1) j) := by
  have e : (⟨(i 1).val, (i 1).isLt⟩ : Fin 64) = j := Fin.ext hj
  unfold normalizedB
  rw [e]

/-- The reference's column means. -/
def bnMeanB (y : FVec Ideal S100000x64 .f32) : FVec Ideal S64 .f32 :=
  Host.divf (Host.reduceAdd y (val_main_cst_21 (F := Ideal)) reducesTo_S100000x64_S64_d0 h_S_) (val_main_v100 (F := Ideal))

/-- The reference's deviations from a vector of column values broadcast down the rows. -/
def bnDevB (y : FVec Ideal S100000x64 .f32) (M : FVec Ideal S64 .f32) : FVec Ideal S100000x64 .f32 :=
  subf y (broadcastInDim S100000x64 ![0, 1] bcast_S1x64_S100000x64_0_1 (broadcastInDim S1x64 ![1] bcast_S64_S1x64_1 M))

/-- The reference's column means of squares of an array. -/
def bnVarB (d : FVec Ideal S100000x64 .f32) : FVec Ideal S64 .f32 :=
  Host.divf (Host.reduceAdd (mulf d d) (val_main_cst_23 (F := Ideal)) reducesTo_S100000x64_S64_d0 h_S_) (val_main_v107 (F := Ideal))

/-- The reference's scaling of the deviations by the reciprocal root of the variance plus ε, and the affine map. -/
def bnOutB (d : FVec Ideal S100000x64 .f32) (Vr g b : FVec Ideal S64 .f32) : FVec Ideal S100000x64 .f32 :=
  addf (mulf (mulf d (broadcastInDim S100000x64 ![0, 1] bcast_S1x64_S100000x64_0_1 (broadcastInDim S1x64 ![1] bcast_S64_S1x64_1 (Host.rsqrt (addf Vr (val_main_v112 (F := Ideal)))))))
      (broadcastInDim S100000x64 ![0, 1] bcast_S1x64_S100000x64_0_1 (broadcastInDim S1x64 ![1] bcast_S64_S1x64_1 g)))
    (broadcastInDim S100000x64 ![0, 1] bcast_S1x64_S100000x64_0_1 (broadcastInDim S1x64 ![1] bcast_S64_S1x64_1 b))

/-- The reference's normalisation, as a function of the activations it normalises. -/
def refBNB (y : FVec Ideal S100000x64 .f32) (g b : FVec Ideal S64 .f32) : FVec Ideal S100000x64 .f32 :=
  bnOutB (bnDevB y (bnMeanB y)) (bnVarB (bnDevB y (bnMeanB y))) g b

/-- The reference's stages from the activations to the normalised array are that function. -/
theorem refBNB_stage (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal))
    (x9 x10 : (⟨S128, .f32⟩ : BufTy).Contents (Elt Ideal)) (x11 x12 : (⟨S64, .f32⟩ : BufTy).Contents (Elt Ideal)) :
    refBNB (val_main_v98 (F := Ideal) x0 x1 x3 x4 x5 x6 x9 x10) x11 x12 = val_main_v123 (F := Ideal) x0 x1 x3 x4 x5 x6 x9 x10 x11 x12 := by
  generalize hy : val_main_v98 (F := Ideal) x0 x1 x3 x4 x5 x6 x9 x10 = y
  unfold val_main_v123 val_main_v122 val_main_v121 val_main_v120 val_main_v119 val_main_v118 val_main_v117 val_main_v116 val_main_v115
    val_main_v114 val_main_v113 val_main_v111 val_main_v110 val_main_v109 val_main_v108 val_main_v106 val_main_v105 val_main_v104
    val_main_v103 val_main_v102 val_main_v101 val_main_v99
  rw [hy]
  rfl
/-- The reference's column mean at column j. -/
theorem bnMeanB_apply (y : FVec Ideal S100000x64 .f32) (j : Fin 64) :
    bnMeanB y (ix1 j) = Ideal.div (∑ k : Fin 100000, y (ix2 k j)) ((100000 : ℝ) : EReal) := by
  unfold bnMeanB
  show Ideal.div (Host.reduceAdd y (val_main_cst_21 (F := Ideal)) reducesTo_S100000x64_S64_d0 h_S_ (ix1 j)) (val_main_v100 (F := Ideal) (ix1 j)) = _
  rw [reduceRowsB_apply, val_main_v100_apply, val_main_cst_22_apply, val_main_cst_21_apply]
  simp only [Ideal.ofBits_def, ofBits_zero, zero_add, ofBits_rows]

/-- The reference's column mean of squares at column j. -/
theorem bnVarB_apply (d : FVec Ideal S100000x64 .f32) (j : Fin 64) :
    bnVarB d (ix1 j) = Ideal.div (∑ k : Fin 100000, d (ix2 k j) * d (ix2 k j)) ((100000 : ℝ) : EReal) := by
  unfold bnVarB
  show Ideal.div (Host.reduceAdd (mulf d d) (val_main_cst_23 (F := Ideal)) reducesTo_S100000x64_S64_d0 h_S_ (ix1 j)) (val_main_v107 (F := Ideal) (ix1 j)) = _
  rw [reduceRowsB_apply, val_main_v107_apply, val_main_cst_24_apply, val_main_cst_23_apply]
  simp only [Ideal.ofBits_def, ofBits_zero, zero_add, ofBits_rows]
  rfl

/-- A deviation at an index whose column is j. -/
theorem bnDevB_apply (y : FVec Ideal S100000x64 .f32) (M : FVec Ideal S64 .f32) (i : S100000x64.Idx) (j : Fin 64)
    (hj : (i 1).val = j.val) : bnDevB y M i = y i - M (ix1 j) := by
  have e : (⟨(i 1).val, (i 1).isLt⟩ : Fin 64) = j := Fin.ext hj
  unfold bnDevB
  show y i - broadcastInDim S100000x64 ![0, 1] bcast_S1x64_S100000x64_0_1 (broadcastInDim S1x64 ![1] bcast_S64_S1x64_1 M) i = _
  rw [bcast2B_apply, e]

/-- The reference's last stage at an index whose column is j. -/
theorem bnOutB_apply (d : FVec Ideal S100000x64 .f32) (Vr g b : FVec Ideal S64 .f32) (i : S100000x64.Idx) (j : Fin 64)
    (hj : (i 1).val = j.val) :
    bnOutB d Vr g b i = d i * Ideal.rsqrt (Vr (ix1 j) + Ideal.ofBits .f32 0x3727C5AC#32) * g (ix1 j) + b (ix1 j) := by
  have e : (⟨(i 1).val, (i 1).isLt⟩ : Fin 64) = j := Fin.ext hj
  unfold bnOutB
  show d i * broadcastInDim S100000x64 ![0, 1] bcast_S1x64_S100000x64_0_1 (broadcastInDim S1x64 ![1] bcast_S64_S1x64_1 (Host.rsqrt (addf Vr (val_main_v112 (F := Ideal))))) i
      * broadcastInDim S100000x64 ![0, 1] bcast_S1x64_S100000x64_0_1 (broadcastInDim S1x64 ![1] bcast_S64_S1x64_1 g) i
      + broadcastInDim S100000x64 ![0, 1] bcast_S1x64_S100000x64_0_1 (broadcastInDim S1x64 ![1] bcast_S64_S1x64_1 b) i = _
  rw [bcast2B_apply, bcast2B_apply, bcast2B_apply, e]
  show d i * Ideal.rsqrt (Vr (ix1 j) + val_main_v112 (F := Ideal) (ix1 j)) * g (ix1 j) + b (ix1 j) = _
  rw [val_main_v112_apply, val_main_cst_25_apply]
  rfl

/-- The reference's normalisation at an index whose column is j: the deviation from the column's mean, scaled by the
    reciprocal root of the column's mean squared deviation plus ε, then the affine map. -/
theorem refBNB_apply (y : FVec Ideal S100000x64 .f32) (g b : FVec Ideal S64 .f32) (i : S100000x64.Idx) (j : Fin 64)
    (hj : (i 1).val = j.val) :
    refBNB y g b i
      = (y i - Ideal.div (∑ q : Fin 100000, y (ix2 q j)) ((100000 : ℝ) : EReal))
          * Ideal.rsqrt (Ideal.div (∑ r : Fin 100000, (y (ix2 r j) - Ideal.div (∑ q : Fin 100000, y (ix2 q j)) ((100000 : ℝ) : EReal))
                * (y (ix2 r j) - Ideal.div (∑ q : Fin 100000, y (ix2 q j)) ((100000 : ℝ) : EReal))) ((100000 : ℝ) : EReal)
              + Ideal.ofBits .f32 0x3727C5AC#32)
          * g (ix1 j) + b (ix1 j) := by
  unfold refBNB
  rw [bnOutB_apply _ _ g b i j hj, bnVarB_apply, bnDevB_apply y _ i j hj, bnMeanB_apply]
  have hd : ∀ r : Fin 100000, bnDevB y (bnMeanB y) (ix2 r j)
      = y (ix2 r j) - Ideal.div (∑ q : Fin 100000, y (ix2 q j)) ((100000 : ℝ) : EReal) := fun r => by
    rw [bnDevB_apply y _ (ix2 r j) j rfl, bnMeanB_apply]
  simp only [hd]

/-- The two normalisations agree on real activations, for any row vectors that hold the kernel's column mean, column
    mean of squares, scale and shift: E[y²] − E[y]² is E[(y − E[y])²] column by column, and the rest is the same
    expression. -/
theorem bnB_core (y : FVec Ideal S100000x64 .f32) (hy : ∀ i, IsReal (y i)) (g b : FVec Ideal S64 .f32)
    (M Q G B : FVec Ideal S1x64 .f32)
    (hM : ∀ j : Fin 64, M (ix2 (0 : Fin 1) j) = Ideal.div (∑ r : Fin 100000, y (ix2 r j)) ((100000 : ℝ) : EReal))
    (hQ : ∀ j : Fin 64, Q (ix2 (0 : Fin 1) j) = Ideal.div (∑ r : Fin 100000, y (ix2 r j) * y (ix2 r j)) ((100000 : ℝ) : EReal))
    (hG : ∀ j : Fin 64, G (ix2 (0 : Fin 1) j) = g (ix1 j)) (hB : ∀ j : Fin 64, B (ix2 (0 : Fin 1) j) = b (ix1 j)) :
    normalizedB y M (subf Q (mulf M M)) G B = refBNB y g b := by
  funext i
  obtain ⟨j, hj⟩ : ∃ j : Fin 64, (i 1).val = j.val := ⟨⟨(i 1).val, (i 1).isLt⟩, rfl⟩
  rw [normalizedB_apply y M (subf Q (mulf M M)) G B i j hj, refBNB_apply y g b i j hj]
  refine bnFormula_congr _ rfl (hM j) ?_ (hG j) (hB j)
  show Q (ix2 (0 : Fin 1) j) - M (ix2 (0 : Fin 1) j) * M (ix2 (0 : Fin 1) j) = _
  rw [hQ, hM]
  exact var_identity (fun r : Fin 100000 => y (ix2 r j)) (fun r => hy _) 100000 (by norm_num) (by simp)

/-- The two normalisations agree on activations that are real numbers: the kernel's mean is Σy / 100000 and its variance
    Σy² / 100000 minus the squared mean, both read off its running column sums. -/
theorem bnB_eq (y : FVec Ideal S100000x64 .f32) (hy : ∀ i, IsReal (y i)) (g b : FVec Ideal S64 .f32)
    (sc : S64.ShapeCasts S1x64) (sl0 : Cert.KernelIdeal.S2x64.Slices ![0, 0] S1x64) (sl1 : Cert.KernelIdeal.S2x64.Slices ![1, 0] S1x64)
    (bc : S_.BroadcastsInDim S1x64 (![] : Fin 0 → Fin S1x64.rank)) :
    normalizedB y
      (Host.divf (extractStridedSlice S1x64 ![0, 0] (columnSumsB y) sl0) (broadcastInDim S1x64 ![] bc (constant S_ .f32 0x47C35000#32)))
      (subf (Host.divf (extractStridedSlice S1x64 ![1, 0] (columnSumsB y) sl1) (broadcastInDim S1x64 ![] bc (constant S_ .f32 0x47C35000#32)))
        (mulf (Host.divf (extractStridedSlice S1x64 ![0, 0] (columnSumsB y) sl0) (broadcastInDim S1x64 ![] bc (constant S_ .f32 0x47C35000#32)))
              (Host.divf (extractStridedSlice S1x64 ![0, 0] (columnSumsB y) sl0) (broadcastInDim S1x64 ![] bc (constant S_ .f32 0x47C35000#32)))))
      (shapeCast S1x64 g sc) (shapeCast S1x64 b sc)
    = refBNB y g b :=
  bnB_core y hy g b _ _ _ _
    (fun j => by rw [divRowsB_apply, statRow0B])
    (fun j => by rw [divRowsB_apply, statRow1B])
    (vecRowB g sc) (vecRowB b sc)

end Cert.Bridge

end
-- ==== Proof.MatmulA.lean ====
/- The first matrix product of the network (region 0 of the program): the output array of the region, after all fifty
   grid points have written their blocks back, is entry by entry the exact row-by-column sum of products of the region's
   two input arrays — the 100000 × 128 row array and the 128 × 128 weight matrix — as the region found them.
   The steps: the body's payload at an entry of a block (a sum over the contracted coordinate); what a point writes back,
   as a block of one whole-array function; every row is in the block of the point `row / 2000`; hence the array. -/
import proofs.«153942_j44160853737649_1_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.MatmulA

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)

/-- The product of the row array by the weight matrix: entry (r, q) is the sum over k of x(r, k) · w(k, q). -/
def rowsTimes (x : FVec Ideal S100000x128 .f32) (w : FVec Ideal S128x128 .f32) : FVec Ideal S100000x128 .f32 :=
  fun i => ∑ k : Fin 128, x (ix2 (⟨(i 0).val, (i 0).isLt⟩ : Fin 100000) k) * w (ix2 k (⟨(i 1).val, (i 1).isLt⟩ : Fin 128))

/-- The left operand's index at output entry `i` and contraction position `p`: its row is the output's row, -/
theorem lhs_row (i : S2000x128.Idx) (p : dot_S2000x128_S128x128_S2000x128_1_0_0_1_n_n.contr.Idx) :
    (dot_S2000x128_S128x128_S2000x128_1_0_0_1_n_n.lhsIdx i p 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and its column is the contraction position. -/
theorem lhs_col (i : S2000x128.Idx) (p : dot_S2000x128_S128x128_S2000x128_1_0_0_1_n_n.contr.Idx) :
    (dot_S2000x128_S128x128_S2000x128_1_0_0_1_n_n.lhsIdx i p 1).val = (p ⟨0, by decide⟩).val :=
  dot_S2000x128_S128x128_S2000x128_1_0_0_1_n_n.lhsIdx_val_of_single rfl i p
/-- The right operand's index: its row is the contraction position, -/
theorem rhs_row (i : S2000x128.Idx) (p : dot_S2000x128_S128x128_S2000x128_1_0_0_1_n_n.contr.Idx) :
    (dot_S2000x128_S128x128_S2000x128_1_0_0_1_n_n.rhsIdx i p 0).val = (p ⟨0, by decide⟩).val :=
  dot_S2000x128_S128x128_S2000x128_1_0_0_1_n_n.rhsIdx_val_of_single rfl i p
/-- and its column is the output's column. -/
theorem rhs_col (i : S2000x128.Idx) (p : dot_S2000x128_S128x128_S2000x128_1_0_0_1_n_n.contr.Idx) :
    (dot_S2000x128_S128x128_S2000x128_1_0_0_1_n_n.rhsIdx i p 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The body's payload at an entry of the block: both roundings to bf16 are the identity on the ideal values, and the
    matrix product into the zero accumulator is the sum over the contracted coordinate of the products. -/
theorem pay_apply (x0 : Vec Ideal S2000x128 .f32) (x1 : Vec Ideal S128x128 .f32) (r : Fin 2000) (q : Fin 128) :
    k0_pay1 x0 x1 (ix2 r q) = ∑ k : Fin 128, x0 (ix2 r k) * x1 (ix2 k q) := by
  unfold k0_pay1
  refine (Ideal.matmul_constant_zero_apply dot_S2000x128_S128x128_S2000x128_1_0_0_1_n_n none _ _ (ix2 r q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 r q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

theorem hz : (![0, 0] : Fin 2 → Nat) = fun _ => 0 := funext fun a => by fin_cases a <;> rfl

/-- The printed index maps, decided over the grid: at point `t` the block of the row array and the block of the output
    are the `t`-th blocks of 2000 rows (all 128 columns), and the weight matrix's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of what a point computes, over any two loaded blocks: if the first block is rows `2000 n … 2000 n + 1999`
    of the array `A` and the second is the whole matrix `W`, the payload at entry `j` of the block is the entry of
    `rowsTimes A W` at row `2000 n + j₀`, column `j₁`. -/
theorem block_value (x0 : Vec Ideal S2000x128 .f32) (x1 : Vec Ideal S128x128 .f32)
    (A : FVec Ideal S100000x128 .f32) (W : FVec Ideal S128x128 .f32) (n : Nat)
    (h0 : ∀ (r : Fin 2000) (k : Fin 128) (i : S100000x128.Idx), (i 0).val = n * 2000 + r.val → (i 1).val = k.val → x0 (ix2 r k) = A i)
    (h1 : ∀ (k q : Fin 128), x1 (ix2 k q) = W (ix2 k q))
    (j : S2000x128.Idx) (i : S100000x128.Idx) (hi0 : (i 0).val = n * 2000 + (j 0).val) (hi1 : (i 1).val = (j 1).val) :
    k0_pay1 x0 x1 j = rowsTimes A W i := by
  obtain ⟨r, q, rfl⟩ : ∃ (r : Fin 2000) (q : Fin 128), j = ix2 r q := ⟨j 0, j 1, eq_ix2 j⟩
  rw [pay_apply]
  unfold rowsTimes
  have hq : (⟨(i 1).val, (i 1).isLt⟩ : Fin 128) = q := Fin.ext hi1
  rw [hq]
  refine Finset.sum_congr rfl fun k _ => ?_
  rw [h0 r k (ix2 (⟨(i 0).val, (i 0).isLt⟩ : Fin 100000) k) hi0 rfl, h1 k q]

/-- What point `t` writes back to the output array is block `t` of `rowsTimes` of the two input arrays as the region
    finds them: row `r` of the block of the row array is row `2000 t + r` of the array, the weight matrix's block is
    the matrix, and entry `j` of the output block sits at row `2000 t + j₀`, column `j₁` of the output array. -/
theorem flushed_eq (t : Fin cfg0.N) :
    (dat0 (F := Ideal) V c).flushed 2 t
      = ((cfg0.win 2).blk t).view.read (Elt Ideal) (rowsTimes (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  show k0_pay1 (iblk0 V c 0 t) (iblk0 V c 1 t) j
    = rowsTimes (V c (Pipeline.arrRef spec0 0)) (V c (Pipeline.arrRef spec0 1)) (((cfg0.win 2).blk t).view.emb j)
  refine block_value (iblk0 V c 0 t) (iblk0 V c 1 t) (V c (Pipeline.arrRef spec0 0)) (V c (Pipeline.arrRef spec0 1)) t.val
    ?_ ?_ j (((cfg0.win 2).blk t).view.emb j) ?_ ?_
  · intro r k i hi0 hi1
    show V c (Pipeline.arrRef spec0 0) (((cfg0.win 0).blk t).view.emb (ix2 r k)) = V c (Pipeline.arrRef spec0 0) i
    refine congrArg (V c (Pipeline.arrRef spec0 0)) (funext fun a => Fin.ext ?_)
    match a with
    | ⟨0, _⟩ => show win0_0.index t (0 : Fin 2) * 2000 + 1 * r.val = (i 0).val; rw [e0, hi0]; omega
    | ⟨1, _⟩ => show win0_0.index t (1 : Fin 2) * 128 + 1 * k.val = (i 1).val; rw [e1, hi1]; omega
  · intro k q
    show V c (Pipeline.arrRef spec0 1) (((cfg0.win 1).blk t).view.emb (ix2 k q)) = V c (Pipeline.arrRef spec0 1) (ix2 k q)
    refine congrArg (V c (Pipeline.arrRef spec0 1)) (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  · show win0_2.index t (0 : Fin 2) * 2000 + 1 * (j 0).val = t.val * 2000 + (j 0).val; rw [e4]; omega
  · show win0_2.index t (1 : Fin 2) * 128 + 1 * (j 1).val = (j 1).val; rw [e5]; omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every entry of the output array is written back by some point: row `r` lies in the block of point `r / 2000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  have ht : (i 0).val / 2000 < cfg0.N := by rw [hN]; omega
  obtain ⟨e0, e1, e2, e3, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]
    omega

/-- THE OUTPUT ARRAY AFTER THE REGION: every entry is the exact row-by-column sum of products of the region's two input
    arrays as the region found them. -/
theorem array_eq :
    (dat0 (F := Ideal) V c).arrAt 2 cfg0.N = rowsTimes (V c (Pipeline.arrRef spec0 0)) (V c (Pipeline.arrRef spec0 1)) :=
  (dat0 (F := Ideal) V c).arrAt_eq_of_cover 2 (rowsTimes (V c (Pipeline.arrRef spec0 0)) (V c (Pipeline.arrRef spec0 1)))
    (fun t _ => flushed_eq V c t) cover

end Cert.KernelIdeal.MatmulA

end
-- ==== Proof.MatmulB.lean ====
/- The second matrix product of the network (region 3 of the program): the output array of the region, after all fifty
   grid points have written their blocks back, is entry by entry the exact row-by-column sum of products of the region's
   two input arrays — the 100000 × 128 row array and the 128 × 64 weight matrix — as the region found them.
   The steps: the body's payload at an entry of a block (a sum over the contracted coordinate); what a point writes back,
   as a block of one whole-array function; every row is in the block of the point `row / 2000`; hence the array. -/
import proofs.«153942_j44160853737649_1_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.MatmulB

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)

/-- The product of the row array by the weight matrix: entry (r, q) is the sum over k of x(r, k) · w(k, q). -/
def rowsTimes (x : FVec Ideal S100000x128 .f32) (w : FVec Ideal S128x64 .f32) : FVec Ideal S100000x64 .f32 :=
  fun i => ∑ k : Fin 128, x (ix2 (⟨(i 0).val, (i 0).isLt⟩ : Fin 100000) k) * w (ix2 k (⟨(i 1).val, (i 1).isLt⟩ : Fin 64))

/-- The left operand's index at output entry `i` and contraction position `p`: its row is the output's row, -/
theorem lhs_row (i : S2000x64.Idx) (p : dot_S2000x128_S128x64_S2000x64_1_0_0_1_n_n.contr.Idx) :
    (dot_S2000x128_S128x64_S2000x64_1_0_0_1_n_n.lhsIdx i p 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- and its column is the contraction position. -/
theorem lhs_col (i : S2000x64.Idx) (p : dot_S2000x128_S128x64_S2000x64_1_0_0_1_n_n.contr.Idx) :
    (dot_S2000x128_S128x64_S2000x64_1_0_0_1_n_n.lhsIdx i p 1).val = (p ⟨0, by decide⟩).val :=
  dot_S2000x128_S128x64_S2000x64_1_0_0_1_n_n.lhsIdx_val_of_single rfl i p
/-- The right operand's index: its row is the contraction position, -/
theorem rhs_row (i : S2000x64.Idx) (p : dot_S2000x128_S128x64_S2000x64_1_0_0_1_n_n.contr.Idx) :
    (dot_S2000x128_S128x64_S2000x64_1_0_0_1_n_n.rhsIdx i p 0).val = (p ⟨0, by decide⟩).val :=
  dot_S2000x128_S128x64_S2000x64_1_0_0_1_n_n.rhsIdx_val_of_single rfl i p
/-- and its column is the output's column. -/
theorem rhs_col (i : S2000x64.Idx) (p : dot_S2000x128_S128x64_S2000x64_1_0_0_1_n_n.contr.Idx) :
    (dot_S2000x128_S128x64_S2000x64_1_0_0_1_n_n.rhsIdx i p 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's payload at an entry of the block: the reshape to the same shape and both roundings to bf16 are the identity on the ideal values, and the
    matrix product into the zero accumulator is the sum over the contracted coordinate of the products. -/
theorem pay_apply (x0 : Vec Ideal S2000x128 .f32) (x1 : Vec Ideal S128x64 .f32) (r : Fin 2000) (q : Fin 64) :
    k3_pay1 x0 x1 (ix2 r q) = ∑ k : Fin 128, x0 (ix2 r k) * x1 (ix2 k q) := by
  unfold k3_pay1
  rw [shapeCast_self]
  refine (Ideal.matmul_constant_zero_apply dot_S2000x128_S128x64_S2000x64_1_0_0_1_n_n none _ _ (ix2 r q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 r q) ((contrEquiv1 dot_S2000x128_S128x64_S2000x64_1_0_0_1_n_n 128 rfl rfl).symm k) = ix2 r k := funext fun a => Fin.ext (by
    match a with
    | ⟨0, _⟩ => exact lhs_row _ _
    | ⟨1, _⟩ => exact (lhs_col _ _).trans hk)
  have er : dot_S2000x128_S128x64_S2000x64_1_0_0_1_n_n.rhsIdx (ix2 r q) ((contrEquiv1 dot_S2000x128_S128x64_S2000x64_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

theorem hz : (![0, 0] : Fin 2 → Nat) = fun _ => 0 := funext fun a => by fin_cases a <;> rfl

/-- The printed index maps, decided over the grid: at point `t` the block of the row array and the block of the output
    are the `t`-th blocks of 2000 rows (all their columns), and the weight matrix's block is the whole matrix. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of what a point computes, over any two loaded blocks: if the first block is rows `2000 n … 2000 n + 1999`
    of the array `A` and the second is the whole matrix `W`, the payload at entry `j` of the block is the entry of
    `rowsTimes A W` at row `2000 n + j₀`, column `j₁`. -/
theorem block_value (x0 : Vec Ideal S2000x128 .f32) (x1 : Vec Ideal S128x64 .f32)
    (A : FVec Ideal S100000x128 .f32) (W : FVec Ideal S128x64 .f32) (n : Nat)
    (h0 : ∀ (r : Fin 2000) (k : Fin 128) (i : S100000x128.Idx), (i 0).val = n * 2000 + r.val → (i 1).val = k.val → x0 (ix2 r k) = A i)
    (h1 : ∀ (k : Fin 128) (q : Fin 64), x1 (ix2 k q) = W (ix2 k q))
    (j : S2000x64.Idx) (i : S100000x64.Idx) (hi0 : (i 0).val = n * 2000 + (j 0).val) (hi1 : (i 1).val = (j 1).val) :
    k3_pay1 x0 x1 j = rowsTimes A W i := by
  obtain ⟨r, q, rfl⟩ : ∃ (r : Fin 2000) (q : Fin 64), j = ix2 r q := ⟨j 0, j 1, eq_ix2 j⟩
  rw [pay_apply]
  unfold rowsTimes
  have hq : (⟨(i 1).val, (i 1).isLt⟩ : Fin 64) = q := Fin.ext hi1
  rw [hq]
  refine Finset.sum_congr rfl fun k _ => ?_
  rw [h0 r k (ix2 (⟨(i 0).val, (i 0).isLt⟩ : Fin 100000) k) hi0 rfl, h1 k q]

/-- What point `t` writes back to the output array is block `t` of `rowsTimes` of the two input arrays as the region
    finds them: row `r` of the block of the row array is row `2000 t + r` of the array, the weight matrix's block is
    the matrix, and entry `j` of the output block sits at row `2000 t + j₀`, column `j₁` of the output array. -/
theorem flushed_eq (t : Fin cfg3.N) :
    (dat3 (F := Ideal) V c).flushed 2 t
      = ((cfg3.win 2).blk t).view.read (Elt Ideal) (rowsTimes (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S2000x128) hz, View.ld_unit_zero (S := S128x64) hz]
  obtain ⟨e0, e1, e2, e3, e4, e5⟩ := idx_facts t
  funext j
  show k3_pay1 (iblk3 V c 0 t) (iblk3 V c 1 t) j
    = rowsTimes (V c (Pipeline.arrRef spec3 0)) (V c (Pipeline.arrRef spec3 1)) (((cfg3.win 2).blk t).view.emb j)
  refine block_value (iblk3 V c 0 t) (iblk3 V c 1 t) (V c (Pipeline.arrRef spec3 0)) (V c (Pipeline.arrRef spec3 1)) t.val
    ?_ ?_ j (((cfg3.win 2).blk t).view.emb j) ?_ ?_
  · intro r k i hi0 hi1
    show V c (Pipeline.arrRef spec3 0) (((cfg3.win 0).blk t).view.emb (ix2 r k)) = V c (Pipeline.arrRef spec3 0) i
    refine congrArg (V c (Pipeline.arrRef spec3 0)) (funext fun a => Fin.ext ?_)
    match a with
    | ⟨0, _⟩ => show win3_0.index t (0 : Fin 2) * 2000 + 1 * r.val = (i 0).val; rw [e0, hi0]; omega
    | ⟨1, _⟩ => show win3_0.index t (1 : Fin 2) * 128 + 1 * k.val = (i 1).val; rw [e1, hi1]; omega
  · intro k q
    show V c (Pipeline.arrRef spec3 1) (((cfg3.win 1).blk t).view.emb (ix2 k q)) = V c (Pipeline.arrRef spec3 1) (ix2 k q)
    refine congrArg (V c (Pipeline.arrRef spec3 1)) (funext fun a => Fin.ext ?_)
    match a with
    | ⟨0, _⟩ => show win3_1.index t (0 : Fin 2) * 128 + 1 * k.val = k.val; rw [e2]; omega
    | ⟨1, _⟩ => show win3_1.index t (1 : Fin 2) * 64 + 1 * q.val = q.val; rw [e3]; omega
  · show win3_2.index t (0 : Fin 2) * 2000 + 1 * (j 0).val = t.val * 2000 + (j 0).val; rw [e4]; omega
  · show win3_2.index t (1 : Fin 2) * 64 + 1 * (j 1).val = (j 1).val; rw [e5]; omega

/-- An index of the output array is in point `t`'s block iff each coordinate is in the block's range on its axis. -/
theorem mem_blk (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v57).slice (win3_2.rect t)).set ↔ _
  rw [View.set_slice_whole, Rect.mem_set_unit]
  exact Iff.rfl

/-- Every entry of the output array is written back by some point: row `r` lies in the block of point `r / 2000`. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  have ht : (i 0).val / 2000 < cfg3.N := by rw [hN]; omega
  obtain ⟨e0, e1, e2, e3, e4, e5⟩ := idx_facts ⟨(i 0).val / 2000, ht⟩
  refine ⟨⟨(i 0).val / 2000, ht⟩, flush3_2 _, ?_⟩
  rw [mem_blk]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, ht⟩ (1 : Fin 2) * 64 ≤ (i 1).val ∧ (i 1).val < win3_2.index ⟨(i 0).val / 2000, ht⟩ (1 : Fin 2) * 64 + 64
    rw [e5]
    omega

/-- THE OUTPUT ARRAY AFTER THE REGION: every entry is the exact row-by-column sum of products of the region's two input
    arrays as the region found them. -/
theorem array_eq :
    (dat3 (F := Ideal) V c).arrAt 2 cfg3.N = rowsTimes (V c (Pipeline.arrRef spec3 0)) (V c (Pipeline.arrRef spec3 1)) :=
  (dat3 (F := Ideal) V c).arrAt_eq_of_cover 2 (rowsTimes (V c (Pipeline.arrRef spec3 0)) (V c (Pipeline.arrRef spec3 1)))
    (fun t _ => flushed_eq V c t) cover

end Cert.KernelIdeal.MatmulB

end
-- ==== Proof.MatmulC.lean ====
/- The third matrix product of the network (region 6 of the program): the output array of the region, after all fifty
   grid points have written their blocks back, is entry by entry the exact row-by-column sum of products of the region's
   two input arrays — the 100000 × 64 row array and the 64 × 8 weight matrix — as the region found them.
   The steps: the body's payload at an entry of a block (a sum over the contracted coordinate); what a point writes back,
   as a block of one whole-array function; every row is in the block of the point `row / 2000`; hence the array. -/
import proofs.«153942_j44160853737649_1_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.MatmulC

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)

/-- The product of the row array by the weight matrix: entry (r, q) is the sum over k of x(r, k) · w(k, q). -/
def rowsTimes (x : FVec Ideal S100000x64 .f32) (w : FVec Ideal S64x8 .f32) : FVec Ideal S100000x8 .f32 :=
  fun i => ∑ k : Fin 64, x (ix2 (⟨(i 0).val, (i 0).isLt⟩ : Fin 100000) k) * w (ix2 k (⟨(i 1).val, (i 1).isLt⟩ : Fin 8))

/-- The left operand's index at output entry `i` and contraction position `p`: its row is the output's row, -/
theorem lhs_row (i : S2000x8.Idx) (p : dot_S2000x64_S64x8_S2000x8_1_0_0_1_n_n.contr.Idx) :
    (dot_S2000x64_S64x8_S2000x8_1_0_0_1_n_n.lhsIdx i p 0).val = (i 0).val := by
  unfold DotDims.lhsIdx
  rw [dif_neg (show ¬(0 : Fin S2000x64.rank) ∈ dot_S2000x64_S64x8_S2000x8_1_0_0_1_n_n.lhsBatch by decide), dif_pos (show (0 : Fin S2000x64.rank) ∈ dot_S2000x64_S64x8_S2000x8_1_0_0_1_n_n.lhsNonContracting by decide)]
  rfl
/-- and its column is the contraction position. -/
theorem lhs_col (i : S2000x8.Idx) (p : dot_S2000x64_S64x8_S2000x8_1_0_0_1_n_n.contr.Idx) :
    (dot_S2000x64_S64x8_S2000x8_1_0_0_1_n_n.lhsIdx i p 1).val = (p ⟨0, by decide⟩).val :=
  dot_S2000x64_S64x8_S2000x8_1_0_0_1_n_n.lhsIdx_val_of_single rfl i p
/-- The right operand's index: its row is the contraction position, -/
theorem rhs_row (i : S2000x8.Idx) (p : dot_S2000x64_S64x8_S2000x8_1_0_0_1_n_n.contr.Idx) :
    (dot_S2000x64_S64x8_S2000x8_1_0_0_1_n_n.rhsIdx i p 0).val = (p ⟨0, by decide⟩).val :=
  dot_S2000x64_S64x8_S2000x8_1_0_0_1_n_n.rhsIdx_val_of_single rfl i p
/-- and its column is the output's column. -/
theorem rhs_col (i : S2000x8.Idx) (p : dot_S2000x64_S64x8_S2000x8_1_0_0_1_n_n.contr.Idx) :
    (dot_S2000x64_S64x8_S2000x8_1_0_0_1_n_n.rhsIdx i p 1).val = (i 1).val := by
  unfold DotDims.rhsIdx
  rw [dif_neg (show ¬(1 : Fin S64x8.rank) ∈ dot_S2000x64_S64x8_S2000x8_1_0_0_1_n_n.rhsBatch by decide), dif_pos (show (1 : Fin S64x8.rank) ∈ dot_S2000x64_S64x8_S2000x8_1_0_0_1_n_n.rhsNonContracting by decide)]
  rfl

/-- The body's payload at an entry of the block: the reshape to the same shape and both roundings to bf16 are the identity on the ideal values, and the
    matrix product into the zero accumulator is the sum over the contracted coordinate of the products. -/
theorem pay_apply (x0 : Vec Ideal S2000x64 .f32) (x1 : Vec Ideal S64x8 .f32) (r : Fin 2000) (q : Fin 8) :
    k6_pay1 x0 x1 (ix2 r q) = ∑ k : Fin 64, x0 (ix2 r k) * x1 (ix2 k q) := by
  unfold k6_pay1
  rw [shapeCast_self]
  refine (Ideal.matmul_constant_zero_apply dot_S2000x64_S64x8_S2000x8_1_0_0_1_n_n none _ _ (ix2 r q)).trans ?_
  rw [← Equiv.sum_comp (contrEquiv1 dot_S2000x64_S64x8_S2000x8_1_0_0_1_n_n 64 rfl rfl).symm]
  refine Finset.sum_congr rfl fun k _ => ?_
  have hk := contrEquiv1_symm_val dot_S2000x64_S64x8_S2000x8_1_0_0_1_n_n 64 rfl rfl k
  have el : dot_S2000x64_S64x8_S2000x8_1_0_0_1_n_n.lhsIdx (ix2 r q) ((contrEquiv1 dot_S2000x64_S64x8_S2000x8_1_0_0_1_n_n 64 rfl rfl).symm k) = ix2 r k := funext fun a => Fin.ext (by
    match a with
    | ⟨0, _⟩ => exact lhs_row _ _
    | ⟨1, _⟩ => exact (lhs_col _ _).trans hk)
  have er : dot_S2000x64_S64x8_S2000x8_1_0_0_1_n_n.rhsIdx (ix2 r q) ((contrEquiv1 dot_S2000x64_S64x8_S2000x8_1_0_0_1_n_n 64 rfl rfl).symm k) = ix2 k q := funext fun a => Fin.ext (by
    match a with
    | ⟨0, _⟩ => exact (rhs_row _ _).trans hk
    | ⟨1, _⟩ => exact rhs_col _ _)
  rw [el, er]
  rfl

theorem hz : (![0, 0] : Fin 2 → Nat) = fun _ => 0 := funext fun a => by fin_cases a <;> rfl

/-- The printed index maps, decided over the grid: at point `t` the block of the row array and the block of the output
    are the `t`-th blocks of 2000 rows (all their columns), and the weight matrix's block is the whole matrix. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- One entry of what a point computes, over any two loaded blocks: if the first block is rows `2000 n … 2000 n + 1999`
    of the array `A` and the second is the whole matrix `W`, the payload at entry `j` of the block is the entry of
    `rowsTimes A W` at row `2000 n + j₀`, column `j₁`. -/
theorem block_value (x0 : Vec Ideal S2000x64 .f32) (x1 : Vec Ideal S64x8 .f32)
    (A : FVec Ideal S100000x64 .f32) (W : FVec Ideal S64x8 .f32) (n : Nat)
    (h0 : ∀ (r : Fin 2000) (k : Fin 64) (i : S100000x64.Idx), (i 0).val = n * 2000 + r.val → (i 1).val = k.val → x0 (ix2 r k) = A i)
    (h1 : ∀ (k : Fin 64) (q : Fin 8), x1 (ix2 k q) = W (ix2 k q))
    (j : S2000x8.Idx) (i : S100000x8.Idx) (hi0 : (i 0).val = n * 2000 + (j 0).val) (hi1 : (i 1).val = (j 1).val) :
    k6_pay1 x0 x1 j = rowsTimes A W i := by
  obtain ⟨r, q, rfl⟩ : ∃ (r : Fin 2000) (q : Fin 8), j = ix2 r q := ⟨j 0, j 1, eq_ix2 j⟩
  rw [pay_apply]
  unfold rowsTimes
  have hq : (⟨(i 1).val, (i 1).isLt⟩ : Fin 8) = q := Fin.ext hi1
  rw [hq]
  refine Finset.sum_congr rfl fun k _ => ?_
  rw [h0 r k (ix2 (⟨(i 0).val, (i 0).isLt⟩ : Fin 100000) k) hi0 rfl, h1 k q]

/-- What point `t` writes back to the output array is block `t` of `rowsTimes` of the two input arrays as the region
    finds them: row `r` of the block of the row array is row `2000 t + r` of the array, the weight matrix's block is
    the matrix, and entry `j` of the output block sits at row `2000 t + j₀`, column `j₁` of the output array. -/
theorem flushed_eq (t : Fin cfg6.N) :
    (dat6 (F := Ideal) V c).flushed 2 t
      = ((cfg6.win 2).blk t).view.read (Elt Ideal) (rowsTimes (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S2000x64) hz, View.ld_unit_zero (S := S64x8) hz]
  obtain ⟨e0, e1, e2, e3, e4, e5⟩ := idx_facts t
  funext j
  show k6_pay1 (iblk6 V c 0 t) (iblk6 V c 1 t) j
    = rowsTimes (V c (Pipeline.arrRef spec6 0)) (V c (Pipeline.arrRef spec6 1)) (((cfg6.win 2).blk t).view.emb j)
  refine block_value (iblk6 V c 0 t) (iblk6 V c 1 t) (V c (Pipeline.arrRef spec6 0)) (V c (Pipeline.arrRef spec6 1)) t.val
    ?_ ?_ j (((cfg6.win 2).blk t).view.emb j) ?_ ?_
  · intro r k i hi0 hi1
    show V c (Pipeline.arrRef spec6 0) (((cfg6.win 0).blk t).view.emb (ix2 r k)) = V c (Pipeline.arrRef spec6 0) i
    refine congrArg (V c (Pipeline.arrRef spec6 0)) (funext fun a => Fin.ext ?_)
    match a with
    | ⟨0, _⟩ => show win6_0.index t (0 : Fin 2) * 2000 + 1 * r.val = (i 0).val; rw [e0, hi0]; omega
    | ⟨1, _⟩ => show win6_0.index t (1 : Fin 2) * 64 + 1 * k.val = (i 1).val; rw [e1, hi1]; omega
  · intro k q
    show V c (Pipeline.arrRef spec6 1) (((cfg6.win 1).blk t).view.emb (ix2 k q)) = V c (Pipeline.arrRef spec6 1) (ix2 k q)
    refine congrArg (V c (Pipeline.arrRef spec6 1)) (funext fun a => Fin.ext ?_)
    match a with
    | ⟨0, _⟩ => show win6_1.index t (0 : Fin 2) * 64 + 1 * k.val = k.val; rw [e2]; omega
    | ⟨1, _⟩ => show win6_1.index t (1 : Fin 2) * 8 + 1 * q.val = q.val; rw [e3]; omega
  · show win6_2.index t (0 : Fin 2) * 2000 + 1 * (j 0).val = t.val * 2000 + (j 0).val; rw [e4]; omega
  · show win6_2.index t (1 : Fin 2) * 8 + 1 * (j 1).val = (j 1).val; rw [e5]; omega

/-- An index of the output array is in point `t`'s block iff each coordinate is in the block's range on its axis. -/
theorem mem_blk (t : Fin cfg6.N) (i : S100000x8.Idx) :
    i ∈ ((cfg6.win 2).blk t).view.set ↔ ∀ a : Fin 2, win6_2.index t a * S2000x8.size a ≤ (i a).val ∧ (i a).val < win6_2.index t a * S2000x8.size a + S2000x8.size a := by
  show i ∈ ((View.whole main_v84).slice (win6_2.rect t)).set ↔ _
  rw [View.set_slice_whole, Rect.mem_set_unit]
  exact Iff.rfl

/-- Every entry of the output array is written back by some point: row `r` lies in the block of point `r / 2000`. -/
theorem cover (i : S100000x8.Idx) :
    ∃ t : Fin cfg6.N, (cfg6.win 2).flush t = true ∧ i ∈ ((cfg6.win 2).blk t).view.set := by
  have hi0 : (i 0).val < 100000 := (i 0).isLt
  have hi1 : (i 1).val < 8 := (i 1).isLt
  have hN : cfg6.N = 50 := N_6
  have ht : (i 0).val / 2000 < cfg6.N := by rw [hN]; omega
  obtain ⟨e0, e1, e2, e3, e4, e5⟩ := idx_facts ⟨(i 0).val / 2000, ht⟩
  refine ⟨⟨(i 0).val / 2000, ht⟩, flush6_2 _, ?_⟩
  rw [mem_blk]
  intro a
  match a with
  | ⟨0, _⟩ =>
    show win6_2.index ⟨(i 0).val / 2000, ht⟩ (0 : Fin 2) * 2000 ≤ (i 0).val ∧ (i 0).val < win6_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win6_2.index ⟨(i 0).val / 2000, ht⟩ (1 : Fin 2) * 8 ≤ (i 1).val ∧ (i 1).val < win6_2.index ⟨(i 0).val / 2000, ht⟩ (1 : Fin 2) * 8 + 8
    rw [e5]
    omega

/-- THE OUTPUT ARRAY AFTER THE REGION: every entry is the exact row-by-column sum of products of the region's two input
    arrays as the region found them. -/
theorem array_eq :
    (dat6 (F := Ideal) V c).arrAt 2 cfg6.N = rowsTimes (V c (Pipeline.arrRef spec6 0)) (V c (Pipeline.arrRef spec6 1)) :=
  (dat6 (F := Ideal) V c).arrAt_eq_of_cover 2 (rowsTimes (V c (Pipeline.arrRef spec6 0)) (V c (Pipeline.arrRef spec6 1)))
    (fun t _ => flushed_eq V c t) cover

end Cert.KernelIdeal.MatmulC

end
-- ==== Proof.StatsA.lean ====
/-
  The bias / leaky-rectifier / column-statistics region over the [100000, 128] aggregated array, read as values
  over the extended reals. The grid has 50 points; point t handles rows 2000·t … 2000·t + 1999. At every point the
  body stores, over the whole [2000, 128] activation block, the rectified sum of the aggregated block and the bias row:
  entry (r, q) is v if v > 0 and 0.01-word · v otherwise, v = agg(2000·t + r, q) + bias(0, q). Every point writes its
  block back, and row r of the array lies in the block of point r / 2000, so after the region the activation array is
  that function of the two input arrays entry by entry (`y_array_eq`).
  The [2, 128] statistics block is one block for the whole grid: it is zeroed at point 0, every point adds to its row 0
  the column sums of its activation block and to its row 1 the column sums of the squares, and it is written back once,
  after point 49. Addition of extended reals is associative, so after point n the block holds the zero word plus the sums
  over rows 0 … 2000·(n + 1) − 1, and at the end the sums over all 100000 rows (`stats_array_eq`).
-/
import proofs.«153942_j44160853737649_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Cert.KernelIdeal Cert.KernelIdeal.Gen Idealize.ShloMosaic Idealize.ShloMosaic.TcCoe Idealize.SL.Sem Idealize.ShloMosaic.ValueIdx
open Idealize.ShloMosaic.Pipeline (Dat)

namespace Cert.KernelIdeal.StatsA

variable (V : (c : Dev nD) → (b : Ref sig .tc) → Buf (Elt Ideal) ((c : Thread nD τ).loc b)) (c : Dev nD)

private theorem hz : (![0, 0] : Fin 2 → Nat) = fun _ => 0 := funext fun a => by fin_cases a <;> rfl

/-- The activation: the aggregated row plus the bias row, passed through the leaky rectifier
    (the value itself where it is positive, the fixed small slope times it elsewhere). -/
def activated (agg : FVec Ideal S100000x128 .f32) (b : FVec Ideal S1x128 .f32) : FVec Ideal S100000x128 .f32 :=
  fun i => let v := agg i + b (ix2 (0 : Fin 1) (⟨(i 1).val, (i 1).isLt⟩ : Fin 128)); Scalar.select (Ideal.cmp .ogt v (Ideal.ofBits .f32 0x00000000#32)) v (Ideal.ofBits .f32 0x3C23D70A#32 * v)

/-- At the first point the activation block's staging buffer ends holding the activation payload of the two input blocks:
    its one store covers the whole block. -/
private theorem yA (i : grid1.Coords) (a1 : Memref sig .tc .vmem S2000x128 .f32) (h1 : a1.IsWhole)
    (a2 : Memref sig .tc .vmem S1x128 .f32) (h2 : a2.IsWhole) (a3 : Memref sig .tc .vmem S2000x128 .f32) (h3 : a3.IsWhole)
    (a4 : Memref sig .tc .vmem S2x128 .f32) (h4 : a4.IsWhole) (hc : cond1_0 i)
    (x0 : Vec Ideal S2000x128 .f32) (x1 : Vec Ideal S1x128 .f32) :
    out1_A_2 c i a1 h1 a2 h2 a3 h3 a4 h4 hc x0 x1 = k1_pay2 x0 x1 := by
  unfold out1_A_2
  rw [View.read_writes_eq_canon _ _ _ (cover1_A_2 c i a1 h1 a2 h2 a3 h3 a4 h4 hc x0 x1)]
  unfold kernelRun1_A
  dsimp only
  try sl_unfold_words
  rw [View.canon_unit_zero hz]
  simp only [View.readAt_eq_ld, h1.read_unread, h2.read_unread, View.ld_unit_zero (S := S2000x128) hz, View.ld_unit_zero (S := S1x128) hz]

/-- The same at every later point: the carried statistics block does not enter the activation. -/
private theorem yB (i : grid1.Coords) (a1 : Memref sig .tc .vmem S2000x128 .f32) (h1 : a1.IsWhole)
    (a2 : Memref sig .tc .vmem S1x128 .f32) (h2 : a2.IsWhole) (a3 : Memref sig .tc .vmem S2000x128 .f32) (h3 : a3.IsWhole)
    (a4 : Memref sig .tc .vmem S2x128 .f32) (h4 : a4.IsWhole) (hc : ¬cond1_0 i)
    (x0 : Vec Ideal S2000x128 .f32) (x1 : Vec Ideal S1x128 .f32) (xo : Vec Ideal S2x128 .f32) :
    out1_B_2 c i a1 h1 a2 h2 a3 h3 a4 h4 hc x0 x1 xo = k1_pay2 x0 x1 := by
  unfold out1_B_2
  rw [View.read_writes_eq_canon _ _ _ (cover1_B_2 c i a1 h1 a2 h2 a3 h3 a4 h4 hc x0 x1 xo)]
  unfold kernelRun1_B
  dsimp only
  try sl_unfold_words
  rw [View.canon_unit_zero hz]
  simp only [View.readAt_eq_ld, h1.read_unread, h2.read_unread, View.ld_unit_zero (S := S2000x128) hz, View.ld_unit_zero (S := S1x128) hz]

/-- The activation payload at row `r`, column `q` of a block: the block entry plus the bias entry of the column, rectified. -/
private theorem pay2_apply (x0 : FVec Ideal S2000x128 .f32) (x1 : FVec Ideal S1x128 .f32) (r : Fin 2000) (q : Fin 128) :
    k1_pay2 (F := Ideal) x0 x1 (ix2 r q)
      = Scalar.select (Ideal.cmp .ogt (x0 (ix2 r q) + x1 (ix2 (0 : Fin 1) q)) (Ideal.ofBits .f32 0x00000000#32)) (x0 (ix2 r q) + x1 (ix2 (0 : Fin 1) q))
          (Ideal.ofBits .f32 0x3C23D70A#32 * (x0 (ix2 r q) + x1 (ix2 (0 : Fin 1) q))) := by
  have hb : broadcastTo S2000x128 x1 broadcasts_S1x128_S2000x128 (ix2 r q) = x1 (ix2 (0 : Fin 1) q) :=
    broadcastTo_apply x1 _ (ix2 r q) (ix2 (0 : Fin 1) q) (fun a => by match a with | ⟨0, _⟩ => rfl | ⟨1, _⟩ => rfl)
  unfold k1_pay2
  simp only [shapeCast_self]
  show Scalar.select (Ideal.cmp .ogt (x0 (ix2 r q) + broadcastTo S2000x128 x1 broadcasts_S1x128_S2000x128 (ix2 r q)) (Ideal.ofBits .f32 0x00000000#32))
      (x0 (ix2 r q) + broadcastTo S2000x128 x1 broadcasts_S1x128_S2000x128 (ix2 r q))
      (Ideal.ofBits .f32 0x3C23D70A#32 * (x0 (ix2 r q) + broadcastTo S2000x128 x1 broadcasts_S1x128_S2000x128 (ix2 r q))) = _
  rw [hb]

/-- The block index maps over the grid: the aggregated input and the activation output sit at row block `t`, the bias at its one block. -/
private theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (r, q) of the aggregated input's block at point `t` is entry (2000·t + r, q) of its array. -/
private theorem agg_blk (t : Fin cfg1.N) (r : Fin 2000) (q : Fin 128) (k : S100000x128.Idx)
    (hk0 : (k 0).val = 2000 * t.val + r.val) (hk1 : (k 1).val = q.val) :
    (iblk1 V c 0 t : Vec Ideal S2000x128 .f32) (ix2 r q) = (V c (Pipeline.arrRef spec1 0) : S100000x128.Idx → Elt Ideal .f32) k := by
  obtain ⟨e0, e1, -, -, -, -⟩ := idx_facts t
  unfold iblk1
  rw [View.read_apply]
  show V c main_v43 _ = V c main_v43 _
  refine congrArg _ (funext fun a => Fin.ext ?_)
  match a with
  | ⟨0, _⟩ => show win1_0.index t (0 : Fin 2) * 2000 + 1 * r.val = (k 0).val; rw [e0, hk0]; omega
  | ⟨1, _⟩ => show win1_0.index t (1 : Fin 2) * 128 + 1 * q.val = (k 1).val; rw [e1, hk1]; omega

/-- Entry (0, q) of the bias block at any point is entry (0, q) of the bias array. -/
private theorem bias_blk (t : Fin cfg1.N) (q : Fin 128) :
    (iblk1 V c 1 t : Vec Ideal S1x128 .f32) (ix2 (0 : Fin 1) q) = (V c (Pipeline.arrRef spec1 1) : S1x128.Idx → Elt Ideal .f32) (ix2 (0 : Fin 1) q) := by
  obtain ⟨-, -, e2, e3, -, -⟩ := idx_facts t
  unfold iblk1
  rw [View.read_apply]
  show V c main_v44 _ = V c main_v44 _
  refine congrArg _ (funext fun a => Fin.ext ?_)
  match a with
  | ⟨0, _⟩ => show win1_1.index t (0 : Fin 2) * 1 + 1 * 0 = 0; rw [e2]
  | ⟨1, _⟩ => show win1_1.index t (1 : Fin 2) * 128 + 1 * q.val = q.val; rw [e3]; omega

/-- After every point the activation block's buffer holds the activation payload of that point's input blocks. -/
private theorem y_after (t : Fin cfg1.N) : (outsAt1 V c t.val t.isLt).1 = k1_pay2 (iblk1 V c 0 t) (iblk1 V c 1 t) := by
  by_cases h0 : t.val % 50 = 0
  · rw [outsAt1_A V c t h0]
    dsimp only
    exact yA c (grid1.coords t) (ms1_0 t) (hs1_0 t) (ms1_1 t) (hs1_1 t) (ms1_2 t) (hs1_2 t) (ms1_3 t) (hs1_3 t) ((hcond1_0 t).mpr h0) (iblk1 V c 0 t) (iblk1 V c 1 t)
  · rw [outsAt1_B V c t h0]
    dsimp only
    exact yB c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) _

/-- The activation at an array entry whose column is `q`, from the two entries it reads. -/
private theorem act_eq (A : FVec Ideal S100000x128 .f32) (B : FVec Ideal S1x128 .f32) (k : S100000x128.Idx) (q : Fin 128) (a b : Ideal .f32)
    (hq : (k 1).val = q.val) (ha : A k = a) (hb : B (ix2 (0 : Fin 1) q) = b) :
    activated A B k = Scalar.select (Ideal.cmp .ogt (a + b) (Ideal.ofBits .f32 0x00000000#32)) (a + b) (Ideal.ofBits .f32 0x3C23D70A#32 * (a + b)) := by
  subst ha hb
  have e : (⟨(k 1).val, (k 1).isLt⟩ : Fin 128) = q := Fin.ext hq
  unfold activated
  dsimp only
  rw [e]

/-- What point `t` writes back to the activation array is block `t` of the activation of the two arrays. -/
private theorem y_flushed (t : Fin cfg1.N) :
    (dat1 (F := Ideal) V c).flushed 2 t = ((cfg1.win 2).blk t).view.read (Elt Ideal) (activated (V c (Pipeline.arrRef spec1 0)) (V c (Pipeline.arrRef spec1 1))) := by
  show (cfg1.win 2).cut (grid1.coords t) ((dat1 (F := Ideal) V c).after 2 t) = _
  rw [after1_2, y_after]
  obtain ⟨-, -, -, -, e4, e5⟩ := idx_facts t
  funext j
  obtain ⟨r, q, rfl⟩ : ∃ (r : Fin 2000) (q : Fin 128), j = ix2 r q := ⟨j 0, j 1, eq_ix2 j⟩
  rw [View.read_apply]
  have hk0 : ((((cfg1.win 2).blk t).view.emb (ix2 r q)) 0).val = 2000 * t.val + r.val := by
    show win1_2.index t (0 : Fin 2) * 2000 + 1 * r.val = _; rw [e4]; omega
  have hk1 : ((((cfg1.win 2).blk t).view.emb (ix2 r q)) 1).val = q.val := by
    show win1_2.index t (1 : Fin 2) * 128 + 1 * q.val = _; rw [e5]; omega
  show k1_pay2 (F := Ideal) (iblk1 V c 0 t) (iblk1 V c 1 t) (ix2 r q)
    = activated (V c (Pipeline.arrRef spec1 0)) (V c (Pipeline.arrRef spec1 1)) (((cfg1.win 2).blk t).view.emb (ix2 r q))
  refine (pay2_apply (iblk1 V c 0 t) (iblk1 V c 1 t) r q).trans ?_
  exact (act_eq (V c (Pipeline.arrRef spec1 0)) (V c (Pipeline.arrRef spec1 1)) (((cfg1.win 2).blk t).view.emb (ix2 r q)) q _ _ hk1
    (agg_blk V c t r q (((cfg1.win 2).blk t).view.emb (ix2 r q)) hk0 hk1).symm (bias_blk V c t q).symm).symm

/-- An array entry lies in point `t`'s activation block iff each coordinate lies in the block's range on its axis. -/
private theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45_0).slice (win1_2.rect t)).set ↔ _
  rw [View.set_slice_whole, Rect.mem_set_unit]
  exact Iff.rfl

/-- Row `r` of the activation array is written back by point `r / 2000`. -/
private theorem y_cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 128 ≤ (i 1).val ∧ (i 1).val < win1_2.index t (1 : Fin 2) * 128 + 128; rw [e5]; omega

/-- THE ACTIVATION ARRAY after the region: the activation of the aggregated array and the bias row, entry by entry. -/
theorem y_array_eq : (dat1 (F := Ideal) V c).arrAt 2 cfg1.N = activated (V c (Pipeline.arrRef spec1 0)) (V c (Pipeline.arrRef spec1 1)) :=
  (dat1 (F := Ideal) V c).arrAt_eq_of_cover 2 _ (fun t _ => y_flushed V c t) (y_cover)

/-! ## The column statistics -/

/-- The column sums of an activation array and of its squares: row 0 holds, per column, the sum over all rows;
    row 1 the sum of the squares. -/
def columnSums (y : FVec Ideal S100000x128 .f32) : FVec Ideal S2x128 .f32 :=
  fun i => if (i 0).val = 0 then ∑ r : Fin 100000, y (ix2 r (⟨(i 1).val, (i 1).isLt⟩ : Fin 128)) else ∑ r : Fin 100000, y (ix2 r ⟨(i 1).val, (i 1).isLt⟩) * y (ix2 r ⟨(i 1).val, (i 1).isLt⟩)

/-- Entry (ρ, q) of an array, zero past its last row: the summand of the running sums over natural row numbers. -/
private def yrow (y : FVec Ideal S100000x128 .f32) (ρ : ℕ) (q : Fin 128) : Ideal .f32 :=
  if h : ρ < 100000 then y (ix2 (⟨ρ, h⟩ : Fin 100000) q) else 0

private theorem yrow_lt (y : FVec Ideal S100000x128 .f32) (ρ : ℕ) (q : Fin 128) (h : ρ < 100000) : yrow y ρ q = y (ix2 (⟨ρ, h⟩ : Fin 100000) q) := by
  unfold yrow; rw [dif_pos h]

/-- A sum over one axis of a block, at column `q`, is the sum over the block's rows. -/
private theorem colsum_apply (src : FVec Ideal S2000x128 .f32) (hacc : (0x00000000#32 : BitVec 32) = 0x00000000#32) (q : Fin 128) :
    multiReduction (F := Ideal) .add [0] S128 src 0x00000000#32 reduces_S2000x128_S128 (.inl rfl) hacc (ix1 q) = ∑ r : Fin 2000, src (ix2 r q) := by
  refine (Ideal.multiReduction_add_single src 0x00000000#32 reduces_S2000x128_S128 (.inl rfl) hacc (ix1 q)).trans ?_
  refine Finset.sum_congr rfl fun r _ => congrArg src ?_
  funext a
  apply Fin.ext
  match a with
  | ⟨0, _⟩ => rfl
  | ⟨1, _⟩ => rfl

/-- A vector viewed as a one-row block reads, at (0, q), its entry q. -/
private theorem row_cast_apply (v : FVec Ideal S128 .f32) (q : Fin 128) :
    shapeCast S1x128 v shapeCasts_S128_S1x128 (ix2 (0 : Fin 1) q) = v (ix1 q) := by
  refine (shapeCast_addUnit_apply ![128] v shapeCasts_S128_S1x128 (ix2 (0 : Fin 1) q)).trans (congrArg v ?_)
  funext a
  match a with
  | ⟨0, _⟩ => rfl

/-- The first statistics payload at column `q`: the old row-0 entry plus the block's column sum. -/
private theorem pay3_apply (x0 : FVec Ideal S2000x128 .f32) (x1 : FVec Ideal S1x128 .f32) (v20 : FVec Ideal S1x128 .f32) (q : Fin 128) :
    k1_pay3 (F := Ideal) x0 x1 v20 (ix2 (0 : Fin 1) q) = v20 (ix2 (0 : Fin 1) q) + ∑ r : Fin 2000, k1_pay2 (F := Ideal) x0 x1 (ix2 r q) := by
  unfold k1_pay3
  simp only [shapeCast_self]
  show v20 (ix2 (0 : Fin 1) q) + shapeCast S1x128 _ shapeCasts_S128_S1x128 (ix2 (0 : Fin 1) q) = _
  refine congrArg (v20 (ix2 (0 : Fin 1) q) + ·) ?_
  refine (row_cast_apply _ q).trans ?_
  exact colsum_apply (k1_pay2 (F := Ideal) x0 x1) rfl q

/-- The second statistics payload at column `q`: the old row-1 entry plus the block's column sum of squares. -/
private theorem pay4_apply (x0 : FVec Ideal S2000x128 .f32) (x1 : FVec Ideal S1x128 .f32) (v24 : FVec Ideal S1x128 .f32) (q : Fin 128) :
    k1_pay4 (F := Ideal) x0 x1 v24 (ix2 (0 : Fin 1) q)
      = v24 (ix2 (0 : Fin 1) q) + ∑ r : Fin 2000, k1_pay2 (F := Ideal) x0 x1 (ix2 r q) * k1_pay2 (F := Ideal) x0 x1 (ix2 r q) := by
  unfold k1_pay4
  simp only [shapeCast_self]
  show v24 (ix2 (0 : Fin 1) q) + shapeCast S1x128 _ shapeCasts_S128_S1x128 (ix2 (0 : Fin 1) q) = _
  refine congrArg (v24 (ix2 (0 : Fin 1) q) + ·) ?_
  refine (row_cast_apply _ q).trans ?_
  exact colsum_apply (mulf (k1_pay2 (F := Ideal) x0 x1) (k1_pay2 (F := Ideal) x0 x1)) rfl q

/-! ### The two one-row rectangles of the statistics block -/

private abbrev row0 : Rect S2x128 := Rect.unit (s := S2x128) ![0, 0] S1x128.size inb_S2x128_S1x128_0_0
private abbrev row1 : Rect S2x128 := Rect.unit (s := S2x128) ![1, 0] S1x128.size inb_S2x128_S1x128_1_0
private abbrev rows : Rect S2x128 := Rect.unit (s := S2x128) ![0, 0] S2x128.size inb_S2x128_S2x128_0_0

private theorem row0_emb (q : Fin 128) : row0.emb (ix2 (0 : Fin 1) q) = ix2 (0 : Fin 2) q := by
  funext a
  apply Fin.ext
  match a with
  | ⟨0, _⟩ => rfl
  | ⟨1, _⟩ => show 0 + 1 * q.val = q.val; omega

private theorem row1_emb (q : Fin 128) : row1.emb (ix2 (0 : Fin 1) q) = ix2 (1 : Fin 2) q := by
  funext a
  apply Fin.ext
  match a with
  | ⟨0, _⟩ => rfl
  | ⟨1, _⟩ => show 0 + 1 * q.val = q.val; omega

private theorem row0_not_mem_row1 (q : Fin 128) : ix2 (0 : Fin 2) q ∉ row1.set := fun h => by
  have h0 : (1 : ℕ) ≤ 0 := ((Rect.mem_set_unit.mp h) 0).1
  omega

private theorem row1_not_mem_row0 (q : Fin 128) : ix2 (1 : Fin 2) q ∉ row0.set := fun h => by
  have h0 : (1 : ℕ) < 0 + 1 := ((Rect.mem_set_unit.mp h) 0).2
  omega

/-- Stores listed last first: under a last store to row 1, the block at (1, q) is that store's payload at (0, q); -/
private theorem canon_row1 (p1 : FVec Ideal S1x128 .f32) (L : List (View.Piece (Elt Ideal) S2x128 .f32)) (q : Fin 128) :
    View.canon ((⟨row1, p1⟩ : View.Piece (Elt Ideal) S2x128 .f32) :: L) (ix2 (1 : Fin 2) q) = p1 (ix2 (0 : Fin 1) q) := by
  rw [← row1_emb q]; exact View.canon_cons_emb row1 p1 L (ix2 (0 : Fin 1) q)

/-- and at (0, q), with a store to row 0 before it, that earlier store's payload at (0, q). -/
private theorem canon_row0 (p1 p0 : FVec Ideal S1x128 .f32) (L : List (View.Piece (Elt Ideal) S2x128 .f32)) (q : Fin 128) :
    View.canon ((⟨row1, p1⟩ : View.Piece (Elt Ideal) S2x128 .f32) :: ⟨row0, p0⟩ :: L) (ix2 (0 : Fin 2) q) = p0 (ix2 (0 : Fin 1) q) := by
  rw [View.canon_cons_of_not_mem (⟨row1, p1⟩ : View.Piece (Elt Ideal) S2x128 .f32) (⟨row0, p0⟩ :: L) (row0_not_mem_row1 q), ← row0_emb q]
  exact View.canon_cons_emb row0 p0 L (ix2 (0 : Fin 1) q)

/-- A store to row 0 does not touch row 1. -/
private theorem canon_skip_row0 (p0 : FVec Ideal S1x128 .f32) (L : List (View.Piece (Elt Ideal) S2x128 .f32)) (q : Fin 128) :
    View.canon ((⟨row0, p0⟩ : View.Piece (Elt Ideal) S2x128 .f32) :: L) (ix2 (1 : Fin 2) q) = View.canon L (ix2 (1 : Fin 2) q) :=
  View.canon_cons_of_not_mem (⟨row0, p0⟩ : View.Piece (Elt Ideal) S2x128 .f32) L (row1_not_mem_row0 q)

/-- The zeroing store alone leaves the zero word everywhere. -/
private theorem canon_zero (y : S2x128.Idx) :
    View.canon [(⟨rows, k1_pay1 (F := Ideal)⟩ : View.Piece (Elt Ideal) S2x128 .f32)] y = Ideal.ofBits .f32 0x00000000#32 := by
  rw [View.canon_unit_zero hz]; rfl

/-! ### What each case leaves in the statistics block -/

/-- At a later point the block ends with row 0 = old row 0 + column sums of the activation block, row 1 = old row 1 +
    column sums of its squares. -/
private theorem sB (i : grid1.Coords) (a1 : Memref sig .tc .vmem S2000x128 .f32) (h1 : a1.IsWhole)
    (a2 : Memref sig .tc .vmem S1x128 .f32) (h2 : a2.IsWhole) (a3 : Memref sig .tc .vmem S2000x128 .f32) (h3 : a3.IsWhole)
    (a4 : Memref sig .tc .vmem S2x128 .f32) (h4 : a4.IsWhole) (hc : ¬cond1_0 i)
    (x0 : Vec Ideal S2000x128 .f32) (x1 : Vec Ideal S1x128 .f32) (xo : Vec Ideal S2x128 .f32) (q : Fin 128) :
    out1_B_3 c i a1 h1 a2 h2 a3 h3 a4 h4 hc x0 x1 xo (ix2 (0 : Fin 2) q)
        = xo (ix2 (0 : Fin 2) q) + ∑ r : Fin 2000, k1_pay2 (F := Ideal) x0 x1 (ix2 r q)
    ∧ out1_B_3 c i a1 h1 a2 h2 a3 h3 a4 h4 hc x0 x1 xo (ix2 (1 : Fin 2) q)
        = xo (ix2 (1 : Fin 2) q) + ∑ r : Fin 2000, k1_pay2 (F := Ideal) x0 x1 (ix2 r q) * k1_pay2 (F := Ideal) x0 x1 (ix2 r q) := by
  have e : out1_B_3 c i a1 h1 a2 h2 a3 h3 a4 h4 hc x0 x1 xo
      = View.canon [(⟨row1, k1_pay4 (F := Ideal) x0 x1 (View.ld xo row1)⟩ : View.Piece (Elt Ideal) S2x128 .f32), ⟨row0, k1_pay3 (F := Ideal) x0 x1 (View.ld xo row0)⟩] := by
    unfold out1_B_3
    rw [View.read_writes_eq_canon _ _ _ (cover1_B_3 c i a1 h1 a2 h2 a3 h3 a4 h4 hc x0 x1 xo)]
    unfold kernelRun1_B
    dsimp only
    sl_unfold_words
    simp only [View.readAt_eq_ld, h1.read_unread, h2.read_unread, h4.read_unread, View.ld_unit_zero (S := S2000x128) hz, View.ld_unit_zero (S := S1x128) hz]
  rw [e]
  refine ⟨?_, ?_⟩
  · refine (canon_row0 _ _ [] q).trans ((pay3_apply x0 x1 _ q).trans ?_)
    show xo (row0.emb (ix2 (0 : Fin 1) q)) + _ = _
    rw [row0_emb]
  · refine (canon_row1 _ _ q).trans ((pay4_apply x0 x1 _ q).trans ?_)
    show xo (row1.emb (ix2 (0 : Fin 1) q)) + _ = _
    rw [row1_emb]

/-- At the first point the block is zeroed first, so it ends with row 0 = zero word + column sums, row 1 = zero word +
    column sums of squares. -/
private theorem sA (i : grid1.Coords) (a1 : Memref sig .tc .vmem S2000x128 .f32) (h1 : a1.IsWhole)
    (a2 : Memref sig .tc .vmem S1x128 .f32) (h2 : a2.IsWhole) (a3 : Memref sig .tc .vmem S2000x128 .f32) (h3 : a3.IsWhole)
    (a4 : Memref sig .tc .vmem S2x128 .f32) (h4 : a4.IsWhole) (hc : cond1_0 i)
    (x0 : Vec Ideal S2000x128 .f32) (x1 : Vec Ideal S1x128 .f32) (q : Fin 128) :
    out1_A_3 c i a1 h1 a2 h2 a3 h3 a4 h4 hc x0 x1 (ix2 (0 : Fin 2) q)
        = Ideal.ofBits .f32 0x00000000#32 + ∑ r : Fin 2000, k1_pay2 (F := Ideal) x0 x1 (ix2 r q)
    ∧ out1_A_3 c i a1 h1 a2 h2 a3 h3 a4 h4 hc x0 x1 (ix2 (1 : Fin 2) q)
        = Ideal.ofBits .f32 0x00000000#32 + ∑ r : Fin 2000, k1_pay2 (F := Ideal) x0 x1 (ix2 r q) * k1_pay2 (F := Ideal) x0 x1 (ix2 r q) := by
  have e : out1_A_3 c i a1 h1 a2 h2 a3 h3 a4 h4 hc x0 x1
      = View.canon [(⟨row1, k1_pay4 (F := Ideal) x0 x1 (a4.view.readCov [(⟨row0, k1_pay3 (F := Ideal) x0 x1 (a4.view.readCov [(⟨rows, k1_pay1 (F := Ideal)⟩ : View.Piece (Elt Ideal) S2x128 .f32)] row0.toLoadRect)⟩ : View.Piece (Elt Ideal) S2x128 .f32), ⟨rows, k1_pay1 (F := Ideal)⟩] row1.toLoadRect)⟩ : View.Piece (Elt Ideal) S2x128 .f32),
          ⟨row0, k1_pay3 (F := Ideal) x0 x1 (a4.view.readCov [(⟨rows, k1_pay1 (F := Ideal)⟩ : View.Piece (Elt Ideal) S2x128 .f32)] row0.toLoadRect)⟩,
          ⟨rows, k1_pay1 (F := Ideal)⟩] := by
    unfold out1_A_3
    rw [View.read_writes_eq_canon _ _ _ (cover1_A_3 c i a1 h1 a2 h2 a3 h3 a4 h4 hc x0 x1)]
    unfold kernelRun1_A
    dsimp only
    sl_unfold_words
    simp only [View.readAt_eq_ld, h1.read_unread, h2.read_unread, View.ld_unit_zero (S := S2000x128) hz, View.ld_unit_zero (S := S1x128) hz]
  rw [e]
  refine ⟨?_, ?_⟩
  · refine (canon_row0 _ _ _ q).trans ((pay3_apply x0 x1 _ q).trans ?_)
    refine congrArg (· + _) ?_
    rw [View.readCov_eq_canon']
    exact canon_zero _
  · refine (canon_row1 _ _ q).trans ((pay4_apply x0 x1 _ q).trans ?_)
    refine congrArg (· + _) ?_
    rw [View.readCov_eq_canon']
    show View.canon _ (row1.emb (ix2 (0 : Fin 1) q)) = _
    rw [row1_emb]
    exact (canon_skip_row0 _ _ q).trans (canon_zero _)

/-! ### The running sums over the grid -/

/-- The activation array of the region's two input arrays. -/
private abbrev yarr : FVec Ideal S100000x128 .f32 := activated (V c (Pipeline.arrRef spec1 0)) (V c (Pipeline.arrRef spec1 1))

/-- The activation payload of point `t`'s blocks at (r, q) is entry (2000·t + r, q) of the activation array. -/
private theorem pay_row (t : Fin cfg1.N) (r : Fin 2000) (q : Fin 128) :
    k1_pay2 (F := Ideal) (iblk1 V c 0 t) (iblk1 V c 1 t) (ix2 r q) = yrow (yarr V c) (2000 * t.val + r.val) q := by
  have hN : cfg1.N = 50 := N_1
  have ht : t.val < 50 := lt_of_lt_of_eq t.isLt hN
  have hlt : 2000 * t.val + r.val < 100000 := by have := r.isLt; omega
  rw [yrow_lt _ _ _ hlt]
  refine (pay2_apply (iblk1 V c 0 t) (iblk1 V c 1 t) r q).trans ?_
  exact (act_eq (V c (Pipeline.arrRef spec1 0)) (V c (Pipeline.arrRef spec1 1)) (ix2 (⟨2000 * t.val + r.val, hlt⟩ : Fin 100000) q) q _ _ rfl
    (agg_blk V c t r q (ix2 (⟨2000 * t.val + r.val, hlt⟩ : Fin 100000) q) rfl rfl).symm (bias_blk V c t q).symm).symm

/-- The column sum of point `t`'s activation block is the sum of rows 2000·t … 2000·t + 1999 of the activation array; -/
private theorem blk_sum (t : Fin cfg1.N) (q : Fin 128) :
    ∑ r : Fin 2000, k1_pay2 (F := Ideal) (iblk1 V c 0 t) (iblk1 V c 1 t) (ix2 r q)
      = ∑ r ∈ Finset.range 2000, yrow (yarr V c) (2000 * t.val + r) q := by
  rw [← Fin.sum_univ_eq_sum_range (fun r => yrow (yarr V c) (2000 * t.val + r) q) 2000]
  exact Finset.sum_congr rfl fun r _ => pay_row V c t r q

/-- and likewise for the squares. -/
private theorem blk_sum_sq (t : Fin cfg1.N) (q : Fin 128) :
    ∑ r : Fin 2000, k1_pay2 (F := Ideal) (iblk1 V c 0 t) (iblk1 V c 1 t) (ix2 r q) * k1_pay2 (F := Ideal) (iblk1 V c 0 t) (iblk1 V c 1 t) (ix2 r q)
      = ∑ r ∈ Finset.range 2000, yrow (yarr V c) (2000 * t.val + r) q * yrow (yarr V c) (2000 * t.val + r) q := by
  rw [← Fin.sum_univ_eq_sum_range (fun r => yrow (yarr V c) (2000 * t.val + r) q * yrow (yarr V c) (2000 * t.val + r) q) 2000]
  exact Finset.sum_congr rfl fun r _ => by rw [pay_row V c t r q]

/-- A sum over the first 2000·(n + 1) rows splits into the first 2000·n rows and the next 2000. -/
private theorem range_step (f : ℕ → Ideal .f32) (n : ℕ) :
    ∑ ρ ∈ Finset.range (2000 * (n + 1)), f ρ = ∑ ρ ∈ Finset.range (2000 * n), f ρ + ∑ r ∈ Finset.range 2000, f (2000 * n + r) := by
  rw [show 2000 * (n + 1) = 2000 * n + 2000 from by ring, Finset.sum_range_add]

/-- THE INVARIANT: after point `n` the statistics block holds, per column, the zero word plus the sum over the first
    2000·(n + 1) rows of the activation array (row 0) and of its squares (row 1) — by induction on the point: the first
    point starts from the zeroed block, every later point adds its block's sums onto what the point before left. -/
private theorem stats_after (q : Fin 128) : ∀ (n : ℕ) (h : n < cfg1.N),
    (outsAt1 V c n h).2 (ix2 (0 : Fin 2) q)
        = Ideal.ofBits .f32 0x00000000#32 + ∑ ρ ∈ Finset.range (2000 * (n + 1)), yrow (yarr V c) ρ q
    ∧ (outsAt1 V c n h).2 (ix2 (1 : Fin 2) q)
        = Ideal.ofBits .f32 0x00000000#32 + ∑ ρ ∈ Finset.range (2000 * (n + 1)), yrow (yarr V c) ρ q * yrow (yarr V c) ρ q
  | 0, h => by
    have e := outsAt1_A V c ⟨0, h⟩ rfl
    have e3 : (outsAt1 V c 0 h).2 = out1_A_3 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) ((hcond1_0 ⟨0, h⟩).mpr rfl) (iblk1 V c 0 ⟨0, h⟩) (iblk1 V c 1 ⟨0, h⟩) :=
      congrArg Prod.snd e
    have hA := sA c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) ((hcond1_0 ⟨0, h⟩).mpr rfl) (iblk1 V c 0 ⟨0, h⟩) (iblk1 V c 1 ⟨0, h⟩) q
    refine ⟨(congrFun e3 _).trans (hA.1.trans ?_), (congrFun e3 _).trans (hA.2.trans ?_)⟩
    · rw [blk_sum V c ⟨0, h⟩ q, range_step _ 0]
      simp only [Nat.mul_zero, Finset.range_zero, Finset.sum_empty, zero_add]
    · rw [blk_sum_sq V c ⟨0, h⟩ q, range_step _ 0]
      simp only [Nat.mul_zero, Finset.range_zero, Finset.sum_empty, zero_add]
  | n + 1, h => by
    have hN : cfg1.N = 50 := N_1
    have hB : ¬(⟨n + 1, h⟩ : Fin cfg1.N).val % 50 = 0 := by dsimp only; omega
    have e := outsAt1_B V c ⟨n + 1, h⟩ hB
    have e3 : (outsAt1 V c (n + 1) h).2 = out1_B_3 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hh => hB ((hcond1_0 ⟨n + 1, h⟩).mp hh)) (iblk1 V c 0 ⟨n + 1, h⟩) (iblk1 V c 1 ⟨n + 1, h⟩) (outsAt1 V c n (Nat.lt_of_succ_lt h)).2 :=
      congrArg Prod.snd e
    have hBv := sB c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hh => hB ((hcond1_0 ⟨n + 1, h⟩).mp hh)) (iblk1 V c 0 ⟨n + 1, h⟩) (iblk1 V c 1 ⟨n + 1, h⟩) (outsAt1 V c n (Nat.lt_of_succ_lt h)).2 q
    obtain ⟨ih0, ih1⟩ := stats_after q n (Nat.lt_of_succ_lt h)
    refine ⟨(congrFun e3 _).trans (hBv.1.trans ?_), (congrFun e3 _).trans (hBv.2.trans ?_)⟩
    · rw [ih0, blk_sum V c ⟨n + 1, h⟩ q, range_step _ (n + 1), add_assoc]
    · rw [ih1, blk_sum_sq V c ⟨n + 1, h⟩ q, range_step _ (n + 1), add_assoc]

/-- The last point of the grid, the one whose statistics block is written back. -/
private abbrev tlast : Fin cfg1.N := ⟨49, by decide⟩

/-- After the last point the statistics block holds the column sums of the whole activation array and of its squares:
    the zero word is the real zero, and the 50 blocks of 2000 rows are the 100000 rows. -/
private theorem stats_last : (outsAt1 V c 49 (tlast).isLt).2 = columnSums (yarr V c) := by
  funext j
  obtain ⟨a, q, rfl⟩ : ∃ (a : Fin 2) (q : Fin 128), j = ix2 a q := ⟨j 0, j 1, eq_ix2 j⟩
  obtain ⟨h0, h1⟩ := stats_after V c q 49 (tlast).isLt
  rw [show 2000 * (49 + 1) = 100000 from by norm_num, Ideal.ofBits_zero_f32, zero_add] at h0 h1
  match a with
  | ⟨0, _⟩ =>
    refine h0.trans ?_
    unfold columnSums
    rw [if_pos rfl, ← Fin.sum_univ_eq_sum_range (fun ρ => yrow (yarr V c) ρ q) 100000]
    exact Finset.sum_congr rfl fun r _ => yrow_lt _ _ _ r.isLt
  | ⟨1, _⟩ =>
    refine h1.trans ?_
    unfold columnSums
    rw [if_neg Nat.one_ne_zero, ← Fin.sum_univ_eq_sum_range (fun ρ => yrow (yarr V c) ρ q * yrow (yarr V c) ρ q) 100000]
    exact Finset.sum_congr rfl fun r _ => by rw [yrow_lt _ _ _ r.isLt]

/-- The statistics window's one block is the whole [2, 128] array at every point. -/
private theorem idx_facts3 : ∀ t : Fin cfg1.N, win1_3.index t (0 : Fin 2) = 0 ∧ win1_3.index t (1 : Fin 2) = 0 :=
  (by decide +kernel : ∀ t : Fin grid1.N, _)

/-- The one write-back of the statistics array, after the last point, writes those column sums. -/
private theorem s_flushed (t : Fin cfg1.N) (hf : (cfg1.win 3).flush t = true) :
    (dat1 (F := Ideal) V c).flushed 3 t = ((cfg1.win 3).blk t).view.read (Elt Ideal) (columnSums (yarr V c)) := by
  have hN : cfg1.N = 50 := N_1
  have h49 : t.val = 49 := by have := (flush1_3 t).mp hf; have := t.isLt; omega
  obtain rfl : t = tlast := Fin.ext h49
  show (cfg1.win 3).cut (grid1.coords tlast) ((dat1 (F := Ideal) V c).after 3 tlast) = _
  rw [after1_3]
  show (cfg1.win 3).cut (grid1.coords tlast) (outsAt1 V c 49 (tlast).isLt).2 = _
  rw [stats_last]
  obtain ⟨e0, e1⟩ := idx_facts3 tlast
  have hz' : (fun a => win1_3.index tlast a * main_v45_1.ty.shape.size a) = fun _ => 0 :=
    funext fun a => by
      match a with
      | ⟨0, _⟩ => show win1_3.index tlast (0 : Fin 2) * 2 = 0; rw [e0]
      | ⟨1, _⟩ => show win1_3.index tlast (1 : Fin 2) * 128 = 0; rw [e1]
  exact (Memref.read_access_unit_zero (Elt Ideal) main_v45_1 hz' (fun a => by rw [congrFun hz' a]; simp) (columnSums (yarr V c))).symm

/-- Every entry of the statistics array lies in that one block. -/
private theorem s_cover (i : S2x128.Idx) : ∃ t : Fin cfg1.N, (cfg1.win 3).flush t = true ∧ i ∈ ((cfg1.win 3).blk t).view.set := by
  have hi0 : (i 0).val < 2 := (i 0).isLt
  have hi1 : (i 1).val < 128 := (i 1).isLt
  obtain ⟨e0, e1⟩ := idx_facts3 tlast
  refine ⟨tlast, (flush1_3 tlast).mpr rfl, ?_⟩
  show i ∈ ((View.whole main_v45_1).slice (win1_3.rect tlast)).set
  rw [View.set_slice_whole, Rect.mem_set_unit]
  intro a
  match a with
  | ⟨0, _⟩ => show win1_3.index tlast (0 : Fin 2) * 2 ≤ (i 0).val ∧ (i 0).val < win1_3.index tlast (0 : Fin 2) * 2 + 2; rw [e0]; omega
  | ⟨1, _⟩ => show win1_3.index tlast (1 : Fin 2) * 128 ≤ (i 1).val ∧ (i 1).val < win1_3.index tlast (1 : Fin 2) * 128 + 128; rw [e1]; omega

/-- THE STATISTICS ARRAY after the region: row 0 the column sums of the activation array over all 100000 rows, row 1 the
    column sums of its squares. -/
theorem stats_array_eq : (dat1 (F := Ideal) V c).arrAt 3 cfg1.N = columnSums (activated (V c (Pipeline.arrRef spec1 0)) (V c (Pipeline.arrRef spec1 1))) :=
  (dat1 (F := Ideal) V c).arrAt_eq_of_cover 3 _ (s_flushed V c) (s_cover)

end Cert.KernelIdeal.StatsA

end
-- ==== Proof.StatsB.lean ====
/-
  The bias / leaky-rectifier / column-statistics region over the [100000, 64] aggregated array, read as values
  over the extended reals. The grid has 50 points; point t handles rows 2000·t … 2000·t + 1999. At every point the
  body stores, over the whole [2000, 64] activation block, the rectified sum of the aggregated block and the bias row:
  entry (r, q) is v if v > 0 and 0.01-word · v otherwise, v = agg(2000·t + r, q) + bias(0, q). Every point writes its
  block back, and row r of the array lies in the block of point r / 2000, so after the region the activation array is
  that function of the two input arrays entry by entry (`y_array_eq`).
  The [2, 64] statistics block is one block for the whole grid: it is zeroed at point 0, every point adds to its row 0
  the column sums of its activation block and to its row 1 the column sums of the squares, and it is written back once,
  after point 49. Addition of extended reals is associative, so after point n the block holds the zero word plus the sums
  over rows 0 … 2000·(n + 1) − 1, and at the end the sums over all 100000 rows (`stats_array_eq`).
-/
import proofs.«153942_j44160853737649_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Cert.KernelIdeal Cert.KernelIdeal.Gen Idealize.ShloMosaic Idealize.ShloMosaic.TcCoe Idealize.SL.Sem Idealize.ShloMosaic.ValueIdx
open Idealize.ShloMosaic.Pipeline (Dat)

namespace Cert.KernelIdeal.StatsB

variable (V : (c : Dev nD) → (b : Ref sig .tc) → Buf (Elt Ideal) ((c : Thread nD τ).loc b)) (c : Dev nD)

private theorem hz : (![0, 0] : Fin 2 → Nat) = fun _ => 0 := funext fun a => by fin_cases a <;> rfl

/-- The activation: the aggregated row plus the bias row, passed through the leaky rectifier
    (the value itself where it is positive, the fixed small slope times it elsewhere). -/
def activated (agg : FVec Ideal S100000x64 .f32) (b : FVec Ideal S1x64 .f32) : FVec Ideal S100000x64 .f32 :=
  fun i => let v := agg i + b (ix2 (0 : Fin 1) (⟨(i 1).val, (i 1).isLt⟩ : Fin 64)); Scalar.select (Ideal.cmp .ogt v (Ideal.ofBits .f32 0x00000000#32)) v (Ideal.ofBits .f32 0x3C23D70A#32 * v)

/-- At the first point the activation block's staging buffer ends holding the activation payload of the two input blocks:
    its one store covers the whole block. -/
private theorem yA (i : grid4.Coords) (a1 : Memref sig .tc .vmem S2000x64 .f32) (h1 : a1.IsWhole)
    (a2 : Memref sig .tc .vmem S1x64 .f32) (h2 : a2.IsWhole) (a3 : Memref sig .tc .vmem S2000x64 .f32) (h3 : a3.IsWhole)
    (a4 : Memref sig .tc .vmem S2x64 .f32) (h4 : a4.IsWhole) (hc : cond4_0 i)
    (x0 : Vec Ideal S2000x64 .f32) (x1 : Vec Ideal S1x64 .f32) :
    out4_A_2 c i a1 h1 a2 h2 a3 h3 a4 h4 hc x0 x1 = k4_pay2 x0 x1 := by
  unfold out4_A_2
  rw [View.read_writes_eq_canon _ _ _ (cover4_A_2 c i a1 h1 a2 h2 a3 h3 a4 h4 hc x0 x1)]
  unfold kernelRun4_A
  dsimp only
  try sl_unfold_words
  rw [View.canon_unit_zero hz]
  simp only [View.readAt_eq_ld, h1.read_unread, h2.read_unread, View.ld_unit_zero (S := S2000x64) hz, View.ld_unit_zero (S := S1x64) hz]

/-- The same at every later point: the carried statistics block does not enter the activation. -/
private theorem yB (i : grid4.Coords) (a1 : Memref sig .tc .vmem S2000x64 .f32) (h1 : a1.IsWhole)
    (a2 : Memref sig .tc .vmem S1x64 .f32) (h2 : a2.IsWhole) (a3 : Memref sig .tc .vmem S2000x64 .f32) (h3 : a3.IsWhole)
    (a4 : Memref sig .tc .vmem S2x64 .f32) (h4 : a4.IsWhole) (hc : ¬cond4_0 i)
    (x0 : Vec Ideal S2000x64 .f32) (x1 : Vec Ideal S1x64 .f32) (xo : Vec Ideal S2x64 .f32) :
    out4_B_2 c i a1 h1 a2 h2 a3 h3 a4 h4 hc x0 x1 xo = k4_pay2 x0 x1 := by
  unfold out4_B_2
  rw [View.read_writes_eq_canon _ _ _ (cover4_B_2 c i a1 h1 a2 h2 a3 h3 a4 h4 hc x0 x1 xo)]
  unfold kernelRun4_B
  dsimp only
  try sl_unfold_words
  rw [View.canon_unit_zero hz]
  simp only [View.readAt_eq_ld, h1.read_unread, h2.read_unread, View.ld_unit_zero (S := S2000x64) hz, View.ld_unit_zero (S := S1x64) hz]

/-- The activation payload at row `r`, column `q` of a block: the block entry plus the bias entry of the column, rectified. -/
private theorem pay2_apply (x0 : FVec Ideal S2000x64 .f32) (x1 : FVec Ideal S1x64 .f32) (r : Fin 2000) (q : Fin 64) :
    k4_pay2 (F := Ideal) x0 x1 (ix2 r q)
      = Scalar.select (Ideal.cmp .ogt (x0 (ix2 r q) + x1 (ix2 (0 : Fin 1) q)) (Ideal.ofBits .f32 0x00000000#32)) (x0 (ix2 r q) + x1 (ix2 (0 : Fin 1) q))
          (Ideal.ofBits .f32 0x3C23D70A#32 * (x0 (ix2 r q) + x1 (ix2 (0 : Fin 1) q))) := by
  have hb : broadcastTo S2000x64 x1 broadcasts_S1x64_S2000x64 (ix2 r q) = x1 (ix2 (0 : Fin 1) q) :=
    broadcastTo_apply x1 _ (ix2 r q) (ix2 (0 : Fin 1) q) (fun a => by match a with | ⟨0, _⟩ => rfl | ⟨1, _⟩ => rfl)
  unfold k4_pay2
  simp only [shapeCast_self]
  show Scalar.select (Ideal.cmp .ogt (x0 (ix2 r q) + broadcastTo S2000x64 x1 broadcasts_S1x64_S2000x64 (ix2 r q)) (Ideal.ofBits .f32 0x00000000#32))
      (x0 (ix2 r q) + broadcastTo S2000x64 x1 broadcasts_S1x64_S2000x64 (ix2 r q))
      (Ideal.ofBits .f32 0x3C23D70A#32 * (x0 (ix2 r q) + broadcastTo S2000x64 x1 broadcasts_S1x64_S2000x64 (ix2 r q))) = _
  rw [hb]

/-- The block index maps over the grid: the aggregated input and the activation output sit at row block `t`, the bias at its one block. -/
private theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (r, q) of the aggregated input's block at point `t` is entry (2000·t + r, q) of its array. -/
private theorem agg_blk (t : Fin cfg4.N) (r : Fin 2000) (q : Fin 64) (k : S100000x64.Idx)
    (hk0 : (k 0).val = 2000 * t.val + r.val) (hk1 : (k 1).val = q.val) :
    (iblk4 V c 0 t : Vec Ideal S2000x64 .f32) (ix2 r q) = (V c (Pipeline.arrRef spec4 0) : S100000x64.Idx → Elt Ideal .f32) k := by
  obtain ⟨e0, e1, -, -, -, -⟩ := idx_facts t
  unfold iblk4
  rw [View.read_apply]
  show V c main_v70 _ = V c main_v70 _
  refine congrArg _ (funext fun a => Fin.ext ?_)
  match a with
  | ⟨0, _⟩ => show win4_0.index t (0 : Fin 2) * 2000 + 1 * r.val = (k 0).val; rw [e0, hk0]; omega
  | ⟨1, _⟩ => show win4_0.index t (1 : Fin 2) * 64 + 1 * q.val = (k 1).val; rw [e1, hk1]; omega

/-- Entry (0, q) of the bias block at any point is entry (0, q) of the bias array. -/
private theorem bias_blk (t : Fin cfg4.N) (q : Fin 64) :
    (iblk4 V c 1 t : Vec Ideal S1x64 .f32) (ix2 (0 : Fin 1) q) = (V c (Pipeline.arrRef spec4 1) : S1x64.Idx → Elt Ideal .f32) (ix2 (0 : Fin 1) q) := by
  obtain ⟨-, -, e2, e3, -, -⟩ := idx_facts t
  unfold iblk4
  rw [View.read_apply]
  show V c main_v71 _ = V c main_v71 _
  refine congrArg _ (funext fun a => Fin.ext ?_)
  match a with
  | ⟨0, _⟩ => show win4_1.index t (0 : Fin 2) * 1 + 1 * 0 = 0; rw [e2]
  | ⟨1, _⟩ => show win4_1.index t (1 : Fin 2) * 64 + 1 * q.val = q.val; rw [e3]; omega

/-- After every point the activation block's buffer holds the activation payload of that point's input blocks. -/
private theorem y_after (t : Fin cfg4.N) : (outsAt4 V c t.val t.isLt).1 = k4_pay2 (iblk4 V c 0 t) (iblk4 V c 1 t) := by
  by_cases h0 : t.val % 50 = 0
  · rw [outsAt4_A V c t h0]
    dsimp only
    exact yA c (grid4.coords t) (ms4_0 t) (hs4_0 t) (ms4_1 t) (hs4_1 t) (ms4_2 t) (hs4_2 t) (ms4_3 t) (hs4_3 t) ((hcond4_0 t).mpr h0) (iblk4 V c 0 t) (iblk4 V c 1 t)
  · rw [outsAt4_B V c t h0]
    dsimp only
    exact yB c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) _

/-- The activation at an array entry whose column is `q`, from the two entries it reads. -/
private theorem act_eq (A : FVec Ideal S100000x64 .f32) (B : FVec Ideal S1x64 .f32) (k : S100000x64.Idx) (q : Fin 64) (a b : Ideal .f32)
    (hq : (k 1).val = q.val) (ha : A k = a) (hb : B (ix2 (0 : Fin 1) q) = b) :
    activated A B k = Scalar.select (Ideal.cmp .ogt (a + b) (Ideal.ofBits .f32 0x00000000#32)) (a + b) (Ideal.ofBits .f32 0x3C23D70A#32 * (a + b)) := by
  subst ha hb
  have e : (⟨(k 1).val, (k 1).isLt⟩ : Fin 64) = q := Fin.ext hq
  unfold activated
  dsimp only
  rw [e]

/-- What point `t` writes back to the activation array is block `t` of the activation of the two arrays. -/
private theorem y_flushed (t : Fin cfg4.N) :
    (dat4 (F := Ideal) V c).flushed 2 t = ((cfg4.win 2).blk t).view.read (Elt Ideal) (activated (V c (Pipeline.arrRef spec4 0)) (V c (Pipeline.arrRef spec4 1))) := by
  show (cfg4.win 2).cut (grid4.coords t) ((dat4 (F := Ideal) V c).after 2 t) = _
  rw [after4_2, y_after]
  obtain ⟨-, -, -, -, e4, e5⟩ := idx_facts t
  funext j
  obtain ⟨r, q, rfl⟩ : ∃ (r : Fin 2000) (q : Fin 64), j = ix2 r q := ⟨j 0, j 1, eq_ix2 j⟩
  rw [View.read_apply]
  have hk0 : ((((cfg4.win 2).blk t).view.emb (ix2 r q)) 0).val = 2000 * t.val + r.val := by
    show win4_2.index t (0 : Fin 2) * 2000 + 1 * r.val = _; rw [e4]; omega
  have hk1 : ((((cfg4.win 2).blk t).view.emb (ix2 r q)) 1).val = q.val := by
    show win4_2.index t (1 : Fin 2) * 64 + 1 * q.val = _; rw [e5]; omega
  show k4_pay2 (F := Ideal) (iblk4 V c 0 t) (iblk4 V c 1 t) (ix2 r q)
    = activated (V c (Pipeline.arrRef spec4 0)) (V c (Pipeline.arrRef spec4 1)) (((cfg4.win 2).blk t).view.emb (ix2 r q))
  refine (pay2_apply (iblk4 V c 0 t) (iblk4 V c 1 t) r q).trans ?_
  exact (act_eq (V c (Pipeline.arrRef spec4 0)) (V c (Pipeline.arrRef spec4 1)) (((cfg4.win 2).blk t).view.emb (ix2 r q)) q _ _ hk1
    (agg_blk V c t r q (((cfg4.win 2).blk t).view.emb (ix2 r q)) hk0 hk1).symm (bias_blk V c t q).symm).symm

/-- An array entry lies in point `t`'s activation block iff each coordinate lies in the block's range on its axis. -/
private theorem mem_blk (t : Fin cfg4.N) (i : S100000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v72_0).slice (win4_2.rect t)).set ↔ _
  rw [View.set_slice_whole, Rect.mem_set_unit]
  exact Iff.rfl

/-- Row `r` of the activation array is written back by point `r / 2000`. -/
private theorem y_cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 50 := N_4
  obtain ⟨t, ht⟩ : ∃ t : Fin cfg4.N, t.val = (i 0).val / 2000 := ⟨⟨(i 0).val / 2000, by rw [hN]; omega⟩, rfl⟩
  obtain ⟨-, -, -, -, e4, e5⟩ := idx_facts t
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; rw [e4, ht]; omega
  | ⟨1, _⟩ => show win4_2.index t (1 : Fin 2) * 64 ≤ (i 1).val ∧ (i 1).val < win4_2.index t (1 : Fin 2) * 64 + 64; rw [e5]; omega

/-- THE ACTIVATION ARRAY after the region: the activation of the aggregated array and the bias row, entry by entry. -/
theorem y_array_eq : (dat4 (F := Ideal) V c).arrAt 2 cfg4.N = activated (V c (Pipeline.arrRef spec4 0)) (V c (Pipeline.arrRef spec4 1)) :=
  (dat4 (F := Ideal) V c).arrAt_eq_of_cover 2 _ (fun t _ => y_flushed V c t) (y_cover)

/-! ## The column statistics -/

/-- The column sums of an activation array and of its squares: row 0 holds, per column, the sum over all rows;
    row 1 the sum of the squares. -/
def columnSums (y : FVec Ideal S100000x64 .f32) : FVec Ideal S2x64 .f32 :=
  fun i => if (i 0).val = 0 then ∑ r : Fin 100000, y (ix2 r (⟨(i 1).val, (i 1).isLt⟩ : Fin 64)) else ∑ r : Fin 100000, y (ix2 r ⟨(i 1).val, (i 1).isLt⟩) * y (ix2 r ⟨(i 1).val, (i 1).isLt⟩)

/-- Entry (ρ, q) of an array, zero past its last row: the summand of the running sums over natural row numbers. -/
private def yrow (y : FVec Ideal S100000x64 .f32) (ρ : ℕ) (q : Fin 64) : Ideal .f32 :=
  if h : ρ < 100000 then y (ix2 (⟨ρ, h⟩ : Fin 100000) q) else 0

private theorem yrow_lt (y : FVec Ideal S100000x64 .f32) (ρ : ℕ) (q : Fin 64) (h : ρ < 100000) : yrow y ρ q = y (ix2 (⟨ρ, h⟩ : Fin 100000) q) := by
  unfold yrow; rw [dif_pos h]

/-- A sum over one axis of a block, at column `q`, is the sum over the block's rows. -/
private theorem colsum_apply (src : FVec Ideal S2000x64 .f32) (hacc : (0x00000000#32 : BitVec 32) = 0x00000000#32) (q : Fin 64) :
    multiReduction (F := Ideal) .add [0] S64 src 0x00000000#32 reduces_S2000x64_S64 (.inl rfl) hacc (ix1 q) = ∑ r : Fin 2000, src (ix2 r q) := by
  refine (Ideal.multiReduction_add_single src 0x00000000#32 reduces_S2000x64_S64 (.inl rfl) hacc (ix1 q)).trans ?_
  refine Finset.sum_congr rfl fun r _ => congrArg src ?_
  funext a
  apply Fin.ext
  match a with
  | ⟨0, _⟩ => rfl
  | ⟨1, _⟩ => rfl

/-- A vector viewed as a one-row block reads, at (0, q), its entry q. -/
private theorem row_cast_apply (v : FVec Ideal S64 .f32) (q : Fin 64) :
    shapeCast S1x64 v shapeCasts_S64_S1x64 (ix2 (0 : Fin 1) q) = v (ix1 q) := by
  refine (shapeCast_addUnit_apply ![64] v shapeCasts_S64_S1x64 (ix2 (0 : Fin 1) q)).trans (congrArg v ?_)
  funext a
  match a with
  | ⟨0, _⟩ => rfl

/-- The first statistics payload at column `q`: the old row-0 entry plus the block's column sum. -/
private theorem pay3_apply (x0 : FVec Ideal S2000x64 .f32) (x1 : FVec Ideal S1x64 .f32) (v20 : FVec Ideal S1x64 .f32) (q : Fin 64) :
    k4_pay3 (F := Ideal) x0 x1 v20 (ix2 (0 : Fin 1) q) = v20 (ix2 (0 : Fin 1) q) + ∑ r : Fin 2000, k4_pay2 (F := Ideal) x0 x1 (ix2 r q) := by
  unfold k4_pay3
  simp only [shapeCast_self]
  show v20 (ix2 (0 : Fin 1) q) + shapeCast S1x64 _ shapeCasts_S64_S1x64 (ix2 (0 : Fin 1) q) = _
  refine congrArg (v20 (ix2 (0 : Fin 1) q) + ·) ?_
  refine (row_cast_apply _ q).trans ?_
  exact colsum_apply (k4_pay2 (F := Ideal) x0 x1) rfl q

/-- The second statistics payload at column `q`: the old row-1 entry plus the block's column sum of squares. -/
private theorem pay4_apply (x0 : FVec Ideal S2000x64 .f32) (x1 : FVec Ideal S1x64 .f32) (v24 : FVec Ideal S1x64 .f32) (q : Fin 64) :
    k4_pay4 (F := Ideal) x0 x1 v24 (ix2 (0 : Fin 1) q)
      = v24 (ix2 (0 : Fin 1) q) + ∑ r : Fin 2000, k4_pay2 (F := Ideal) x0 x1 (ix2 r q) * k4_pay2 (F := Ideal) x0 x1 (ix2 r q) := by
  unfold k4_pay4
  simp only [shapeCast_self]
  show v24 (ix2 (0 : Fin 1) q) + shapeCast S1x64 _ shapeCasts_S64_S1x64 (ix2 (0 : Fin 1) q) = _
  refine congrArg (v24 (ix2 (0 : Fin 1) q) + ·) ?_
  refine (row_cast_apply _ q).trans ?_
  exact colsum_apply (mulf (k4_pay2 (F := Ideal) x0 x1) (k4_pay2 (F := Ideal) x0 x1)) rfl q

/-! ### The two one-row rectangles of the statistics block -/

private abbrev row0 : Rect S2x64 := Rect.unit (s := S2x64) ![0, 0] S1x64.size inb_S2x64_S1x64_0_0
private abbrev row1 : Rect S2x64 := Rect.unit (s := S2x64) ![1, 0] S1x64.size inb_S2x64_S1x64_1_0
private abbrev rows : Rect S2x64 := Rect.unit (s := S2x64) ![0, 0] S2x64.size inb_S2x64_S2x64_0_0

private theorem row0_emb (q : Fin 64) : row0.emb (ix2 (0 : Fin 1) q) = ix2 (0 : Fin 2) q := by
  funext a
  apply Fin.ext
  match a with
  | ⟨0, _⟩ => rfl
  | ⟨1, _⟩ => show 0 + 1 * q.val = q.val; omega

private theorem row1_emb (q : Fin 64) : row1.emb (ix2 (0 : Fin 1) q) = ix2 (1 : Fin 2) q := by
  funext a
  apply Fin.ext
  match a with
  | ⟨0, _⟩ => rfl
  | ⟨1, _⟩ => show 0 + 1 * q.val = q.val; omega

private theorem row0_not_mem_row1 (q : Fin 64) : ix2 (0 : Fin 2) q ∉ row1.set := fun h => by
  have h0 : (1 : ℕ) ≤ 0 := ((Rect.mem_set_unit.mp h) 0).1
  omega

private theorem row1_not_mem_row0 (q : Fin 64) : ix2 (1 : Fin 2) q ∉ row0.set := fun h => by
  have h0 : (1 : ℕ) < 0 + 1 := ((Rect.mem_set_unit.mp h) 0).2
  omega

/-- Stores listed last first: under a last store to row 1, the block at (1, q) is that store's payload at (0, q); -/
private theorem canon_row1 (p1 : FVec Ideal S1x64 .f32) (L : List (View.Piece (Elt Ideal) S2x64 .f32)) (q : Fin 64) :
    View.canon ((⟨row1, p1⟩ : View.Piece (Elt Ideal) S2x64 .f32) :: L) (ix2 (1 : Fin 2) q) = p1 (ix2 (0 : Fin 1) q) := by
  rw [← row1_emb q]; exact View.canon_cons_emb row1 p1 L (ix2 (0 : Fin 1) q)

/-- and at (0, q), with a store to row 0 before it, that earlier store's payload at (0, q). -/
private theorem canon_row0 (p1 p0 : FVec Ideal S1x64 .f32) (L : List (View.Piece (Elt Ideal) S2x64 .f32)) (q : Fin 64) :
    View.canon ((⟨row1, p1⟩ : View.Piece (Elt Ideal) S2x64 .f32) :: ⟨row0, p0⟩ :: L) (ix2 (0 : Fin 2) q) = p0 (ix2 (0 : Fin 1) q) := by
  rw [View.canon_cons_of_not_mem (⟨row1, p1⟩ : View.Piece (Elt Ideal) S2x64 .f32) (⟨row0, p0⟩ :: L) (row0_not_mem_row1 q), ← row0_emb q]
  exact View.canon_cons_emb row0 p0 L (ix2 (0 : Fin 1) q)

/-- A store to row 0 does not touch row 1. -/
private theorem canon_skip_row0 (p0 : FVec Ideal S1x64 .f32) (L : List (View.Piece (Elt Ideal) S2x64 .f32)) (q : Fin 64) :
    View.canon ((⟨row0, p0⟩ : View.Piece (Elt Ideal) S2x64 .f32) :: L) (ix2 (1 : Fin 2) q) = View.canon L (ix2 (1 : Fin 2) q) :=
  View.canon_cons_of_not_mem (⟨row0, p0⟩ : View.Piece (Elt Ideal) S2x64 .f32) L (row1_not_mem_row0 q)

/-- The zeroing store alone leaves the zero word everywhere. -/
private theorem canon_zero (y : S2x64.Idx) :
    View.canon [(⟨rows, k4_pay1 (F := Ideal)⟩ : View.Piece (Elt Ideal) S2x64 .f32)] y = Ideal.ofBits .f32 0x00000000#32 := by
  rw [View.canon_unit_zero hz]; rfl

/-! ### What each case leaves in the statistics block -/

/-- At a later point the block ends with row 0 = old row 0 + column sums of the activation block, row 1 = old row 1 +
    column sums of its squares. -/
private theorem sB (i : grid4.Coords) (a1 : Memref sig .tc .vmem S2000x64 .f32) (h1 : a1.IsWhole)
    (a2 : Memref sig .tc .vmem S1x64 .f32) (h2 : a2.IsWhole) (a3 : Memref sig .tc .vmem S2000x64 .f32) (h3 : a3.IsWhole)
    (a4 : Memref sig .tc .vmem S2x64 .f32) (h4 : a4.IsWhole) (hc : ¬cond4_0 i)
    (x0 : Vec Ideal S2000x64 .f32) (x1 : Vec Ideal S1x64 .f32) (xo : Vec Ideal S2x64 .f32) (q : Fin 64) :
    out4_B_3 c i a1 h1 a2 h2 a3 h3 a4 h4 hc x0 x1 xo (ix2 (0 : Fin 2) q)
        = xo (ix2 (0 : Fin 2) q) + ∑ r : Fin 2000, k4_pay2 (F := Ideal) x0 x1 (ix2 r q)
    ∧ out4_B_3 c i a1 h1 a2 h2 a3 h3 a4 h4 hc x0 x1 xo (ix2 (1 : Fin 2) q)
        = xo (ix2 (1 : Fin 2) q) + ∑ r : Fin 2000, k4_pay2 (F := Ideal) x0 x1 (ix2 r q) * k4_pay2 (F := Ideal) x0 x1 (ix2 r q) := by
  have e : out4_B_3 c i a1 h1 a2 h2 a3 h3 a4 h4 hc x0 x1 xo
      = View.canon [(⟨row1, k4_pay4 (F := Ideal) x0 x1 (View.ld xo row1)⟩ : View.Piece (Elt Ideal) S2x64 .f32), ⟨row0, k4_pay3 (F := Ideal) x0 x1 (View.ld xo row0)⟩] := by
    unfold out4_B_3
    rw [View.read_writes_eq_canon _ _ _ (cover4_B_3 c i a1 h1 a2 h2 a3 h3 a4 h4 hc x0 x1 xo)]
    unfold kernelRun4_B
    dsimp only
    sl_unfold_words
    simp only [View.readAt_eq_ld, h1.read_unread, h2.read_unread, h4.read_unread, View.ld_unit_zero (S := S2000x64) hz, View.ld_unit_zero (S := S1x64) hz]
  rw [e]
  refine ⟨?_, ?_⟩
  · refine (canon_row0 _ _ [] q).trans ((pay3_apply x0 x1 _ q).trans ?_)
    show xo (row0.emb (ix2 (0 : Fin 1) q)) + _ = _
    rw [row0_emb]
  · refine (canon_row1 _ _ q).trans ((pay4_apply x0 x1 _ q).trans ?_)
    show xo (row1.emb (ix2 (0 : Fin 1) q)) + _ = _
    rw [row1_emb]

/-- At the first point the block is zeroed first, so it ends with row 0 = zero word + column sums, row 1 = zero word +
    column sums of squares. -/
private theorem sA (i : grid4.Coords) (a1 : Memref sig .tc .vmem S2000x64 .f32) (h1 : a1.IsWhole)
    (a2 : Memref sig .tc .vmem S1x64 .f32) (h2 : a2.IsWhole) (a3 : Memref sig .tc .vmem S2000x64 .f32) (h3 : a3.IsWhole)
    (a4 : Memref sig .tc .vmem S2x64 .f32) (h4 : a4.IsWhole) (hc : cond4_0 i)
    (x0 : Vec Ideal S2000x64 .f32) (x1 : Vec Ideal S1x64 .f32) (q : Fin 64) :
    out4_A_3 c i a1 h1 a2 h2 a3 h3 a4 h4 hc x0 x1 (ix2 (0 : Fin 2) q)
        = Ideal.ofBits .f32 0x00000000#32 + ∑ r : Fin 2000, k4_pay2 (F := Ideal) x0 x1 (ix2 r q)
    ∧ out4_A_3 c i a1 h1 a2 h2 a3 h3 a4 h4 hc x0 x1 (ix2 (1 : Fin 2) q)
        = Ideal.ofBits .f32 0x00000000#32 + ∑ r : Fin 2000, k4_pay2 (F := Ideal) x0 x1 (ix2 r q) * k4_pay2 (F := Ideal) x0 x1 (ix2 r q) := by
  have e : out4_A_3 c i a1 h1 a2 h2 a3 h3 a4 h4 hc x0 x1
      = View.canon [(⟨row1, k4_pay4 (F := Ideal) x0 x1 (a4.view.readCov [(⟨row0, k4_pay3 (F := Ideal) x0 x1 (a4.view.readCov [(⟨rows, k4_pay1 (F := Ideal)⟩ : View.Piece (Elt Ideal) S2x64 .f32)] row0.toLoadRect)⟩ : View.Piece (Elt Ideal) S2x64 .f32), ⟨rows, k4_pay1 (F := Ideal)⟩] row1.toLoadRect)⟩ : View.Piece (Elt Ideal) S2x64 .f32),
          ⟨row0, k4_pay3 (F := Ideal) x0 x1 (a4.view.readCov [(⟨rows, k4_pay1 (F := Ideal)⟩ : View.Piece (Elt Ideal) S2x64 .f32)] row0.toLoadRect)⟩,
          ⟨rows, k4_pay1 (F := Ideal)⟩] := by
    unfold out4_A_3
    rw [View.read_writes_eq_canon _ _ _ (cover4_A_3 c i a1 h1 a2 h2 a3 h3 a4 h4 hc x0 x1)]
    unfold kernelRun4_A
    dsimp only
    sl_unfold_words
    simp only [View.readAt_eq_ld, h1.read_unread, h2.read_unread, View.ld_unit_zero (S := S2000x64) hz, View.ld_unit_zero (S := S1x64) hz]
  rw [e]
  refine ⟨?_, ?_⟩
  · refine (canon_row0 _ _ _ q).trans ((pay3_apply x0 x1 _ q).trans ?_)
    refine congrArg (· + _) ?_
    rw [View.readCov_eq_canon']
    exact canon_zero _
  · refine (canon_row1 _ _ q).trans ((pay4_apply x0 x1 _ q).trans ?_)
    refine congrArg (· + _) ?_
    rw [View.readCov_eq_canon']
    show View.canon _ (row1.emb (ix2 (0 : Fin 1) q)) = _
    rw [row1_emb]
    exact (canon_skip_row0 _ _ q).trans (canon_zero _)

/-! ### The running sums over the grid -/

/-- The activation array of the region's two input arrays. -/
private abbrev yarr : FVec Ideal S100000x64 .f32 := activated (V c (Pipeline.arrRef spec4 0)) (V c (Pipeline.arrRef spec4 1))

/-- The activation payload of point `t`'s blocks at (r, q) is entry (2000·t + r, q) of the activation array. -/
private theorem pay_row (t : Fin cfg4.N) (r : Fin 2000) (q : Fin 64) :
    k4_pay2 (F := Ideal) (iblk4 V c 0 t) (iblk4 V c 1 t) (ix2 r q) = yrow (yarr V c) (2000 * t.val + r.val) q := by
  have hN : cfg4.N = 50 := N_4
  have ht : t.val < 50 := lt_of_lt_of_eq t.isLt hN
  have hlt : 2000 * t.val + r.val < 100000 := by have := r.isLt; omega
  rw [yrow_lt _ _ _ hlt]
  refine (pay2_apply (iblk4 V c 0 t) (iblk4 V c 1 t) r q).trans ?_
  exact (act_eq (V c (Pipeline.arrRef spec4 0)) (V c (Pipeline.arrRef spec4 1)) (ix2 (⟨2000 * t.val + r.val, hlt⟩ : Fin 100000) q) q _ _ rfl
    (agg_blk V c t r q (ix2 (⟨2000 * t.val + r.val, hlt⟩ : Fin 100000) q) rfl rfl).symm (bias_blk V c t q).symm).symm

/-- The column sum of point `t`'s activation block is the sum of rows 2000·t … 2000·t + 1999 of the activation array; -/
private theorem blk_sum (t : Fin cfg4.N) (q : Fin 64) :
    ∑ r : Fin 2000, k4_pay2 (F := Ideal) (iblk4 V c 0 t) (iblk4 V c 1 t) (ix2 r q)
      = ∑ r ∈ Finset.range 2000, yrow (yarr V c) (2000 * t.val + r) q := by
  rw [← Fin.sum_univ_eq_sum_range (fun r => yrow (yarr V c) (2000 * t.val + r) q) 2000]
  exact Finset.sum_congr rfl fun r _ => pay_row V c t r q

/-- and likewise for the squares. -/
private theorem blk_sum_sq (t : Fin cfg4.N) (q : Fin 64) :
    ∑ r : Fin 2000, k4_pay2 (F := Ideal) (iblk4 V c 0 t) (iblk4 V c 1 t) (ix2 r q) * k4_pay2 (F := Ideal) (iblk4 V c 0 t) (iblk4 V c 1 t) (ix2 r q)
      = ∑ r ∈ Finset.range 2000, yrow (yarr V c) (2000 * t.val + r) q * yrow (yarr V c) (2000 * t.val + r) q := by
  rw [← Fin.sum_univ_eq_sum_range (fun r => yrow (yarr V c) (2000 * t.val + r) q * yrow (yarr V c) (2000 * t.val + r) q) 2000]
  exact Finset.sum_congr rfl fun r _ => by rw [pay_row V c t r q]

/-- A sum over the first 2000·(n + 1) rows splits into the first 2000·n rows and the next 2000. -/
private theorem range_step (f : ℕ → Ideal .f32) (n : ℕ) :
    ∑ ρ ∈ Finset.range (2000 * (n + 1)), f ρ = ∑ ρ ∈ Finset.range (2000 * n), f ρ + ∑ r ∈ Finset.range 2000, f (2000 * n + r) := by
  rw [show 2000 * (n + 1) = 2000 * n + 2000 from by ring, Finset.sum_range_add]

/-- THE INVARIANT: after point `n` the statistics block holds, per column, the zero word plus the sum over the first
    2000·(n + 1) rows of the activation array (row 0) and of its squares (row 1) — by induction on the point: the first
    point starts from the zeroed block, every later point adds its block's sums onto what the point before left. -/
private theorem stats_after (q : Fin 64) : ∀ (n : ℕ) (h : n < cfg4.N),
    (outsAt4 V c n h).2 (ix2 (0 : Fin 2) q)
        = Ideal.ofBits .f32 0x00000000#32 + ∑ ρ ∈ Finset.range (2000 * (n + 1)), yrow (yarr V c) ρ q
    ∧ (outsAt4 V c n h).2 (ix2 (1 : Fin 2) q)
        = Ideal.ofBits .f32 0x00000000#32 + ∑ ρ ∈ Finset.range (2000 * (n + 1)), yrow (yarr V c) ρ q * yrow (yarr V c) ρ q
  | 0, h => by
    have e := outsAt4_A V c ⟨0, h⟩ rfl
    have e3 : (outsAt4 V c 0 h).2 = out4_A_3 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) ((hcond4_0 ⟨0, h⟩).mpr rfl) (iblk4 V c 0 ⟨0, h⟩) (iblk4 V c 1 ⟨0, h⟩) :=
      congrArg Prod.snd e
    have hA := sA c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) ((hcond4_0 ⟨0, h⟩).mpr rfl) (iblk4 V c 0 ⟨0, h⟩) (iblk4 V c 1 ⟨0, h⟩) q
    refine ⟨(congrFun e3 _).trans (hA.1.trans ?_), (congrFun e3 _).trans (hA.2.trans ?_)⟩
    · rw [blk_sum V c ⟨0, h⟩ q, range_step _ 0]
      simp only [Nat.mul_zero, Finset.range_zero, Finset.sum_empty, zero_add]
    · rw [blk_sum_sq V c ⟨0, h⟩ q, range_step _ 0]
      simp only [Nat.mul_zero, Finset.range_zero, Finset.sum_empty, zero_add]
  | n + 1, h => by
    have hN : cfg4.N = 50 := N_4
    have hB : ¬(⟨n + 1, h⟩ : Fin cfg4.N).val % 50 = 0 := by dsimp only; omega
    have e := outsAt4_B V c ⟨n + 1, h⟩ hB
    have e3 : (outsAt4 V c (n + 1) h).2 = out4_B_3 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (fun hh => hB ((hcond4_0 ⟨n + 1, h⟩).mp hh)) (iblk4 V c 0 ⟨n + 1, h⟩) (iblk4 V c 1 ⟨n + 1, h⟩) (outsAt4 V c n (Nat.lt_of_succ_lt h)).2 :=
      congrArg Prod.snd e
    have hBv := sB c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (fun hh => hB ((hcond4_0 ⟨n + 1, h⟩).mp hh)) (iblk4 V c 0 ⟨n + 1, h⟩) (iblk4 V c 1 ⟨n + 1, h⟩) (outsAt4 V c n (Nat.lt_of_succ_lt h)).2 q
    obtain ⟨ih0, ih1⟩ := stats_after q n (Nat.lt_of_succ_lt h)
    refine ⟨(congrFun e3 _).trans (hBv.1.trans ?_), (congrFun e3 _).trans (hBv.2.trans ?_)⟩
    · rw [ih0, blk_sum V c ⟨n + 1, h⟩ q, range_step _ (n + 1), add_assoc]
    · rw [ih1, blk_sum_sq V c ⟨n + 1, h⟩ q, range_step _ (n + 1), add_assoc]

/-- The last point of the grid, the one whose statistics block is written back. -/
private abbrev tlast : Fin cfg4.N := ⟨49, by decide⟩

/-- After the last point the statistics block holds the column sums of the whole activation array and of its squares:
    the zero word is the real zero, and the 50 blocks of 2000 rows are the 100000 rows. -/
private theorem stats_last : (outsAt4 V c 49 (tlast).isLt).2 = columnSums (yarr V c) := by
  funext j
  obtain ⟨a, q, rfl⟩ : ∃ (a : Fin 2) (q : Fin 64), j = ix2 a q := ⟨j 0, j 1, eq_ix2 j⟩
  obtain ⟨h0, h1⟩ := stats_after V c q 49 (tlast).isLt
  rw [show 2000 * (49 + 1) = 100000 from by norm_num, Ideal.ofBits_zero_f32, zero_add] at h0 h1
  match a with
  | ⟨0, _⟩ =>
    refine h0.trans ?_
    unfold columnSums
    rw [if_pos rfl, ← Fin.sum_univ_eq_sum_range (fun ρ => yrow (yarr V c) ρ q) 100000]
    exact Finset.sum_congr rfl fun r _ => yrow_lt _ _ _ r.isLt
  | ⟨1, _⟩ =>
    refine h1.trans ?_
    unfold columnSums
    rw [if_neg Nat.one_ne_zero, ← Fin.sum_univ_eq_sum_range (fun ρ => yrow (yarr V c) ρ q * yrow (yarr V c) ρ q) 100000]
    exact Finset.sum_congr rfl fun r _ => by rw [yrow_lt _ _ _ r.isLt]

/-- The statistics window's one block is the whole [2, 64] array at every point. -/
private theorem idx_facts3 : ∀ t : Fin cfg4.N, win4_3.index t (0 : Fin 2) = 0 ∧ win4_3.index t (1 : Fin 2) = 0 :=
  (by decide +kernel : ∀ t : Fin grid4.N, _)

/-- The one write-back of the statistics array, after the last point, writes those column sums. -/
private theorem s_flushed (t : Fin cfg4.N) (hf : (cfg4.win 3).flush t = true) :
    (dat4 (F := Ideal) V c).flushed 3 t = ((cfg4.win 3).blk t).view.read (Elt Ideal) (columnSums (yarr V c)) := by
  have hN : cfg4.N = 50 := N_4
  have h49 : t.val = 49 := by have := (flush4_3 t).mp hf; have := t.isLt; omega
  obtain rfl : t = tlast := Fin.ext h49
  show (cfg4.win 3).cut (grid4.coords tlast) ((dat4 (F := Ideal) V c).after 3 tlast) = _
  rw [after4_3]
  show (cfg4.win 3).cut (grid4.coords tlast) (outsAt4 V c 49 (tlast).isLt).2 = _
  rw [stats_last]
  obtain ⟨e0, e1⟩ := idx_facts3 tlast
  have hz' : (fun a => win4_3.index tlast a * main_v72_1.ty.shape.size a) = fun _ => 0 :=
    funext fun a => by
      match a with
      | ⟨0, _⟩ => show win4_3.index tlast (0 : Fin 2) * 2 = 0; rw [e0]
      | ⟨1, _⟩ => show win4_3.index tlast (1 : Fin 2) * 64 = 0; rw [e1]
  exact (Memref.read_access_unit_zero (Elt Ideal) main_v72_1 hz' (fun a => by rw [congrFun hz' a]; simp) (columnSums (yarr V c))).symm

/-- Every entry of the statistics array lies in that one block. -/
private theorem s_cover (i : S2x64.Idx) : ∃ t : Fin cfg4.N, (cfg4.win 3).flush t = true ∧ i ∈ ((cfg4.win 3).blk t).view.set := by
  have hi0 : (i 0).val < 2 := (i 0).isLt
  have hi1 : (i 1).val < 64 := (i 1).isLt
  obtain ⟨e0, e1⟩ := idx_facts3 tlast
  refine ⟨tlast, (flush4_3 tlast).mpr rfl, ?_⟩
  show i ∈ ((View.whole main_v72_1).slice (win4_3.rect tlast)).set
  rw [View.set_slice_whole, Rect.mem_set_unit]
  intro a
  match a with
  | ⟨0, _⟩ => show win4_3.index tlast (0 : Fin 2) * 2 ≤ (i 0).val ∧ (i 0).val < win4_3.index tlast (0 : Fin 2) * 2 + 2; rw [e0]; omega
  | ⟨1, _⟩ => show win4_3.index tlast (1 : Fin 2) * 64 ≤ (i 1).val ∧ (i 1).val < win4_3.index tlast (1 : Fin 2) * 64 + 64; rw [e1]; omega

/-- THE STATISTICS ARRAY after the region: row 0 the column sums of the activation array over all 100000 rows, row 1 the
    column sums of its squares. -/
theorem stats_array_eq : (dat4 (F := Ideal) V c).arrAt 3 cfg4.N = columnSums (activated (V c (Pipeline.arrRef spec4 0)) (V c (Pipeline.arrRef spec4 1))) :=
  (dat4 (F := Ideal) V c).arrAt_eq_of_cover 3 _ (s_flushed V c) (s_cover)

end Cert.KernelIdeal.StatsB

end
-- ==== Proof.StatsC.lean ====
/-
  The bias / leaky-rectifier / column-statistics region over the [100000, 8] aggregated array, read as values
  over the extended reals. The grid has 50 points; point t handles rows 2000·t … 2000·t + 1999. At every point the
  body stores, over the whole [2000, 8] activation block, the rectified sum of the aggregated block and the bias row:
  entry (r, q) is v if v > 0 and 0.01-word · v otherwise, v = agg(2000·t + r, q) + bias(0, q). Every point writes its
  block back, and row r of the array lies in the block of point r / 2000, so after the region the activation array is
  that function of the two input arrays entry by entry (`y_array_eq`).
-/
import proofs.«153942_j44160853737649_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Cert.KernelIdeal Cert.KernelIdeal.Gen Idealize.ShloMosaic Idealize.ShloMosaic.TcCoe Idealize.SL.Sem Idealize.ShloMosaic.ValueIdx
open Idealize.ShloMosaic.Pipeline (Dat)

namespace Cert.KernelIdeal.StatsC

variable (V : (c : Dev nD) → (b : Ref sig .tc) → Buf (Elt Ideal) ((c : Thread nD τ).loc b)) (c : Dev nD)

private theorem hz : (![0, 0] : Fin 2 → Nat) = fun _ => 0 := funext fun a => by fin_cases a <;> rfl

/-- The activation: the aggregated row plus the bias row, passed through the leaky rectifier
    (the value itself where it is positive, the fixed small slope times it elsewhere). -/
def activated (agg : FVec Ideal S100000x8 .f32) (b : FVec Ideal S1x8 .f32) : FVec Ideal S100000x8 .f32 :=
  fun i => let v := agg i + b (ix2 (0 : Fin 1) (⟨(i 1).val, (i 1).isLt⟩ : Fin 8)); Scalar.select (Ideal.cmp .ogt v (Ideal.ofBits .f32 0x00000000#32)) v (Ideal.ofBits .f32 0x3C23D70A#32 * v)

/-- At the first point the activation block's staging buffer ends holding the activation payload of the two input blocks:
    its one store covers the whole block. -/
private theorem yA (i : grid7.Coords) (a1 : Memref sig .tc .vmem S2000x8 .f32) (h1 : a1.IsWhole)
    (a2 : Memref sig .tc .vmem S1x8 .f32) (h2 : a2.IsWhole) (a3 : Memref sig .tc .vmem S2000x8 .f32) (h3 : a3.IsWhole)
    (a4 : Memref sig .tc .vmem S2x8 .f32) (h4 : a4.IsWhole) (hc : cond7_0 i)
    (x0 : Vec Ideal S2000x8 .f32) (x1 : Vec Ideal S1x8 .f32) :
    out7_A_2 c i a1 h1 a2 h2 a3 h3 a4 h4 hc x0 x1 = k7_pay2 x0 x1 := by
  unfold out7_A_2
  rw [View.read_writes_eq_canon _ _ _ (cover7_A_2 c i a1 h1 a2 h2 a3 h3 a4 h4 hc x0 x1)]
  unfold kernelRun7_A
  dsimp only
  try sl_unfold_words
  rw [View.canon_unit_zero hz]
  simp only [View.readAt_eq_ld, h1.read_unread, h2.read_unread, View.ld_unit_zero (S := S2000x8) hz, View.ld_unit_zero (S := S1x8) hz]

/-- The same at every later point: the carried statistics block does not enter the activation. -/
private theorem yB (i : grid7.Coords) (a1 : Memref sig .tc .vmem S2000x8 .f32) (h1 : a1.IsWhole)
    (a2 : Memref sig .tc .vmem S1x8 .f32) (h2 : a2.IsWhole) (a3 : Memref sig .tc .vmem S2000x8 .f32) (h3 : a3.IsWhole)
    (a4 : Memref sig .tc .vmem S2x8 .f32) (h4 : a4.IsWhole) (hc : ¬cond7_0 i)
    (x0 : Vec Ideal S2000x8 .f32) (x1 : Vec Ideal S1x8 .f32) (xo : Vec Ideal S2x8 .f32) :
    out7_B_2 c i a1 h1 a2 h2 a3 h3 a4 h4 hc x0 x1 xo = k7_pay2 x0 x1 := by
  unfold out7_B_2
  rw [View.read_writes_eq_canon _ _ _ (cover7_B_2 c i a1 h1 a2 h2 a3 h3 a4 h4 hc x0 x1 xo)]
  unfold kernelRun7_B
  dsimp only
  try sl_unfold_words
  rw [View.canon_unit_zero hz]
  simp only [View.readAt_eq_ld, h1.read_unread, h2.read_unread, View.ld_unit_zero (S := S2000x8) hz, View.ld_unit_zero (S := S1x8) hz]

/-- The activation payload at row `r`, column `q` of a block: the block entry plus the bias entry of the column, rectified. -/
private theorem pay2_apply (x0 : FVec Ideal S2000x8 .f32) (x1 : FVec Ideal S1x8 .f32) (r : Fin 2000) (q : Fin 8) :
    k7_pay2 (F := Ideal) x0 x1 (ix2 r q)
      = Scalar.select (Ideal.cmp .ogt (x0 (ix2 r q) + x1 (ix2 (0 : Fin 1) q)) (Ideal.ofBits .f32 0x00000000#32)) (x0 (ix2 r q) + x1 (ix2 (0 : Fin 1) q))
          (Ideal.ofBits .f32 0x3C23D70A#32 * (x0 (ix2 r q) + x1 (ix2 (0 : Fin 1) q))) := by
  have hb : broadcastTo S2000x8 x1 broadcasts_S1x8_S2000x8 (ix2 r q) = x1 (ix2 (0 : Fin 1) q) :=
    broadcastTo_apply x1 _ (ix2 r q) (ix2 (0 : Fin 1) q) (fun a => by match a with | ⟨0, _⟩ => rfl | ⟨1, _⟩ => rfl)
  unfold k7_pay2
  simp only [shapeCast_self]
  show Scalar.select (Ideal.cmp .ogt (x0 (ix2 r q) + broadcastTo S2000x8 x1 broadcasts_S1x8_S2000x8 (ix2 r q)) (Ideal.ofBits .f32 0x00000000#32))
      (x0 (ix2 r q) + broadcastTo S2000x8 x1 broadcasts_S1x8_S2000x8 (ix2 r q))
      (Ideal.ofBits .f32 0x3C23D70A#32 * (x0 (ix2 r q) + broadcastTo S2000x8 x1 broadcasts_S1x8_S2000x8 (ix2 r q))) = _
  rw [hb]

/-- The block index maps over the grid: the aggregated input and the activation output sit at row block `t`, the bias at its one block. -/
private theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Entry (r, q) of the aggregated input's block at point `t` is entry (2000·t + r, q) of its array. -/
private theorem agg_blk (t : Fin cfg7.N) (r : Fin 2000) (q : Fin 8) (k : S100000x8.Idx)
    (hk0 : (k 0).val = 2000 * t.val + r.val) (hk1 : (k 1).val = q.val) :
    (iblk7 V c 0 t : Vec Ideal S2000x8 .f32) (ix2 r q) = (V c (Pipeline.arrRef spec7 0) : S100000x8.Idx → Elt Ideal .f32) k := by
  obtain ⟨e0, e1, -, -, -, -⟩ := idx_facts t
  unfold iblk7
  rw [View.read_apply]
  show V c main_v97 _ = V c main_v97 _
  refine congrArg _ (funext fun a => Fin.ext ?_)
  match a with
  | ⟨0, _⟩ => show win7_0.index t (0 : Fin 2) * 2000 + 1 * r.val = (k 0).val; rw [e0, hk0]; omega
  | ⟨1, _⟩ => show win7_0.index t (1 : Fin 2) * 8 + 1 * q.val = (k 1).val; rw [e1, hk1]; omega

/-- Entry (0, q) of the bias block at any point is entry (0, q) of the bias array. -/
private theorem bias_blk (t : Fin cfg7.N) (q : Fin 8) :
    (iblk7 V c 1 t : Vec Ideal S1x8 .f32) (ix2 (0 : Fin 1) q) = (V c (Pipeline.arrRef spec7 1) : S1x8.Idx → Elt Ideal .f32) (ix2 (0 : Fin 1) q) := by
  obtain ⟨-, -, e2, e3, -, -⟩ := idx_facts t
  unfold iblk7
  rw [View.read_apply]
  show V c main_v98 _ = V c main_v98 _
  refine congrArg _ (funext fun a => Fin.ext ?_)
  match a with
  | ⟨0, _⟩ => show win7_1.index t (0 : Fin 2) * 1 + 1 * 0 = 0; rw [e2]
  | ⟨1, _⟩ => show win7_1.index t (1 : Fin 2) * 8 + 1 * q.val = q.val; rw [e3]; omega

/-- After every point the activation block's buffer holds the activation payload of that point's input blocks. -/
private theorem y_after (t : Fin cfg7.N) : (outsAt7 V c t.val t.isLt).1 = k7_pay2 (iblk7 V c 0 t) (iblk7 V c 1 t) := by
  by_cases h0 : t.val % 50 = 0
  · rw [outsAt7_A V c t h0]
    dsimp only
    exact yA c (grid7.coords t) (ms7_0 t) (hs7_0 t) (ms7_1 t) (hs7_1 t) (ms7_2 t) (hs7_2 t) (ms7_3 t) (hs7_3 t) ((hcond7_0 t).mpr h0) (iblk7 V c 0 t) (iblk7 V c 1 t)
  · rw [outsAt7_B V c t h0]
    dsimp only
    exact yB c (grid7.coords t) (ms7_0 t) (hs7_0 t) (ms7_1 t) (hs7_1 t) (ms7_2 t) (hs7_2 t) (ms7_3 t) (hs7_3 t) (fun h => h0 ((hcond7_0 t).mp h)) (iblk7 V c 0 t) (iblk7 V c 1 t) _

/-- The activation at an array entry whose column is `q`, from the two entries it reads. -/
private theorem act_eq (A : FVec Ideal S100000x8 .f32) (B : FVec Ideal S1x8 .f32) (k : S100000x8.Idx) (q : Fin 8) (a b : Ideal .f32)
    (hq : (k 1).val = q.val) (ha : A k = a) (hb : B (ix2 (0 : Fin 1) q) = b) :
    activated A B k = Scalar.select (Ideal.cmp .ogt (a + b) (Ideal.ofBits .f32 0x00000000#32)) (a + b) (Ideal.ofBits .f32 0x3C23D70A#32 * (a + b)) := by
  subst ha hb
  have e : (⟨(k 1).val, (k 1).isLt⟩ : Fin 8) = q := Fin.ext hq
  unfold activated
  dsimp only
  rw [e]

/-- What point `t` writes back to the activation array is block `t` of the activation of the two arrays. -/
private theorem y_flushed (t : Fin cfg7.N) :
    (dat7 (F := Ideal) V c).flushed 2 t = ((cfg7.win 2).blk t).view.read (Elt Ideal) (activated (V c (Pipeline.arrRef spec7 0)) (V c (Pipeline.arrRef spec7 1))) := by
  show (cfg7.win 2).cut (grid7.coords t) ((dat7 (F := Ideal) V c).after 2 t) = _
  rw [after7_2, y_after]
  obtain ⟨-, -, -, -, e4, e5⟩ := idx_facts t
  funext j
  obtain ⟨r, q, rfl⟩ : ∃ (r : Fin 2000) (q : Fin 8), j = ix2 r q := ⟨j 0, j 1, eq_ix2 j⟩
  rw [View.read_apply]
  have hk0 : ((((cfg7.win 2).blk t).view.emb (ix2 r q)) 0).val = 2000 * t.val + r.val := by
    show win7_2.index t (0 : Fin 2) * 2000 + 1 * r.val = _; rw [e4]; omega
  have hk1 : ((((cfg7.win 2).blk t).view.emb (ix2 r q)) 1).val = q.val := by
    show win7_2.index t (1 : Fin 2) * 8 + 1 * q.val = _; rw [e5]; omega
  show k7_pay2 (F := Ideal) (iblk7 V c 0 t) (iblk7 V c 1 t) (ix2 r q)
    = activated (V c (Pipeline.arrRef spec7 0)) (V c (Pipeline.arrRef spec7 1)) (((cfg7.win 2).blk t).view.emb (ix2 r q))
  refine (pay2_apply (iblk7 V c 0 t) (iblk7 V c 1 t) r q).trans ?_
  exact (act_eq (V c (Pipeline.arrRef spec7 0)) (V c (Pipeline.arrRef spec7 1)) (((cfg7.win 2).blk t).view.emb (ix2 r q)) q _ _ hk1
    (agg_blk V c t r q (((cfg7.win 2).blk t).view.emb (ix2 r q)) hk0 hk1).symm (bias_blk V c t q).symm).symm

/-- An array entry lies in point `t`'s activation block iff each coordinate lies in the block's range on its axis. -/
private theorem mem_blk (t : Fin cfg7.N) (i : S100000x8.Idx) :
    i ∈ ((cfg7.win 2).blk t).view.set ↔ ∀ a : Fin 2, win7_2.index t a * S2000x8.size a ≤ (i a).val ∧ (i a).val < win7_2.index t a * S2000x8.size a + S2000x8.size a := by
  show i ∈ ((View.whole main_v99_0).slice (win7_2.rect t)).set ↔ _
  rw [View.set_slice_whole, Rect.mem_set_unit]
  exact Iff.rfl

/-- Row `r` of the activation array is written back by point `r / 2000`. -/
private theorem y_cover (i : S100000x8.Idx) : ∃ t : Fin cfg7.N, (cfg7.win 2).flush t = true ∧ i ∈ ((cfg7.win 2).blk t).view.set := by
  have hi0 : (i 0).val < 100000 := (i 0).isLt
  have hi1 : (i 1).val < 8 := (i 1).isLt
  have hN : cfg7.N = 50 := N_7
  obtain ⟨t, ht⟩ : ∃ t : Fin cfg7.N, t.val = (i 0).val / 2000 := ⟨⟨(i 0).val / 2000, by rw [hN]; omega⟩, rfl⟩
  obtain ⟨-, -, -, -, e4, e5⟩ := idx_facts t
  refine ⟨t, flush7_2 t, ?_⟩
  rw [mem_blk]
  intro a
  match a with
  | ⟨0, _⟩ => show win7_2.index t (0 : Fin 2) * 2000 ≤ (i 0).val ∧ (i 0).val < win7_2.index t (0 : Fin 2) * 2000 + 2000; rw [e4, ht]; omega
  | ⟨1, _⟩ => show win7_2.index t (1 : Fin 2) * 8 ≤ (i 1).val ∧ (i 1).val < win7_2.index t (1 : Fin 2) * 8 + 8; rw [e5]; omega

/-- THE ACTIVATION ARRAY after the region: the activation of the aggregated array and the bias row, entry by entry. -/
theorem y_array_eq : (dat7 (F := Ideal) V c).arrAt 2 cfg7.N = activated (V c (Pipeline.arrRef spec7 0)) (V c (Pipeline.arrRef spec7 1)) :=
  (dat7 (F := Ideal) V c).arrAt_eq_of_cover 2 _ (fun t _ => y_flushed V c t) (y_cover)

end Cert.KernelIdeal.StatsC

end
-- ==== Proof.NormalizeA.lean ====
/-
The normalisation step of the first layer (region 2 of the program), read as one function of the arrays the region finds.

The body at grid point `t` holds rows `2000 t … 2000 t + 1999` of `y` and the whole of four row vectors
(mean, variance, scale, shift), and stores `(y - mean) * rsqrt (var + eps) * scale + shift`, the row vectors broadcast
over the 2000 rows. The 50 output blocks tile the 100000 rows, so after the region the output array is that formula
index by index (`array_eq`).
-/
import proofs.«153942_j44160853737649_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

open Cert.KernelIdeal Cert.KernelIdeal.Gen Idealize.ShloMosaic Idealize.ShloMosaic.TcCoe Idealize.SL.Sem Idealize.ShloMosaic.ValueIdx
open Idealize.ShloMosaic.Pipeline (Dat)

namespace Cert.KernelIdeal.NormalizeA

variable (V : (c : Dev nD) → (b : Ref sig .tc) → Buf (Elt Ideal) ((c : Thread nD τ).loc b)) (c : Dev nD)

/-- Batch normalisation of the rows of `y` by per-column statistics and an affine map. -/
def normalized (y : FVec Ideal S100000x128 .f32) (mean var gamma beta : FVec Ideal S1x128 .f32) : FVec Ideal S100000x128 .f32 :=
  fun i => (y i - mean (ix2 (0 : Fin 1) (⟨(i 1).val, (i 1).isLt⟩ : Fin 128))) * Ideal.rsqrt (var (ix2 0 ⟨(i 1).val, (i 1).isLt⟩) + Ideal.ofBits .f32 0x3727C5AC#32) * gamma (ix2 0 ⟨(i 1).val, (i 1).isLt⟩) + beta (ix2 0 ⟨(i 1).val, (i 1).isLt⟩)

theorem pay_apply (x0 : Vec Ideal S2000x128 .f32) (xv xm xg xb : Vec Ideal S1x128 .f32) (p : Fin 2000) (q : Fin 128) :
    k2_pay1 x0 xv xm xg xb (ix2 p q)
      = (x0 (ix2 p q) - xm (ix2 (0 : Fin 1) q)) * Ideal.rsqrt (xv (ix2 (0 : Fin 1) q) + Ideal.ofBits .f32 0x3727C5AC#32) * xg (ix2 (0 : Fin 1) q) + xb (ix2 (0 : Fin 1) q) := by
  unfold k2_pay1
  simp only [shapeCast_self]
  show ((x0 (ix2 p q) : EReal) - broadcastTo S2000x128 (xm : FVec Ideal S1x128 .f32) broadcasts_S1x128_S2000x128 (ix2 p q))
      * broadcastTo S2000x128 (rsqrt (addf (xv : FVec Ideal S1x128 .f32) (broadcast S1x128 (Scalar.ofBits (F := Ideal) .f32 0x3727C5AC#32))) : FVec Ideal S1x128 .f32) broadcasts_S1x128_S2000x128 (ix2 p q)
      * broadcastTo S2000x128 (xg : FVec Ideal S1x128 .f32) broadcasts_S1x128_S2000x128 (ix2 p q)
      + broadcastTo S2000x128 (xb : FVec Ideal S1x128 .f32) broadcasts_S1x128_S2000x128 (ix2 p q) = _
  rw [broadcastTo_1b_ab_apply xm, broadcastTo_1b_ab_apply xg, broadcastTo_1b_ab_apply xb, broadcastTo_1b_ab_apply (rsqrt _)]
  rfl

/-- The normalisation formula respects equality of its five scalar arguments. -/
theorem formula_congr {a a' b b' v v' g g' s s' : EReal} (e : EReal) (ha : a = a') (hb : b = b') (hv : v = v') (hg : g = g')
    (hs : s = s') : (a - b) * Ideal.rsqrt (v + e) * g + s = (a' - b') * Ideal.rsqrt (v' + e) * g' + s' := by
  subst ha hb hv hg hs; rfl

theorem hz : (![0, 0] : Fin 2 → Nat) = fun _ => 0 := funext fun a => by fin_cases a <;> rfl

/-- The normalised array at an index whose column is `q`. -/
theorem normalized_apply (y : FVec Ideal S100000x128 .f32) (mean var gamma beta : FVec Ideal S1x128 .f32)
    (k : S100000x128.Idx) (q : Fin 128) (hk : (k 1).val = q.val) :
    normalized y mean var gamma beta k
      = (y k - mean (ix2 (0 : Fin 1) q)) * Ideal.rsqrt (var (ix2 (0 : Fin 1) q) + Ideal.ofBits .f32 0x3727C5AC#32) * gamma (ix2 (0 : Fin 1) q) + beta (ix2 (0 : Fin 1) q) := by
  have e : (⟨(k 1).val, (k 1).isLt⟩ : Fin 128) = q := Fin.ext hk
  unfold normalized
  rw [e]

/-- The block index of every window at every grid point: the two row-tiled windows are at row block `t`, the four
    row vectors stay at their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the block of `y` at point `t` is row `2000 t + p` of the array. -/
theorem iblk_y (t : Fin cfg2.N) (p : Fin 2000) (q : Fin 128) (k : S100000x128.Idx)
    (hk0 : (k 0).val = 2000 * t.val + p.val) (hk1 : (k 1).val = q.val) :
    (iblk2 V c 0 t : Vec Ideal S2000x128 .f32) (ix2 p q) = (V c (Pipeline.arrRef spec2 0) : S100000x128.Idx → EReal) k := by
  obtain ⟨e0, e1, -⟩ := idx_facts t
  unfold iblk2
  show (V c (Pipeline.arrRef spec2 0) : S100000x128.Idx → EReal) (((cfg2.win 0).blk t).view.emb (ix2 p q)) = _
  refine congrArg (V c (Pipeline.arrRef spec2 0) : S100000x128.Idx → EReal) ?_
  funext a
  apply Fin.ext
  match a with
  | ⟨0, _⟩ => show win2_0.index t (0 : Fin 2) * 2000 + 1 * p.val = (k 0).val; rw [e0, hk0]; omega
  | ⟨1, _⟩ => show win2_0.index t (1 : Fin 2) * 128 + 1 * q.val = (k 1).val; rw [e1, hk1]; omega

/-- The block of the mean at every point is the whole row vector. -/
theorem iblk_mean (t : Fin cfg2.N) (q : Fin 128) :
    (iblk2 V c 1 t : Vec Ideal S1x128 .f32) (ix2 (0 : Fin 1) q) = (V c (Pipeline.arrRef spec2 1) : S1x128.Idx → EReal) (ix2 (0 : Fin 1) q) := by
  obtain ⟨-, -, e0, e1, -⟩ := idx_facts t
  unfold iblk2
  show (V c (Pipeline.arrRef spec2 1) : S1x128.Idx → EReal) (((cfg2.win 1).blk t).view.emb (ix2 (0 : Fin 1) q)) = _
  refine congrArg (V c (Pipeline.arrRef spec2 1) : S1x128.Idx → EReal) ?_
  funext a
  apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

/-- The block of the variance at every point is the whole row vector. -/
theorem iblk_var (t : Fin cfg2.N) (q : Fin 128) :
    (iblk2 V c 2 t : Vec Ideal S1x128 .f32) (ix2 (0 : Fin 1) q) = (V c (Pipeline.arrRef spec2 2) : S1x128.Idx → EReal) (ix2 (0 : Fin 1) q) := by
  obtain ⟨-, -, -, -, e0, e1, -⟩ := idx_facts t
  unfold iblk2
  show (V c (Pipeline.arrRef spec2 2) : S1x128.Idx → EReal) (((cfg2.win 2).blk t).view.emb (ix2 (0 : Fin 1) q)) = _
  refine congrArg (V c (Pipeline.arrRef spec2 2) : S1x128.Idx → EReal) ?_
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- The block of the scale at every point is the whole row vector. -/
theorem iblk_gamma (t : Fin cfg2.N) (q : Fin 128) :
    (iblk2 V c 3 t : Vec Ideal S1x128 .f32) (ix2 (0 : Fin 1) q) = (V c (Pipeline.arrRef spec2 3) : S1x128.Idx → EReal) (ix2 (0 : Fin 1) q) := by
  obtain ⟨-, -, -, -, -, -, e0, e1, -⟩ := idx_facts t
  unfold iblk2
  show (V c (Pipeline.arrRef spec2 3) : S1x128.Idx → EReal) (((cfg2.win 3).blk t).view.emb (ix2 (0 : Fin 1) q)) = _
  refine congrArg (V c (Pipeline.arrRef spec2 3) : S1x128.Idx → EReal) ?_
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- The block of the shift at every point is the whole row vector. -/
theorem iblk_beta (t : Fin cfg2.N) (q : Fin 128) :
    (iblk2 V c 4 t : Vec Ideal S1x128 .f32) (ix2 (0 : Fin 1) q) = (V c (Pipeline.arrRef spec2 4) : S1x128.Idx → EReal) (ix2 (0 : Fin 1) q) := by
  obtain ⟨-, -, -, -, -, -, -, -, e0, e1, -⟩ := idx_facts t
  unfold iblk2
  show (V c (Pipeline.arrRef spec2 4) : S1x128.Idx → EReal) (((cfg2.win 4).blk t).view.emb (ix2 (0 : Fin 1) q)) = _
  refine congrArg (V c (Pipeline.arrRef spec2 4) : S1x128.Idx → EReal) ?_
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-- Row `p` of the output block at point `t` sits at row `2000 t + p` of the array, same column. -/
theorem emb_out (t : Fin cfg2.N) (p : Fin 2000) (q : Fin 128) :
    ((((cfg2.win 5).blk t).view.emb (ix2 p q)) 0).val = 2000 * t.val + p.val
      ∧ ((((cfg2.win 5).blk t).view.emb (ix2 p q)) 1).val = q.val := by
  obtain ⟨-, -, -, -, -, -, -, -, -, -, e0, e1⟩ := idx_facts t
  constructor
  · show win2_5.index t (0 : Fin 2) * 2000 + 1 * p.val = _
    rw [e0]; omega
  · show win2_5.index t (1 : Fin 2) * 128 + 1 * q.val = _
    rw [e1]; omega

/-- The body's value at row `p`, column `q` of its block at point `t` is the normalised array at row `2000 t + p`:
    it reads that row of `y` and the four row vectors at column `q`. -/
theorem point_eq (t : Fin cfg2.N) (p : Fin 2000) (q : Fin 128) :
    k2_pay1 (iblk2 V c 0 t) (iblk2 V c 2 t) (iblk2 V c 1 t) (iblk2 V c 3 t) (iblk2 V c 4 t) (ix2 p q)
      = normalized (V c (Pipeline.arrRef spec2 0)) (V c (Pipeline.arrRef spec2 1)) (V c (Pipeline.arrRef spec2 2))
          (V c (Pipeline.arrRef spec2 3)) (V c (Pipeline.arrRef spec2 4)) (((cfg2.win 5).blk t).view.emb (ix2 p q)) := by
  obtain ⟨h0, h1⟩ := emb_out t p q
  refine (pay_apply (iblk2 V c 0 t) (iblk2 V c 2 t) (iblk2 V c 1 t) (iblk2 V c 3 t) (iblk2 V c 4 t) p q).trans ?_
  refine Eq.trans ?_ (normalized_apply (V c (Pipeline.arrRef spec2 0)) (V c (Pipeline.arrRef spec2 1)) (V c (Pipeline.arrRef spec2 2))
    (V c (Pipeline.arrRef spec2 3)) (V c (Pipeline.arrRef spec2 4)) (((cfg2.win 5).blk t).view.emb (ix2 p q)) q h1).symm
  exact formula_congr _ (iblk_y V c t p q (((cfg2.win 5).blk t).view.emb (ix2 p q)) h0 h1) (iblk_mean V c t q) (iblk_var V c t q)
    (iblk_gamma V c t q) (iblk_beta V c t q)

/-- What point `t` writes back is block `t` of the normalised array. -/
theorem flushed_eq (t : Fin cfg2.N) :
    (dat2 (F := Ideal) V c).flushed 5 t = ((cfg2.win 5).blk t).view.read (Elt Ideal)
      (normalized (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  exact point_eq V c t p q

/-- An index of the array is in the output block of point `t` iff each coordinate is in the block's range on its axis. -/
theorem mem_blk (t : Fin cfg2.N) (i : S100000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v56).slice (win2_5.rect t)).set ↔ _
  rw [View.set_slice_whole, Rect.mem_set_unit]
  exact Iff.rfl

/-- Every index of the array is in some point's output block: row `r` is in the block of point `r / 2000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by rw [show cfg2.N = 50 from N_2]; omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 128 ≤ (i 1).val ∧ (i 1).val < win2_5.index t (1 : Fin 2) * 128 + 128
    rw [e1]; omega

/-- After the region the output array holds the normalised array: every point writes back its block of it, and the blocks
    cover the array. -/
theorem array_eq : (dat2 (F := Ideal) V c).arrAt 5 cfg2.N
    = normalized (V c (Pipeline.arrRef spec2 0)) (V c (Pipeline.arrRef spec2 1)) (V c (Pipeline.arrRef spec2 2))
        (V c (Pipeline.arrRef spec2 3)) (V c (Pipeline.arrRef spec2 4)) :=
  (dat2 (F := Ideal) V c).arrAt_eq_of_cover 5
    (normalized (V c (Pipeline.arrRef spec2 0)) (V c (Pipeline.arrRef spec2 1)) (V c (Pipeline.arrRef spec2 2))
      (V c (Pipeline.arrRef spec2 3)) (V c (Pipeline.arrRef spec2 4)))
    (fun t _ => flushed_eq V c t) cover

end Cert.KernelIdeal.NormalizeA

end
-- ==== Proof.NormalizeB.lean ====
/-
The normalisation step of the second layer (region 5 of the program), read as one function of the arrays the region finds.

The body at grid point `t` holds rows `2000 t … 2000 t + 1999` of `y` and the whole of four row vectors
(mean, variance, scale, shift), and stores `(y - mean) * rsqrt (var + eps) * scale + shift`, the row vectors broadcast
over the 2000 rows. The 50 output blocks tile the 100000 rows, so after the region the output array is that formula
index by index (`array_eq`).
-/
import proofs.«153942_j44160853737649_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

open Cert.KernelIdeal Cert.KernelIdeal.Gen Idealize.ShloMosaic Idealize.ShloMosaic.TcCoe Idealize.SL.Sem Idealize.ShloMosaic.ValueIdx
open Idealize.ShloMosaic.Pipeline (Dat)

namespace Cert.KernelIdeal.NormalizeB

variable (V : (c : Dev nD) → (b : Ref sig .tc) → Buf (Elt Ideal) ((c : Thread nD τ).loc b)) (c : Dev nD)

/-- Batch normalisation of the rows of `y` by per-column statistics and an affine map. -/
def normalized (y : FVec Ideal S100000x64 .f32) (mean var gamma beta : FVec Ideal S1x64 .f32) : FVec Ideal S100000x64 .f32 :=
  fun i => (y i - mean (ix2 (0 : Fin 1) (⟨(i 1).val, (i 1).isLt⟩ : Fin 64))) * Ideal.rsqrt (var (ix2 0 ⟨(i 1).val, (i 1).isLt⟩) + Ideal.ofBits .f32 0x3727C5AC#32) * gamma (ix2 0 ⟨(i 1).val, (i 1).isLt⟩) + beta (ix2 0 ⟨(i 1).val, (i 1).isLt⟩)

theorem pay_apply (x0 : Vec Ideal S2000x64 .f32) (xv xm xg xb : Vec Ideal S1x64 .f32) (p : Fin 2000) (q : Fin 64) :
    k5_pay1 x0 xv xm xg xb (ix2 p q)
      = (x0 (ix2 p q) - xm (ix2 (0 : Fin 1) q)) * Ideal.rsqrt (xv (ix2 (0 : Fin 1) q) + Ideal.ofBits .f32 0x3727C5AC#32) * xg (ix2 (0 : Fin 1) q) + xb (ix2 (0 : Fin 1) q) := by
  unfold k5_pay1
  simp only [shapeCast_self]
  show ((x0 (ix2 p q) : EReal) - broadcastTo S2000x64 (xm : FVec Ideal S1x64 .f32) broadcasts_S1x64_S2000x64 (ix2 p q))
      * broadcastTo S2000x64 (rsqrt (addf (xv : FVec Ideal S1x64 .f32) (broadcast S1x64 (Scalar.ofBits (F := Ideal) .f32 0x3727C5AC#32))) : FVec Ideal S1x64 .f32) broadcasts_S1x64_S2000x64 (ix2 p q)
      * broadcastTo S2000x64 (xg : FVec Ideal S1x64 .f32) broadcasts_S1x64_S2000x64 (ix2 p q)
      + broadcastTo S2000x64 (xb : FVec Ideal S1x64 .f32) broadcasts_S1x64_S2000x64 (ix2 p q) = _
  rw [broadcastTo_1b_ab_apply xm, broadcastTo_1b_ab_apply xg, broadcastTo_1b_ab_apply xb, broadcastTo_1b_ab_apply (rsqrt _)]
  rfl

/-- The normalisation formula respects equality of its five scalar arguments. -/
theorem formula_congr {a a' b b' v v' g g' s s' : EReal} (e : EReal) (ha : a = a') (hb : b = b') (hv : v = v') (hg : g = g')
    (hs : s = s') : (a - b) * Ideal.rsqrt (v + e) * g + s = (a' - b') * Ideal.rsqrt (v' + e) * g' + s' := by
  subst ha hb hv hg hs; rfl

theorem hz : (![0, 0] : Fin 2 → Nat) = fun _ => 0 := funext fun a => by fin_cases a <;> rfl

/-- The normalised array at an index whose column is `q`. -/
theorem normalized_apply (y : FVec Ideal S100000x64 .f32) (mean var gamma beta : FVec Ideal S1x64 .f32)
    (k : S100000x64.Idx) (q : Fin 64) (hk : (k 1).val = q.val) :
    normalized y mean var gamma beta k
      = (y k - mean (ix2 (0 : Fin 1) q)) * Ideal.rsqrt (var (ix2 (0 : Fin 1) q) + Ideal.ofBits .f32 0x3727C5AC#32) * gamma (ix2 (0 : Fin 1) q) + beta (ix2 (0 : Fin 1) q) := by
  have e : (⟨(k 1).val, (k 1).isLt⟩ : Fin 64) = q := Fin.ext hk
  unfold normalized
  rw [e]

/-- The block index of every window at every grid point: the two row-tiled windows are at row block `t`, the four
    row vectors stay at their one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row `p` of the block of `y` at point `t` is row `2000 t + p` of the array. -/
theorem iblk_y (t : Fin cfg5.N) (p : Fin 2000) (q : Fin 64) (k : S100000x64.Idx)
    (hk0 : (k 0).val = 2000 * t.val + p.val) (hk1 : (k 1).val = q.val) :
    (iblk5 V c 0 t : Vec Ideal S2000x64 .f32) (ix2 p q) = (V c (Pipeline.arrRef spec5 0) : S100000x64.Idx → EReal) k := by
  obtain ⟨e0, e1, -⟩ := idx_facts t
  unfold iblk5
  show (V c (Pipeline.arrRef spec5 0) : S100000x64.Idx → EReal) (((cfg5.win 0).blk t).view.emb (ix2 p q)) = _
  refine congrArg (V c (Pipeline.arrRef spec5 0) : S100000x64.Idx → EReal) ?_
  funext a
  apply Fin.ext
  match a with
  | ⟨0, _⟩ => show win5_0.index t (0 : Fin 2) * 2000 + 1 * p.val = (k 0).val; rw [e0, hk0]; omega
  | ⟨1, _⟩ => show win5_0.index t (1 : Fin 2) * 64 + 1 * q.val = (k 1).val; rw [e1, hk1]; omega

/-- The block of the mean at every point is the whole row vector. -/
theorem iblk_mean (t : Fin cfg5.N) (q : Fin 64) :
    (iblk5 V c 1 t : Vec Ideal S1x64 .f32) (ix2 (0 : Fin 1) q) = (V c (Pipeline.arrRef spec5 1) : S1x64.Idx → EReal) (ix2 (0 : Fin 1) q) := by
  obtain ⟨-, -, e0, e1, -⟩ := idx_facts t
  unfold iblk5
  show (V c (Pipeline.arrRef spec5 1) : S1x64.Idx → EReal) (((cfg5.win 1).blk t).view.emb (ix2 (0 : Fin 1) q)) = _
  refine congrArg (V c (Pipeline.arrRef spec5 1) : S1x64.Idx → EReal) ?_
  funext a
  apply Fin.ext
  match a with
  | ⟨0, _⟩ => show win5_1.index t (0 : Fin 2) * 1 + 1 * 0 = 0; rw [e0]
  | ⟨1, _⟩ => show win5_1.index t (1 : Fin 2) * 64 + 1 * q.val = q.val; rw [e1]; omega

/-- The block of the variance at every point is the whole row vector. -/
theorem iblk_var (t : Fin cfg5.N) (q : Fin 64) :
    (iblk5 V c 2 t : Vec Ideal S1x64 .f32) (ix2 (0 : Fin 1) q) = (V c (Pipeline.arrRef spec5 2) : S1x64.Idx → EReal) (ix2 (0 : Fin 1) q) := by
  obtain ⟨-, -, -, -, e0, e1, -⟩ := idx_facts t
  unfold iblk5
  show (V c (Pipeline.arrRef spec5 2) : S1x64.Idx → EReal) (((cfg5.win 2).blk t).view.emb (ix2 (0 : Fin 1) q)) = _
  refine congrArg (V c (Pipeline.arrRef spec5 2) : S1x64.Idx → EReal) ?_
  funext a
  apply Fin.ext
  match a with
  | ⟨0, _⟩ => show win5_2.index t (0 : Fin 2) * 1 + 1 * 0 = 0; rw [e0]
  | ⟨1, _⟩ => show win5_2.index t (1 : Fin 2) * 64 + 1 * q.val = q.val; rw [e1]; omega

/-- The block of the scale at every point is the whole row vector. -/
theorem iblk_gamma (t : Fin cfg5.N) (q : Fin 64) :
    (iblk5 V c 3 t : Vec Ideal S1x64 .f32) (ix2 (0 : Fin 1) q) = (V c (Pipeline.arrRef spec5 3) : S1x64.Idx → EReal) (ix2 (0 : Fin 1) q) := by
  obtain ⟨-, -, -, -, -, -, e0, e1, -⟩ := idx_facts t
  unfold iblk5
  show (V c (Pipeline.arrRef spec5 3) : S1x64.Idx → EReal) (((cfg5.win 3).blk t).view.emb (ix2 (0 : Fin 1) q)) = _
  refine congrArg (V c (Pipeline.arrRef spec5 3) : S1x64.Idx → EReal) ?_
  funext a
  apply Fin.ext
  match a with
  | ⟨0, _⟩ => show win5_3.index t (0 : Fin 2) * 1 + 1 * 0 = 0; rw [e0]
  | ⟨1, _⟩ => show win5_3.index t (1 : Fin 2) * 64 + 1 * q.val = q.val; rw [e1]; omega

/-- The block of the shift at every point is the whole row vector. -/
theorem iblk_beta (t : Fin cfg5.N) (q : Fin 64) :
    (iblk5 V c 4 t : Vec Ideal S1x64 .f32) (ix2 (0 : Fin 1) q) = (V c (Pipeline.arrRef spec5 4) : S1x64.Idx → EReal) (ix2 (0 : Fin 1) q) := by
  obtain ⟨-, -, -, -, -, -, -, -, e0, e1, -⟩ := idx_facts t
  unfold iblk5
  show (V c (Pipeline.arrRef spec5 4) : S1x64.Idx → EReal) (((cfg5.win 4).blk t).view.emb (ix2 (0 : Fin 1) q)) = _
  refine congrArg (V c (Pipeline.arrRef spec5 4) : S1x64.Idx → EReal) ?_
  funext a
  apply Fin.ext
  match a with
  | ⟨0, _⟩ => show win5_4.index t (0 : Fin 2) * 1 + 1 * 0 = 0; rw [e0]
  | ⟨1, _⟩ => show win5_4.index t (1 : Fin 2) * 64 + 1 * q.val = q.val; rw [e1]; omega

/-- Row `p` of the output block at point `t` sits at row `2000 t + p` of the array, same column. -/
theorem emb_out (t : Fin cfg5.N) (p : Fin 2000) (q : Fin 64) :
    ((((cfg5.win 5).blk t).view.emb (ix2 p q)) 0).val = 2000 * t.val + p.val
      ∧ ((((cfg5.win 5).blk t).view.emb (ix2 p q)) 1).val = q.val := by
  obtain ⟨-, -, -, -, -, -, -, -, -, -, e0, e1⟩ := idx_facts t
  constructor
  · show win5_5.index t (0 : Fin 2) * 2000 + 1 * p.val = _
    rw [e0]; omega
  · show win5_5.index t (1 : Fin 2) * 64 + 1 * q.val = _
    rw [e1]; omega

/-- The body's value at row `p`, column `q` of its block at point `t` is the normalised array at row `2000 t + p`:
    it reads that row of `y` and the four row vectors at column `q`. -/
theorem point_eq (t : Fin cfg5.N) (p : Fin 2000) (q : Fin 64) :
    k5_pay1 (iblk5 V c 0 t) (iblk5 V c 2 t) (iblk5 V c 1 t) (iblk5 V c 3 t) (iblk5 V c 4 t) (ix2 p q)
      = normalized (V c (Pipeline.arrRef spec5 0)) (V c (Pipeline.arrRef spec5 1)) (V c (Pipeline.arrRef spec5 2))
          (V c (Pipeline.arrRef spec5 3)) (V c (Pipeline.arrRef spec5 4)) (((cfg5.win 5).blk t).view.emb (ix2 p q)) := by
  obtain ⟨h0, h1⟩ := emb_out t p q
  refine (pay_apply (iblk5 V c 0 t) (iblk5 V c 2 t) (iblk5 V c 1 t) (iblk5 V c 3 t) (iblk5 V c 4 t) p q).trans ?_
  refine Eq.trans ?_ (normalized_apply (V c (Pipeline.arrRef spec5 0)) (V c (Pipeline.arrRef spec5 1)) (V c (Pipeline.arrRef spec5 2))
    (V c (Pipeline.arrRef spec5 3)) (V c (Pipeline.arrRef spec5 4)) (((cfg5.win 5).blk t).view.emb (ix2 p q)) q h1).symm
  exact formula_congr _ (iblk_y V c t p q (((cfg5.win 5).blk t).view.emb (ix2 p q)) h0 h1) (iblk_mean V c t q) (iblk_var V c t q)
    (iblk_gamma V c t q) (iblk_beta V c t q)

/-- What point `t` writes back is block `t` of the normalised array. -/
theorem flushed_eq (t : Fin cfg5.N) :
    (dat5 (F := Ideal) V c).flushed 5 t = ((cfg5.win 5).blk t).view.read (Elt Ideal)
      (normalized (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero hz]
  simp only [View.ld_unit_zero (S := S2000x64) hz, View.ld_unit_zero (S := S1x64) hz]
  funext j
  obtain ⟨p, q, rfl⟩ : ∃ (p : Fin 2000) (q : Fin 64), j = ix2 p q := ⟨j 0, j 1, eq_ix2 j⟩
  exact point_eq V c t p q

/-- An index of the array is in the output block of point `t` iff each coordinate is in the block's range on its axis. -/
theorem mem_blk (t : Fin cfg5.N) (i : S100000x64.Idx) :
    i ∈ ((cfg5.win 5).blk t).view.set ↔ ∀ a : Fin 2, win5_5.index t a * S2000x64.size a ≤ (i a).val
      ∧ (i a).val < win5_5.index t a * S2000x64.size a + S2000x64.size a := by
  show i ∈ ((View.whole main_v83).slice (win5_5.rect t)).set ↔ _
  rw [View.set_slice_whole, Rect.mem_set_unit]
  exact Iff.rfl

/-- Every index of the array is in some point's output block: row `r` is in the block of point `r / 2000`. -/
theorem cover (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  obtain ⟨t, ht⟩ : ∃ t : Fin cfg5.N, t.val = (i 0).val / 2000 :=
    ⟨⟨(i 0).val / 2000, by rw [show cfg5.N = 50 from N_5]; omega⟩, rfl⟩
  obtain ⟨-, -, -, -, -, -, -, -, -, -, e0, e1⟩ := idx_facts t
  refine ⟨t, flush5_5 t, ?_⟩
  rw [mem_blk]
  intro a
  match a with
  | ⟨0, _⟩ =>
    show win5_5.index t (0 : Fin 2) * 2000 ≤ (i 0).val ∧ (i 0).val < win5_5.index t (0 : Fin 2) * 2000 + 2000
    rw [e0, ht]; omega
  | ⟨1, _⟩ =>
    show win5_5.index t (1 : Fin 2) * 64 ≤ (i 1).val ∧ (i 1).val < win5_5.index t (1 : Fin 2) * 64 + 64
    rw [e1]; omega

/-- After the region the output array holds the normalised array: every point writes back its block of it, and the blocks
    cover the array. -/
theorem array_eq : (dat5 (F := Ideal) V c).arrAt 5 cfg5.N
    = normalized (V c (Pipeline.arrRef spec5 0)) (V c (Pipeline.arrRef spec5 1)) (V c (Pipeline.arrRef spec5 2))
        (V c (Pipeline.arrRef spec5 3)) (V c (Pipeline.arrRef spec5 4)) :=
  (dat5 (F := Ideal) V c).arrAt_eq_of_cover 5
    (normalized (V c (Pipeline.arrRef spec5 0)) (V c (Pipeline.arrRef spec5 1)) (V c (Pipeline.arrRef spec5 2))
      (V c (Pipeline.arrRef spec5 3)) (V c (Pipeline.arrRef spec5 4)))
    (fun t _ => flushed_eq V c t) cover

end Cert.KernelIdeal.NormalizeB

end
-- ==== Proof.Chain.lean ====
/-
  The idealized kernel's result array, followed back through the program.

  The program alternates host stretches and pipelined regions.  Going through it once from the
  start, each buffer the computation produces is identified with the reference's stage of the same
  meaning, as a function of the argument arrays: the index vectors and the edge weights of the
  prelude; each layer's matrix product, its gather–scale–scatter aggregate, its biased activation;
  and, for the first two layers, the batch-normalised activations — where the kernel's
  "mean of squares minus squared mean" meets the reference's "mean squared deviation", which needs
  the activations to be real numbers, hence the float arguments to be.
-/
import proofs.«153942_j44160853737649_1_alg».proof.Proof.Gen.KernelIdeal.Frame
import proofs.«153942_j44160853737649_1_alg».proof.Proof.Kept
import proofs.«153942_j44160853737649_1_alg».proof.Proof.RefRead
import proofs.«153942_j44160853737649_1_alg».proof.Proof.Spec
import proofs.«153942_j44160853737649_1_alg».proof.Proof.Bridge
import proofs.«153942_j44160853737649_1_alg».proof.Proof.BridgeBN
import proofs.«153942_j44160853737649_1_alg».proof.Proof.MatmulA
import proofs.«153942_j44160853737649_1_alg».proof.Proof.MatmulB
import proofs.«153942_j44160853737649_1_alg».proof.Proof.MatmulC
import proofs.«153942_j44160853737649_1_alg».proof.Proof.StatsA
import proofs.«153942_j44160853737649_1_alg».proof.Proof.StatsB
import proofs.«153942_j44160853737649_1_alg».proof.Proof.StatsC
import proofs.«153942_j44160853737649_1_alg».proof.Proof.NormalizeA
import proofs.«153942_j44160853737649_1_alg».proof.Proof.NormalizeB

set_option quotPrecheck false
set_option maxRecDepth 16384

noncomputable section

namespace Cert.KernelIdeal.Chain

open Cert.KernelIdeal Cert.KernelIdeal.Gen Cert.KernelIdeal.Kept
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "x0" => m ((c : Thread nD τ).loc main_arg0)
local notation "x1" => m ((c : Thread nD τ).loc main_arg1)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)

/-! ## The prelude: source indices, destination indices, edge weights -/

set_option maxHeartbeats 4000000 in
theorem e3 : W3 m ρ c (Proc.devRef .tc main_v3) = Cert.ReferenceIdeal.Read.val_main_v3 (F := Ideal) x1 := by
  show StableHlo.after hostOps0_2 (StableHlo.after hostOps0_1 (StableHlo.after hostOps0 (W0 m ρ c))) (Proc.devRef .tc main_v3) = _
  after_results_simp
  rfl

set_option maxHeartbeats 4000000 in
theorem e6 : W3 m ρ c (Proc.devRef .tc main_v6) = Cert.ReferenceIdeal.Read.val_main_v6 (F := Ideal) x1 := by
  show StableHlo.after hostOps0_2 (StableHlo.after hostOps0_1 (StableHlo.after hostOps0 (W0 m ρ c))) (Proc.devRef .tc main_v6) = _
  after_results_simp
  rfl

/-- Contents moved to a typed reference's buffer and back are the contents. -/
theorem ofBuf_toBuf {T : BufTy} (x : TRef sig T) (v : T.Contents (Elt Ideal)) : x.ofBuf (x.toBuf v) = v := by
  unfold TRef.ofBuf TRef.toBuf
  rw [cast_cast, cast_eq]

set_option maxHeartbeats 4000000 in
/-- The edge weights: the product of the reciprocal square roots of the degrees at an edge's two ends (zero where a degree
    is not positive).  The degree-to-weight step is a called function whose operations move values between buffers
    of equal type; those moves are identities. -/
theorem e29 : W3 m ρ c (Proc.devRef .tc main_v29) = Cert.ReferenceIdeal.Read.val_main_v29 (F := Ideal) x1 := by
  have h3 : W3 m ρ c = StableHlo.after hostOps0_2 (W2 m ρ c) := rfl
  have h2 : W2 m ρ c = StableHlo.after hostOps0_1 (W1 m ρ c) := rfl
  have h1 : W1 m ρ c = StableHlo.after hostOps0 (W0 m ρ c) := rfl
  rw [h3, h2, h1]
  after_results_simp
  simp only [ofBuf_toBuf]
  simp only [TRef.toBuf, TRef.ofBuf]
  repeat rw [cast_eq]
  rfl

/-! ## Layer 1 -/

/-- The matrix product of layer 1: the region's row-tiled product is the reference's contraction of the same arrays. -/
theorem l1_mm : W4 m ρ c (Proc.devRef .tc main_v30) = Cert.ReferenceIdeal.Read.val_main_v30 (F := Ideal) x0 x3 :=
  (W4_arr m ρ c 2).trans ((Cert.KernelIdeal.MatmulA.array_eq (V3 m ρ) c).trans
    ((congrArg₂ Cert.KernelIdeal.MatmulA.rowsTimes (kept_arg0_0_3 m ρ c) (kept_arg3_0_3 m ρ c)).trans
      (Cert.Bridge.rowsTimesA_eq x0 x3)))

set_option maxHeartbeats 4000000 in
/-- The aggregate of layer 1: the product's rows gathered at the source indices, scaled by the edge weights and
    scatter-added at the destination indices — the same host operations in both programs, on equal operands. -/
theorem l1_agg : W5 m ρ c (Proc.devRef .tc main_v43) = Cert.ReferenceIdeal.Read.val_main_v43 (F := Ideal) x0 x1 x3 := by
  show StableHlo.after hostOps1 (W4 m ρ c) (Proc.devRef .tc main_v43) = _
  after_results_simp
  rw [kept_v6_3_4, e6, kept_v3_3_4, e3, kept_v29_3_4, e29, l1_mm m ρ c]
  rfl

/-- The bias of layer 1, staged as one row. -/
theorem l1_bias : W5 m ρ c (Proc.devRef .tc main_v44) = shapeCast S1x128 x4 shapeCasts_S128_S1x128 := by
  show StableHlo.after hostOps1 (W4 m ρ c) (Proc.devRef .tc main_v44) = _
  after_results_simp
  rw [kept_arg4_0_4]
  rfl

/-- The activation of layer 1. -/
theorem l1_act : W6 m ρ c (Proc.devRef .tc main_v45_0) = Cert.ReferenceIdeal.Read.val_main_v51 (F := Ideal) x0 x1 x3 x4 :=
  (W6_arr m ρ c 2).trans ((Cert.KernelIdeal.StatsA.y_array_eq (V5 m ρ) c).trans
    ((congrArg₂ Cert.KernelIdeal.StatsA.activated (l1_agg m ρ c) (l1_bias m ρ c)).trans
      (Cert.Bridge.actA_eq (Cert.ReferenceIdeal.Read.val_main_v43 (F := Ideal) x0 x1 x3) x4 shapeCasts_S128_S1x128)))

/-- The running column sums of layer 1: Σy in row 0, Σy² in row 1. -/
theorem l1_sums : W6 m ρ c (Proc.devRef .tc main_v45_1) = Cert.KernelIdeal.StatsA.columnSums (Cert.ReferenceIdeal.Read.val_main_v51 (F := Ideal) x0 x1 x3 x4) :=
  (W6_arr m ρ c 3).trans ((Cert.KernelIdeal.StatsA.stats_array_eq (V5 m ρ) c).trans
    (congrArg Cert.KernelIdeal.StatsA.columnSums
      ((congrArg₂ Cert.KernelIdeal.StatsA.activated (l1_agg m ρ c) (l1_bias m ρ c)).trans
        (Cert.Bridge.actA_eq (Cert.ReferenceIdeal.Read.val_main_v43 (F := Ideal) x0 x1 x3) x4 shapeCasts_S128_S1x128))))

/-- The kernel's column mean of layer 1: Σy / 100000. -/
theorem l1_mean : W7 m ρ c (Proc.devRef .tc main_v48) = (Host.divf (extractStridedSlice S1x128 ![0, 0] (Cert.KernelIdeal.StatsA.columnSums (Cert.ReferenceIdeal.Read.val_main_v51 (F := Ideal) x0 x1 x3 x4)) slices_S2x128_S1x128_0_0) (broadcastInDim S1x128 ![] bcast_S_S1x128 (constant S_ .f32 0x47C35000#32))) := by
  show StableHlo.after hostOps2 (W6 m ρ c) (Proc.devRef .tc main_v48) = _
  after_results_simp
  rw [l1_sums m ρ c]

/-- The kernel's column variance of layer 1: Σy² / 100000 minus the squared mean. -/
theorem l1_var : W7 m ρ c (Proc.devRef .tc main_v53) = (subf (Host.divf (extractStridedSlice S1x128 ![1, 0] (Cert.KernelIdeal.StatsA.columnSums (Cert.ReferenceIdeal.Read.val_main_v51 (F := Ideal) x0 x1 x3 x4)) slices_S2x128_S1x128_1_0) (broadcastInDim S1x128 ![] bcast_S_S1x128 (constant S_ .f32 0x47C35000#32))) (mulf (Host.divf (extractStridedSlice S1x128 ![0, 0] (Cert.KernelIdeal.StatsA.columnSums (Cert.ReferenceIdeal.Read.val_main_v51 (F := Ideal) x0 x1 x3 x4)) slices_S2x128_S1x128_0_0) (broadcastInDim S1x128 ![] bcast_S_S1x128 (constant S_ .f32 0x47C35000#32))) (Host.divf (extractStridedSlice S1x128 ![0, 0] (Cert.KernelIdeal.StatsA.columnSums (Cert.ReferenceIdeal.Read.val_main_v51 (F := Ideal) x0 x1 x3 x4)) slices_S2x128_S1x128_0_0) (broadcastInDim S1x128 ![] bcast_S_S1x128 (constant S_ .f32 0x47C35000#32))))) := by
  show StableHlo.after hostOps2 (W6 m ρ c) (Proc.devRef .tc main_v53) = _
  after_results_simp
  rw [l1_sums m ρ c]

/-- The scale of layer 1's normalisation, staged as one row. -/
theorem l1_gamma : W7 m ρ c (Proc.devRef .tc main_v54) = shapeCast S1x128 x9 shapeCasts_S128_S1x128 := by
  show StableHlo.after hostOps2 (W6 m ρ c) (Proc.devRef .tc main_v54) = _
  after_results_simp
  rw [kept_arg9_0_6]
  rfl

/-- The shift of layer 1's normalisation, staged as one row. -/
theorem l1_beta : W7 m ρ c (Proc.devRef .tc main_v55) = shapeCast S1x128 x10 shapeCasts_S128_S1x128 := by
  show StableHlo.after hostOps2 (W6 m ρ c) (Proc.devRef .tc main_v55) = _
  after_results_simp
  rw [kept_arg10_0_6]
  rfl

/-- The normalised activations of layer 1: where the kernel's variance meets the reference's, for real activations. -/
theorem l1_out (hy1 : ∀ i, Cert.Bridge.IsReal (Cert.ReferenceIdeal.Read.val_main_v51 (F := Ideal) x0 x1 x3 x4 i)) : W8 m ρ c (Proc.devRef .tc main_v56) = Cert.ReferenceIdeal.Read.val_main_v76 (F := Ideal) x0 x1 x3 x4 x9 x10 :=
  (W8_arr m ρ c 5).trans ((Cert.KernelIdeal.NormalizeA.array_eq (V7 m ρ) c).trans
    ((congr (congr (congr (congr (congrArg Cert.KernelIdeal.NormalizeA.normalized ((kept_v45_0_6_7 m ρ c).trans (l1_act m ρ c)))
        (l1_mean m ρ c)) (l1_var m ρ c)) (l1_gamma m ρ c)) (l1_beta m ρ c)).trans
      ((Cert.Bridge.bnA_eq (Cert.ReferenceIdeal.Read.val_main_v51 (F := Ideal) x0 x1 x3 x4) hy1 x9 x10 shapeCasts_S128_S1x128 slices_S2x128_S1x128_0_0 slices_S2x128_S1x128_1_0 bcast_S_S1x128).trans
        (Cert.Bridge.refBNA_stage x0 x1 x3 x4 x9 x10))))

/-! ## Layer 2 -/

/-- The matrix product of layer 2: the region's row-tiled product is the reference's contraction of the same arrays. -/
theorem l2_mm (hy1 : ∀ i, Cert.Bridge.IsReal (Cert.ReferenceIdeal.Read.val_main_v51 (F := Ideal) x0 x1 x3 x4 i)) : W9 m ρ c (Proc.devRef .tc main_v57) = Cert.ReferenceIdeal.Read.val_main_v77 (F := Ideal) x0 x1 x3 x4 x5 x9 x10 :=
  (W9_arr m ρ c 2).trans ((Cert.KernelIdeal.MatmulB.array_eq (V8 m ρ) c).trans
    ((congrArg₂ Cert.KernelIdeal.MatmulB.rowsTimes (l1_out m ρ c hy1) (kept_arg5_0_8 m ρ c)).trans
      (Cert.Bridge.rowsTimesB_eq (Cert.ReferenceIdeal.Read.val_main_v76 (F := Ideal) x0 x1 x3 x4 x9 x10) x5)))

set_option maxHeartbeats 4000000 in
/-- The aggregate of layer 2: the product's rows gathered at the source indices, scaled by the edge weights and
    scatter-added at the destination indices — the same host operations in both programs, on equal operands. -/
theorem l2_agg (hy1 : ∀ i, Cert.Bridge.IsReal (Cert.ReferenceIdeal.Read.val_main_v51 (F := Ideal) x0 x1 x3 x4 i)) : W10 m ρ c (Proc.devRef .tc main_v70) = Cert.ReferenceIdeal.Read.val_main_v90 (F := Ideal) x0 x1 x3 x4 x5 x9 x10 := by
  show StableHlo.after hostOps4 (W9 m ρ c) (Proc.devRef .tc main_v70) = _
  after_results_simp
  rw [kept_v6_3_9, e6, kept_v3_3_9, e3, kept_v29_3_9, e29, l2_mm m ρ c hy1]
  rfl

/-- The bias of layer 2, staged as one row. -/
theorem l2_bias : W10 m ρ c (Proc.devRef .tc main_v71) = shapeCast S1x64 x6 shapeCasts_S64_S1x64 := by
  show StableHlo.after hostOps4 (W9 m ρ c) (Proc.devRef .tc main_v71) = _
  after_results_simp
  rw [kept_arg6_0_9]
  rfl

/-- The activation of layer 2. -/
theorem l2_act (hy1 : ∀ i, Cert.Bridge.IsReal (Cert.ReferenceIdeal.Read.val_main_v51 (F := Ideal) x0 x1 x3 x4 i)) : W11 m ρ c (Proc.devRef .tc main_v72_0) = Cert.ReferenceIdeal.Read.val_main_v98 (F := Ideal) x0 x1 x3 x4 x5 x6 x9 x10 :=
  (W11_arr m ρ c 2).trans ((Cert.KernelIdeal.StatsB.y_array_eq (V10 m ρ) c).trans
    ((congrArg₂ Cert.KernelIdeal.StatsB.activated (l2_agg m ρ c hy1) (l2_bias m ρ c)).trans
      (Cert.Bridge.actB_eq (Cert.ReferenceIdeal.Read.val_main_v90 (F := Ideal) x0 x1 x3 x4 x5 x9 x10) x6 shapeCasts_S64_S1x64)))

/-- The running column sums of layer 2: Σy in row 0, Σy² in row 1. -/
theorem l2_sums (hy1 : ∀ i, Cert.Bridge.IsReal (Cert.ReferenceIdeal.Read.val_main_v51 (F := Ideal) x0 x1 x3 x4 i)) : W11 m ρ c (Proc.devRef .tc main_v72_1) = Cert.KernelIdeal.StatsB.columnSums (Cert.ReferenceIdeal.Read.val_main_v98 (F := Ideal) x0 x1 x3 x4 x5 x6 x9 x10) :=
  (W11_arr m ρ c 3).trans ((Cert.KernelIdeal.StatsB.stats_array_eq (V10 m ρ) c).trans
    (congrArg Cert.KernelIdeal.StatsB.columnSums
      ((congrArg₂ Cert.KernelIdeal.StatsB.activated (l2_agg m ρ c hy1) (l2_bias m ρ c)).trans
        (Cert.Bridge.actB_eq (Cert.ReferenceIdeal.Read.val_main_v90 (F := Ideal) x0 x1 x3 x4 x5 x9 x10) x6 shapeCasts_S64_S1x64))))

/-- The kernel's column mean of layer 2: Σy / 100000. -/
theorem l2_mean (hy1 : ∀ i, Cert.Bridge.IsReal (Cert.ReferenceIdeal.Read.val_main_v51 (F := Ideal) x0 x1 x3 x4 i)) : W12 m ρ c (Proc.devRef .tc main_v75) = (Host.divf (extractStridedSlice S1x64 ![0, 0] (Cert.KernelIdeal.StatsB.columnSums (Cert.ReferenceIdeal.Read.val_main_v98 (F := Ideal) x0 x1 x3 x4 x5 x6 x9 x10)) slices_S2x64_S1x64_0_0) (broadcastInDim S1x64 ![] bcast_S_S1x64 (constant S_ .f32 0x47C35000#32))) := by
  show StableHlo.after hostOps5 (W11 m ρ c) (Proc.devRef .tc main_v75) = _
  after_results_simp
  rw [l2_sums m ρ c hy1]

/-- The kernel's column variance of layer 2: Σy² / 100000 minus the squared mean. -/
theorem l2_var (hy1 : ∀ i, Cert.Bridge.IsReal (Cert.ReferenceIdeal.Read.val_main_v51 (F := Ideal) x0 x1 x3 x4 i)) : W12 m ρ c (Proc.devRef .tc main_v80) = (subf (Host.divf (extractStridedSlice S1x64 ![1, 0] (Cert.KernelIdeal.StatsB.columnSums (Cert.ReferenceIdeal.Read.val_main_v98 (F := Ideal) x0 x1 x3 x4 x5 x6 x9 x10)) slices_S2x64_S1x64_1_0) (broadcastInDim S1x64 ![] bcast_S_S1x64 (constant S_ .f32 0x47C35000#32))) (mulf (Host.divf (extractStridedSlice S1x64 ![0, 0] (Cert.KernelIdeal.StatsB.columnSums (Cert.ReferenceIdeal.Read.val_main_v98 (F := Ideal) x0 x1 x3 x4 x5 x6 x9 x10)) slices_S2x64_S1x64_0_0) (broadcastInDim S1x64 ![] bcast_S_S1x64 (constant S_ .f32 0x47C35000#32))) (Host.divf (extractStridedSlice S1x64 ![0, 0] (Cert.KernelIdeal.StatsB.columnSums (Cert.ReferenceIdeal.Read.val_main_v98 (F := Ideal) x0 x1 x3 x4 x5 x6 x9 x10)) slices_S2x64_S1x64_0_0) (broadcastInDim S1x64 ![] bcast_S_S1x64 (constant S_ .f32 0x47C35000#32))))) := by
  show StableHlo.after hostOps5 (W11 m ρ c) (Proc.devRef .tc main_v80) = _
  after_results_simp
  rw [l2_sums m ρ c hy1]

/-- The scale of layer 2's normalisation, staged as one row. -/
theorem l2_gamma : W12 m ρ c (Proc.devRef .tc main_v81) = shapeCast S1x64 x11 shapeCasts_S64_S1x64 := by
  show StableHlo.after hostOps5 (W11 m ρ c) (Proc.devRef .tc main_v81) = _
  after_results_simp
  rw [kept_arg11_0_11]
  rfl

/-- The shift of layer 2's normalisation, staged as one row. -/
theorem l2_beta : W12 m ρ c (Proc.devRef .tc main_v82) = shapeCast S1x64 x12 shapeCasts_S64_S1x64 := by
  show StableHlo.after hostOps5 (W11 m ρ c) (Proc.devRef .tc main_v82) = _
  after_results_simp
  rw [kept_arg12_0_11]
  rfl

/-- The normalised activations of layer 2: where the kernel's variance meets the reference's, for real activations. -/
theorem l2_out (hy1 : ∀ i, Cert.Bridge.IsReal (Cert.ReferenceIdeal.Read.val_main_v51 (F := Ideal) x0 x1 x3 x4 i)) (hy2 : ∀ i, Cert.Bridge.IsReal (Cert.ReferenceIdeal.Read.val_main_v98 (F := Ideal) x0 x1 x3 x4 x5 x6 x9 x10 i)) : W13 m ρ c (Proc.devRef .tc main_v83) = Cert.ReferenceIdeal.Read.val_main_v123 (F := Ideal) x0 x1 x3 x4 x5 x6 x9 x10 x11 x12 :=
  (W13_arr m ρ c 5).trans ((Cert.KernelIdeal.NormalizeB.array_eq (V12 m ρ) c).trans
    ((congr (congr (congr (congr (congrArg Cert.KernelIdeal.NormalizeB.normalized ((kept_v72_0_11_12 m ρ c).trans (l2_act m ρ c hy1)))
        (l2_mean m ρ c hy1)) (l2_var m ρ c hy1)) (l2_gamma m ρ c)) (l2_beta m ρ c)).trans
      ((Cert.Bridge.bnB_eq (Cert.ReferenceIdeal.Read.val_main_v98 (F := Ideal) x0 x1 x3 x4 x5 x6 x9 x10) hy2 x11 x12 shapeCasts_S64_S1x64 slices_S2x64_S1x64_0_0 slices_S2x64_S1x64_1_0 bcast_S_S1x64).trans
        (Cert.Bridge.refBNB_stage x0 x1 x3 x4 x5 x6 x9 x10 x11 x12))))

/-! ## Layer 3 -/

/-- The matrix product of layer 3: the region's row-tiled product is the reference's contraction of the same arrays. -/
theorem l3_mm (hy1 : ∀ i, Cert.Bridge.IsReal (Cert.ReferenceIdeal.Read.val_main_v51 (F := Ideal) x0 x1 x3 x4 i)) (hy2 : ∀ i, Cert.Bridge.IsReal (Cert.ReferenceIdeal.Read.val_main_v98 (F := Ideal) x0 x1 x3 x4 x5 x6 x9 x10 i)) : W14 m ρ c (Proc.devRef .tc main_v84) = Cert.ReferenceIdeal.Read.val_main_v124 (F := Ideal) x0 x1 x3 x4 x5 x6 x7 x9 x10 x11 x12 :=
  (W14_arr m ρ c 2).trans ((Cert.KernelIdeal.MatmulC.array_eq (V13 m ρ) c).trans
    ((congrArg₂ Cert.KernelIdeal.MatmulC.rowsTimes (l2_out m ρ c hy1 hy2) (kept_arg7_0_13 m ρ c)).trans
      (Cert.Bridge.rowsTimesC_eq (Cert.ReferenceIdeal.Read.val_main_v123 (F := Ideal) x0 x1 x3 x4 x5 x6 x9 x10 x11 x12) x7)))

set_option maxHeartbeats 4000000 in
/-- The aggregate of layer 3: the product's rows gathered at the source indices, scaled by the edge weights and
    scatter-added at the destination indices — the same host operations in both programs, on equal operands. -/
theorem l3_agg (hy1 : ∀ i, Cert.Bridge.IsReal (Cert.ReferenceIdeal.Read.val_main_v51 (F := Ideal) x0 x1 x3 x4 i)) (hy2 : ∀ i, Cert.Bridge.IsReal (Cert.ReferenceIdeal.Read.val_main_v98 (F := Ideal) x0 x1 x3 x4 x5 x6 x9 x10 i)) : W15 m ρ c (Proc.devRef .tc main_v97) = Cert.ReferenceIdeal.Read.val_main_v137 (F := Ideal) x0 x1 x3 x4 x5 x6 x7 x9 x10 x11 x12 := by
  show StableHlo.after hostOps7 (W14 m ρ c) (Proc.devRef .tc main_v97) = _
  after_results_simp
  rw [kept_v6_3_14, e6, kept_v3_3_14, e3, kept_v29_3_14, e29, l3_mm m ρ c hy1 hy2]
  rfl

/-- The bias of layer 3, staged as one row. -/
theorem l3_bias : W15 m ρ c (Proc.devRef .tc main_v98) = shapeCast S1x8 x8 shapeCasts_S8_S1x8 := by
  show StableHlo.after hostOps7 (W14 m ρ c) (Proc.devRef .tc main_v98) = _
  after_results_simp
  rw [kept_arg8_0_14]
  rfl

/-- The activation of layer 3. -/
theorem l3_act (hy1 : ∀ i, Cert.Bridge.IsReal (Cert.ReferenceIdeal.Read.val_main_v51 (F := Ideal) x0 x1 x3 x4 i)) (hy2 : ∀ i, Cert.Bridge.IsReal (Cert.ReferenceIdeal.Read.val_main_v98 (F := Ideal) x0 x1 x3 x4 x5 x6 x9 x10 i)) : W16 m ρ c (Proc.devRef .tc main_v99_0) = Cert.ReferenceIdeal.Read.val_main_v145 (F := Ideal) x0 x1 x3 x4 x5 x6 x7 x8 x9 x10 x11 x12 :=
  (W16_arr m ρ c 2).trans ((Cert.KernelIdeal.StatsC.y_array_eq (V15 m ρ) c).trans
    ((congrArg₂ Cert.KernelIdeal.StatsC.activated (l3_agg m ρ c hy1 hy2) (l3_bias m ρ c)).trans
      (Cert.Bridge.actC_eq (Cert.ReferenceIdeal.Read.val_main_v137 (F := Ideal) x0 x1 x3 x4 x5 x6 x7 x9 x10 x11 x12) x8 shapeCasts_S8_S1x8)))

end Cert.KernelIdeal.Chain

end
-- ==== Proof.Finite.lean ====
/-
  Every intermediate of the reference is a real number when the float inputs are.

  The batch-normalisation bridge needs each activation column to consist of real numbers (no ±∞).
  This module follows the reference stage by stage: sums and products of reals are real; a gather
  reads entries of its operand; a scatter-add adds finitely many update entries to an operand entry;
  the degree vector is a sum of ones, so where it is positive its reciprocal square root is real;
  a variance is a nonnegative real, so with the positive ε added its reciprocal square root is real.
-/
import proofs.«153942_j44160853737649_1_alg».proof.Proof.RefRead
import proofs.«153942_j44160853737649_1_alg».proof.Proof.Algebra
import Idealize.ShloMosaic.PureOps.Ideal.Laws

noncomputable section

namespace Cert.Bridge

open Cert.ReferenceIdeal Cert.ReferenceIdeal.Read Idealize.ShloMosaic

/-- Every entry of a float vector is a real number. -/
def AllReal {s : Shape} (f : FVec Ideal s .f32) : Prop := ∀ i, IsReal (f i)

section closure
variable {s t : Shape}

theorem allReal_addf {x y : FVec Ideal s .f32} (hx : AllReal x) (hy : AllReal y) : AllReal (addf x y) :=
  fun i => (hx i).add (hy i)
theorem allReal_subf {x y : FVec Ideal s .f32} (hx : AllReal x) (hy : AllReal y) : AllReal (subf x y) :=
  fun i => (hx i).sub (hy i)
theorem allReal_mulf {x y : FVec Ideal s .f32} (hx : AllReal x) (hy : AllReal y) : AllReal (mulf x y) :=
  fun i => (hx i).mul (hy i)
theorem allReal_select (m : IVec s 1) {x y : FVec Ideal s .f32} (hx : AllReal x) (hy : AllReal y) :
    AllReal (select m x y) := fun i => by
  show IsReal (if m i = 1 then x i else y i)
  split
  · exact hx i
  · exact hy i
theorem allReal_bcast (dims : Fin s.rank → Fin t.rank) (h : s.BroadcastsInDim t dims) {x : FVec Ideal s .f32}
    (hx : AllReal x) : AllReal (broadcastInDim t dims h x) := fun j => hx _
theorem allReal_const (b : BitVec 32) (hb : IsReal (Ideal.ofBits .f32 b)) : AllReal (constant (F := Ideal) s .f32 b) :=
  fun _ => hb
theorem allReal_gather {si : Shape} {w : Nat} (d : GatherDims s si t) {x : FVec Ideal s .f32} (idx : IVec si w)
    (hx : AllReal x) : AllReal (Host.gather d x idx) := fun j => hx _
theorem allReal_scatterAdd {si u : Shape} {w : Nat} (d : ScatterDims s si u) {x : FVec Ideal s .f32} (idx : IVec si w)
    {upd : FVec Ideal u .f32} (hx : AllReal x) (hu : AllReal upd) : AllReal (Host.scatterAdd d x idx upd) := fun i =>
  (hx i).add (IsReal.sum _ _ fun j _ => hu j)
theorem allReal_dot {sl sr so : Shape} (d : DotDims sl sr so) {x : FVec Ideal sl .f32} {w : FVec Ideal sr .f32}
    (hx : AllReal x) (hw : AllReal w) : AllReal (Host.dotGeneral d none x w) := fun j => by
  show IsReal (FloatOps.dotGeneral d none .single x w j)
  rw [Ideal.dotGeneral_apply]
  exact IsReal.sum _ _ fun k _ => (hx _).mul (hw _)
theorem allReal_reduceAdd {axes : List (Fin s.rank)} {u : Shape} {x : FVec Ideal s .f32} (init : FVec Ideal u .f32)
    (h : s.ReducesTo axes t) (hu : 0 < u.numel) (hx : AllReal x) (hi : AllReal init) :
    AllReal (Host.reduceAdd x init h hu) := fun j =>
  (hi _).add (IsReal.sum _ _ fun i _ => hx i)
/-- Division of a real vector by the splat of the row count. -/
theorem allReal_divRows {x n : FVec Ideal s .f32} (hx : AllReal x) (hn : ∀ i, n i = ((100000 : ℝ) : EReal)) :
    AllReal (Host.divf x n) := fun i => by
  show IsReal (Ideal.div (x i) (n i))
  rw [hn i]; exact (hx i).div_coe (by norm_num)

end closure

end Cert.Bridge

end
-- ==== Proof.FiniteStages.lean ====
/- Every intermediate of the reference's first two layers is a real number when the float inputs are: followed stage by
   stage. Sums, differences and products of reals are real; a gather reads entries of its operand; a scatter-add adds
   finitely many update entries to an operand entry; the degree is a sum of ones, and where it is positive its reciprocal
   square root is real; a variance is a nonnegative real, so with the positive ε added its reciprocal square root is real. -/
import proofs.«153942_j44160853737649_1_alg».proof.Proof.RefRead
import proofs.«153942_j44160853737649_1_alg».proof.Proof.Algebra
import proofs.«153942_j44160853737649_1_alg».proof.Proof.Finite
import Idealize.ShloMosaic.PureOps.Ideal.Laws

noncomputable section

namespace Cert.Bridge

open Cert.ReferenceIdeal Cert.ReferenceIdeal.Gen Cert.ReferenceIdeal.Read Idealize.ShloMosaic

/-! ## The literals as splats, and three facts about single entries -/

/-- The zero word is a real number, -/
theorem isReal_zeroWord : IsReal (Ideal.ofBits .f32 0x00000000#32) := by rw [ofBits_zero]; exact IsReal.zero
/-- and so is the word of 1.0. -/
theorem isReal_oneWord : IsReal (Ideal.ofBits .f32 0x3F800000#32) := ⟨1, ofBits_one⟩

/-- A choice between two entries is real when the first is real wherever it is the one chosen and the second is real. -/
theorem isReal_select_of {s : Shape} (m : IVec s 1) (x y : FVec Ideal s .f32) (i : s.Idx)
    (hx : m i = 1 → IsReal (x i)) (hy : IsReal (y i)) : IsReal (select m x y i) := by
  show IsReal (if m i = 1 then x i else y i)
  split
  · rename_i h; exact hx h
  · exact hy

/-- Where the comparison "a above b" answers 1, with a's entry the real r and b's entry zero, r is positive. -/
theorem pos_of_ogt {s : Shape} (a b : FVec Ideal s .f32) (i : s.Idx) (r : ℝ) (ha : a i = (r : EReal)) (hb : b i = 0)
    (h : cmpf .ogt a b i = 1) : 0 < r := by
  have h' : Ideal.cmp .ogt (a i) (b i) = 1#1 := h
  rw [ha, hb] at h'
  have key : ∀ b : Bool, BitVec.ofBool b = 1#1 → b = true := by decide
  have h2 : decide ((0 : EReal) < (r : EReal)) = true := key _ h'
  have hpos : (0 : EReal) < (r : EReal) := of_decide_eq_true h2
  exact_mod_cast hpos

/-- The reciprocal square root of an entry that is a positive real is real. -/
theorem isReal_rsqrt_of_pos {s : Shape} (a : FVec Ideal s .f32) (i : s.Idx) (r : ℝ) (ha : a i = (r : EReal)) (hr : 0 < r) :
    IsReal (Host.rsqrt a i) := by
  show IsReal (Ideal.rsqrt (a i))
  rw [ha]
  exact IsReal.rsqrt_pos hr

/-! ## The degree and its reciprocal square root -/

/-- The ones the degree adds up, -/
theorem real_v7 : AllReal (val_main_v7 (F := Ideal)) := by
  unfold val_main_v7 val_main_cst
  exact allReal_bcast _ _ (allReal_const _ isReal_oneWord)
/-- the zeros it adds them onto, -/
theorem real_v8 : AllReal (val_main_v8 (F := Ideal)) := by
  unfold val_main_v8 val_main_cst_0
  exact allReal_bcast _ _ (allReal_const _ isReal_zeroWord)
/-- and the degree itself: a finite sum of ones at each node. -/
theorem real_v10 (x1 : (⟨S2x1600000, .i32⟩ : BufTy).Contents (Elt Ideal)) : AllReal (val_main_v10 (F := Ideal) x1) := by
  unfold val_main_v10
  exact allReal_scatterAdd _ _ real_v8 real_v7

/-- The zero the degree is compared with. -/
theorem v11_zero (i : S100000.Idx) : val_main_v11 (F := Ideal) i = 0 := by
  rw [val_main_v11_apply, val_main_cst_1_apply]
  exact ofBits_zero

/-- The normalising factor: where the degree is above zero it is a positive real, whose reciprocal square root is real;
    elsewhere the factor is the zero word. -/
theorem real_v14 (x1 : (⟨S2x1600000, .i32⟩ : BufTy).Contents (Elt Ideal)) : AllReal (val_main_v14 (F := Ideal) x1) := fun i => by
  unfold val_main_v14
  refine isReal_select_of _ _ _ i (fun h => ?_) ?_
  · obtain ⟨r, hr⟩ := real_v10 x1 i
    unfold val_main_v12 at h
    have hpos : 0 < r := pos_of_ogt _ _ i r hr (v11_zero i) h
    unfold val_main_v13
    exact isReal_rsqrt_of_pos _ i r hr hpos
  · have hz : AllReal (val_main_call0_v1 (F := Ideal)) := by
      unfold val_main_call0_v1 val_main_call0_v0 val_main_cst_2
      exact allReal_bcast _ _ (allReal_const _ isReal_zeroWord)
    exact hz i

/-! ## The first layer -/

/-- The factor gathered at an edge's source, -/
theorem real_v21 (x1 : (⟨S2x1600000, .i32⟩ : BufTy).Contents (Elt Ideal)) : AllReal (val_main_v21 (F := Ideal) x1) := by
  unfold val_main_v21
  exact allReal_gather _ _ (real_v14 x1)
/-- at its target, -/
theorem real_v28 (x1 : (⟨S2x1600000, .i32⟩ : BufTy).Contents (Elt Ideal)) : AllReal (val_main_v28 (F := Ideal) x1) := by
  unfold val_main_v28
  exact allReal_gather _ _ (real_v14 x1)
/-- and the edge's weight, their product. -/
theorem real_v29 (x1 : (⟨S2x1600000, .i32⟩ : BufTy).Contents (Elt Ideal)) : AllReal (val_main_v29 (F := Ideal) x1) := by
  unfold val_main_v29
  exact allReal_mulf (real_v21 x1) (real_v28 x1)

/-- The rows times the first weight matrix: finite sums of products of reals. -/
theorem real_v30 (x0 : (⟨S100000x128, .f32⟩ : BufTy).Contents (Elt Ideal)) (x3 : (⟨S128x128, .f32⟩ : BufTy).Contents (Elt Ideal)) (h0 : AllReal x0) (h3 : AllReal x3) : AllReal (val_main_v30 (F := Ideal) x0 x3) := by
  unfold val_main_v30
  exact allReal_dot _ h0 h3

/-- The messages: the product's row gathered at each edge's source, times the edge's weight laid along the row. -/
theorem real_v40 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (h0 : AllReal x0) (h3 : AllReal x3) :
    AllReal (val_main_v40 (F := Ideal) x0 x1 x3) := by
  unfold val_main_v40
  refine allReal_mulf ?_ ?_
  · unfold val_main_v37
    exact allReal_gather _ _ (real_v30 x0 x3 h0 h3)
  · unfold val_main_v39 val_main_v38
    exact allReal_bcast _ _ (allReal_bcast _ _ (real_v29 x1))

/-- The aggregation: the messages added up at each edge's target, from zeros. -/
theorem real_v43 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (h0 : AllReal x0) (h3 : AllReal x3) :
    AllReal (val_main_v43 (F := Ideal) x0 x1 x3) := by
  unfold val_main_v43
  refine allReal_scatterAdd _ _ ?_ (real_v40 x0 x1 x3 h0 h3)
  unfold val_main_v41 val_main_cst_8
  exact allReal_bcast _ _ (allReal_const _ isReal_zeroWord)

/-- With the bias laid along every row, -/
theorem real_v46 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (h0 : AllReal x0) (h3 : AllReal x3) (h4 : AllReal x4) :
    AllReal (val_main_v46 (F := Ideal) x0 x1 x3 x4) := by
  unfold val_main_v46
  refine allReal_addf (real_v43 x0 x1 x3 h0 h3) ?_
  unfold val_main_v45 val_main_v44
  exact allReal_bcast _ _ (allReal_bcast _ _ h4)

/-- and through the leaky rectifier — the entry itself or the slope times it —: THE FIRST LAYER'S ACTIVATION. -/
theorem real_v51 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (h0 : AllReal x0) (h3 : AllReal x3) (h4 : AllReal x4) :
    AllReal (val_main_v51 (F := Ideal) x0 x1 x3 x4) := by
  unfold val_main_v51
  refine allReal_select _ (real_v46 x0 x1 x3 x4 h0 h3 h4) ?_
  unfold val_main_v50
  refine allReal_mulf ?_ (real_v46 x0 x1 x3 x4 h0 h3 h4)
  unfold val_main_v49 val_main_cst_10
  exact allReal_bcast _ _ (allReal_const _ ofBits_slope)

/-! ## The first batch normalisation -/

/-- A nonnegative real divided by the row count is a nonnegative real. -/
theorem nonneg_div_rows {s : Shape} (a n : FVec Ideal s .f32) (i : s.Idx) (r : ℝ) (hr : 0 ≤ r) (ha : a i = (r : EReal))
    (hn : n i = ((100000 : ℝ) : EReal)) : ∃ q : ℝ, 0 ≤ q ∧ Host.divf a n i = (q : EReal) := by
  refine ⟨r * (1 / 100000), mul_nonneg hr (by norm_num), ?_⟩
  show Ideal.div (a i) (n i) = _
  rw [ha, hn, Ideal.div_coe (by norm_num), ← EReal.coe_mul]

/-- A nonnegative real plus a positive real is positive, so the reciprocal square root of the sum is real. -/
theorem isReal_rsqrt_add_pos {s : Shape} (a e : FVec Ideal s .f32) (i : s.Idx) (q : ℝ) (hq : 0 ≤ q) (ha : a i = (q : EReal))
    (ε : ℝ) (hε : 0 < ε) (he : e i = (ε : EReal)) : IsReal (Host.rsqrt (addf a e) i) := by
  show IsReal (Ideal.rsqrt (a i + e i))
  rw [ha, he, ← EReal.coe_add]
  exact IsReal.rsqrt_pos (add_pos_of_nonneg_of_pos hq hε)

/-- The column sums of the activation, from zero, -/
theorem real_v52 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (h0 : AllReal x0) (h3 : AllReal x3) (h4 : AllReal x4) : AllReal (val_main_v52 (F := Ideal) x0 x1 x3 x4) := by
  unfold val_main_v52 val_main_cst_11
  exact allReal_reduceAdd _ _ _ (real_v51 x0 x1 x3 x4 h0 h3 h4) (allReal_const _ isReal_zeroWord)
/-- the row count they are divided by, -/
theorem v53_rows (i : S128.Idx) : val_main_v53 (F := Ideal) i = ((100000 : ℝ) : EReal) := by
  rw [val_main_v53_apply, val_main_cst_12_apply]
  exact ofBits_rows
/-- and the column means. -/
theorem real_v54 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (h0 : AllReal x0) (h3 : AllReal x3) (h4 : AllReal x4) : AllReal (val_main_v54 (F := Ideal) x0 x1 x3 x4) := by
  unfold val_main_v54
  exact allReal_divRows (real_v52 x0 x1 x3 x4 h0 h3 h4) v53_rows

/-- The deviation from the mean laid along every row. -/
theorem real_v57 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (h0 : AllReal x0) (h3 : AllReal x3) (h4 : AllReal x4) : AllReal (val_main_v57 (F := Ideal) x0 x1 x3 x4) := by
  unfold val_main_v57
  refine allReal_subf (real_v51 x0 x1 x3 x4 h0 h3 h4) ?_
  unfold val_main_v56 val_main_v55
  exact allReal_bcast _ _ (allReal_bcast _ _ (real_v54 x0 x1 x3 x4 h0 h3 h4))

/-- The column sums of the squared deviations are NONNEGATIVE reals: sums of squares of reals. -/
theorem nonneg_v59 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (h0 : AllReal x0) (h3 : AllReal x3) (h4 : AllReal x4) (i : S128.Idx) :
    ∃ r : ℝ, 0 ≤ r ∧ val_main_v59 (F := Ideal) x0 x1 x3 x4 i = (r : EReal) := by
  have hr : ∀ j, ∃ r : ℝ, val_main_v57 (F := Ideal) x0 x1 x3 x4 j = (r : EReal) := real_v57 x0 x1 x3 x4 h0 h3 h4
  choose d hd using hr
  refine ⟨∑ k : Fin 100000, d (idx_main_v59 i k) * d (idx_main_v59 i k), Finset.sum_nonneg fun k _ => mul_self_nonneg _, ?_⟩
  rw [val_main_v59_apply, val_main_cst_13_apply, coe_sum]
  refine (congrArg (· + _) ofBits_zero).trans ((zero_add _).trans (Finset.sum_congr rfl fun k _ => ?_))
  rw [val_main_v58_apply]
  show val_main_v57 (F := Ideal) x0 x1 x3 x4 (idx_main_v59 i k) * val_main_v57 (F := Ideal) x0 x1 x3 x4 (idx_main_v59 i k) = _
  rw [hd, EReal.coe_mul]

/-- The row count again, -/
theorem v60_rows (i : S128.Idx) : val_main_v60 (F := Ideal) i = ((100000 : ℝ) : EReal) := by
  rw [val_main_v60_apply, val_main_cst_14_apply]
  exact ofBits_rows
/-- and the column variances: NONNEGATIVE reals. -/
theorem nonneg_v61 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (h0 : AllReal x0) (h3 : AllReal x3) (h4 : AllReal x4) (i : S128.Idx) :
    ∃ q : ℝ, 0 ≤ q ∧ val_main_v61 (F := Ideal) x0 x1 x3 x4 i = (q : EReal) := by
  obtain ⟨r, hr0, hr⟩ := nonneg_v59 x0 x1 x3 x4 h0 h3 h4 i
  unfold val_main_v61
  exact nonneg_div_rows _ _ i r hr0 hr (v60_rows i)

/-- The ε added to the variance is one positive real at every entry. -/
theorem v65_eps : ∃ ε : ℝ, 0 < ε ∧ ∀ i : S128.Idx, val_main_v65 (F := Ideal) i = (ε : EReal) := by
  obtain ⟨e, he0, he⟩ := ofBits_eps
  exact ⟨e, he0, fun i => by rw [val_main_v65_apply, val_main_cst_15_apply]; exact he⟩

/-- The reciprocal standard deviation: the variance plus ε is a positive real. -/
theorem real_v67 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (h0 : AllReal x0) (h3 : AllReal x3) (h4 : AllReal x4) : AllReal (val_main_v67 (F := Ideal) x0 x1 x3 x4) := fun i => by
  obtain ⟨q, hq0, hq⟩ := nonneg_v61 x0 x1 x3 x4 h0 h3 h4 i
  obtain ⟨ε, hε0, hε⟩ := v65_eps
  unfold val_main_v67 val_main_v66
  exact isReal_rsqrt_add_pos _ _ i q hq0 hq ε hε0 (hε i)

/-- The normalised activation: the deviation times the reciprocal standard deviation laid along every row, -/
theorem real_v70 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (h0 : AllReal x0) (h3 : AllReal x3) (h4 : AllReal x4) : AllReal (val_main_v70 (F := Ideal) x0 x1 x3 x4) := by
  unfold val_main_v70
  refine allReal_mulf ?_ ?_
  · unfold val_main_v64
    refine allReal_subf (real_v51 x0 x1 x3 x4 h0 h3 h4) ?_
    unfold val_main_v63 val_main_v62
    exact allReal_bcast _ _ (allReal_bcast _ _ (real_v54 x0 x1 x3 x4 h0 h3 h4))
  · unfold val_main_v69 val_main_v68
    exact allReal_bcast _ _ (allReal_bcast _ _ (real_v67 x0 x1 x3 x4 h0 h3 h4))

/-- scaled and shifted column by column: THE FIRST LAYER'S OUTPUT. -/
theorem real_v76 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x9 : (⟨S128, .f32⟩ : BufTy).Contents (Elt Ideal)) (x10 : (⟨S128, .f32⟩ : BufTy).Contents (Elt Ideal)) (h0 : AllReal x0) (h3 : AllReal x3) (h4 : AllReal x4) (h9 : AllReal x9) (h10 : AllReal x10) :
    AllReal (val_main_v76 (F := Ideal) x0 x1 x3 x4 x9 x10) := by
  unfold val_main_v76
  refine allReal_addf ?_ ?_
  · unfold val_main_v73
    refine allReal_mulf (real_v70 x0 x1 x3 x4 h0 h3 h4) ?_
    unfold val_main_v72 val_main_v71
    exact allReal_bcast _ _ (allReal_bcast _ _ h9)
  · unfold val_main_v75 val_main_v74
    exact allReal_bcast _ _ (allReal_bcast _ _ h10)

/-! ## The second layer -/

/-- The first layer's output times the second weight matrix. -/
theorem real_v77 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x9 : (⟨S128, .f32⟩ : BufTy).Contents (Elt Ideal)) (x10 : (⟨S128, .f32⟩ : BufTy).Contents (Elt Ideal)) (h0 : AllReal x0) (h3 : AllReal x3) (h4 : AllReal x4) (h9 : AllReal x9) (h10 : AllReal x10) (h5 : AllReal x5) : AllReal (val_main_v77 (F := Ideal) x0 x1 x3 x4 x5 x9 x10) := by
  unfold val_main_v77
  exact allReal_dot _ (real_v76 x0 x1 x3 x4 x9 x10 h0 h3 h4 h9 h10) h5

/-- The messages: the product's row gathered at each edge's source, times the edge's weight laid along the row. -/
theorem real_v87 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x9 : (⟨S128, .f32⟩ : BufTy).Contents (Elt Ideal)) (x10 : (⟨S128, .f32⟩ : BufTy).Contents (Elt Ideal)) (h0 : AllReal x0) (h3 : AllReal x3) (h4 : AllReal x4) (h9 : AllReal x9) (h10 : AllReal x10) (h5 : AllReal x5) : AllReal (val_main_v87 (F := Ideal) x0 x1 x3 x4 x5 x9 x10) := by
  unfold val_main_v87
  refine allReal_mulf ?_ ?_
  · unfold val_main_v84
    exact allReal_gather _ _ (real_v77 x0 x1 x3 x4 x5 x9 x10 h0 h3 h4 h9 h10 h5)
  · unfold val_main_v86 val_main_v85
    exact allReal_bcast _ _ (allReal_bcast _ _ (real_v29 x1))

/-- The aggregation: the messages added up at each edge's target, from zeros. -/
theorem real_v90 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x9 : (⟨S128, .f32⟩ : BufTy).Contents (Elt Ideal)) (x10 : (⟨S128, .f32⟩ : BufTy).Contents (Elt Ideal)) (h0 : AllReal x0) (h3 : AllReal x3) (h4 : AllReal x4) (h9 : AllReal x9) (h10 : AllReal x10) (h5 : AllReal x5) : AllReal (val_main_v90 (F := Ideal) x0 x1 x3 x4 x5 x9 x10) := by
  unfold val_main_v90
  refine allReal_scatterAdd _ _ ?_ (real_v87 x0 x1 x3 x4 x5 x9 x10 h0 h3 h4 h9 h10 h5)
  unfold val_main_v88 val_main_cst_18
  exact allReal_bcast _ _ (allReal_const _ isReal_zeroWord)

/-- With the bias laid along every row, -/
theorem real_v93 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x9 : (⟨S128, .f32⟩ : BufTy).Contents (Elt Ideal)) (x10 : (⟨S128, .f32⟩ : BufTy).Contents (Elt Ideal)) (h0 : AllReal x0) (h3 : AllReal x3) (h4 : AllReal x4) (h9 : AllReal x9) (h10 : AllReal x10) (h5 : AllReal x5) (h6 : AllReal x6) : AllReal (val_main_v93 (F := Ideal) x0 x1 x3 x4 x5 x6 x9 x10) := by
  unfold val_main_v93
  refine allReal_addf (real_v90 x0 x1 x3 x4 x5 x9 x10 h0 h3 h4 h9 h10 h5) ?_
  unfold val_main_v92 val_main_v91
  exact allReal_bcast _ _ (allReal_bcast _ _ h6)

/-- and through the leaky rectifier: THE SECOND LAYER'S ACTIVATION. -/
theorem real_v98 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (x9 : (⟨S128, .f32⟩ : BufTy).Contents (Elt Ideal)) (x10 : (⟨S128, .f32⟩ : BufTy).Contents (Elt Ideal)) (h0 : AllReal x0) (h3 : AllReal x3) (h4 : AllReal x4) (h9 : AllReal x9) (h10 : AllReal x10) (h5 : AllReal x5) (h6 : AllReal x6) : AllReal (val_main_v98 (F := Ideal) x0 x1 x3 x4 x5 x6 x9 x10) := by
  unfold val_main_v98
  refine allReal_select _ (real_v93 x0 x1 x3 x4 x5 x6 x9 x10 h0 h3 h4 h9 h10 h5 h6) ?_
  unfold val_main_v97
  refine allReal_mulf ?_ (real_v93 x0 x1 x3 x4 x5 x6 x9 x10 h0 h3 h4 h9 h10 h5 h6)
  unfold val_main_v96 val_main_cst_20
  exact allReal_bcast _ _ (allReal_const _ ofBits_slope)

end Cert.Bridge

end
-- ==== Proof.PreReal.lean ====
/- The precondition, read: when the finiteness predicate of the thirteen argument arrays is the all-ones word, every
   entry of every float argument array the network uses is a real number (neither +∞ nor −∞). The predicate is the
   conjunction, over the float arguments, of "every entry x has |x| strictly below +∞", each an all-reduction by `and`;
   an extended real whose absolute value max x (−x) is strictly below +∞ is neither infinity. -/
import proofs.«153942_j44160853737649_1_alg».proof.Defs
import proofs.«153942_j44160853737649_1_alg».proof.Proof.Gen.Pre_finite_inputs
import Idealize.ShloMosaic.Lib.ReduceAll
import Idealize.ShloMosaic.Lib.ValueIdx
import Idealize.ShloMosaic.PureOps.Ideal

noncomputable section

namespace Cert.KernelIdeal.PreReal

open Idealize.ShloMosaic Idealize.SL.Sem Idealize.ShloMosaic.ValueIdx

/-- The scalar shape has one index. -/
instance : Subsingleton Cert.Pre_finite_inputs.S_.Idx := ⟨fun a b => funext fun d => d.elim0⟩

/-- An extended real whose absolute value `max x (−x)` is strictly below +∞ (the word 0x7F800000) is a real number:
    at +∞ and at −∞ the absolute value is +∞ itself. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- One conjunct of the predicate, for an array of any shape: if the all-reduction by `and` of "|x| below +∞" is 1,
    every entry of the array is a real number. -/
theorem all_real {s : Shape} {axes : List (Fin s.rank)} (x : FVec Ideal s .f32)
    (hb : Cert.Pre_finite_inputs.S_.BroadcastsInDim s (![] : Fin 0 → Fin s.rank)) (hr : s.ReducesTo axes Cert.Pre_finite_inputs.S_) (hu : 0 < Cert.Pre_finite_inputs.S_.numel)
    (e : Host.reduce IntOp.andi (cmpf .olt (Host.absf x) (broadcastInDim s ![] hb (constant (F := Ideal) Cert.Pre_finite_inputs.S_ .f32 0x7F800000#32)))
      (constantI Cert.Pre_finite_inputs.S_ 1 1#1) hr hu ix0 = 1#1) (i : s.Idx) : ∃ r : ℝ, x i = (r : EReal) :=
  real_of_abs_lt_inf (x i) (Host.reduce_andi_all _ _ hr hu ix0 e i)

/-- The predicate over any thirteen arrays: its value 1 makes every entry of the eleven float arrays the network
    uses a real number. -/
theorem fn_real (a0 : FVec Ideal Cert.Pre_finite_inputs.S100000x128 .f32) (a1 : IVec Cert.Pre_finite_inputs.S2x1600000 32) (a2 : FVec Ideal Cert.Pre_finite_inputs.S1600000 .f32) (a3 : FVec Ideal Cert.Pre_finite_inputs.S128x128 .f32) (a4 : FVec Ideal Cert.Pre_finite_inputs.S128 .f32) (a5 : FVec Ideal Cert.Pre_finite_inputs.S128x64 .f32) (a6 : FVec Ideal Cert.Pre_finite_inputs.S64 .f32) (a7 : FVec Ideal Cert.Pre_finite_inputs.S64x8 .f32) (a8 : FVec Ideal Cert.Pre_finite_inputs.S8 .f32) (a9 : FVec Ideal Cert.Pre_finite_inputs.S128 .f32) (a10 : FVec Ideal Cert.Pre_finite_inputs.S128 .f32) (a11 : FVec Ideal Cert.Pre_finite_inputs.S64 .f32) (a12 : FVec Ideal Cert.Pre_finite_inputs.S64 .f32)
    (e : Cert.Pre_finite_inputs.fn (F := Ideal) a0 a1 a2 a3 a4 a5 a6 a7 a8 a9 a10 a11 a12 ix0 = 1#1) :
    (∀ i, ∃ r : ℝ, a0 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal)) := by
  unfold Cert.Pre_finite_inputs.fn Cert.Pre_finite_inputs.fn_part1 Cert.Pre_finite_inputs.fn_part2 Cert.Pre_finite_inputs.fn_part3 at e
  dsimp only [andi] at e
  simp only [IntOp.andi_eq_one] at e
  obtain ⟨⟨⟨⟨⟨⟨⟨⟨⟨⟨⟨h0, h2⟩, h3⟩, h4⟩, h5⟩, h6⟩, h7⟩, h8⟩, h9⟩, h10⟩, h11⟩, h12⟩ := e
  exact ⟨all_real a0 _ _ _ h0, all_real a3 _ _ _ h3, all_real a4 _ _ _ h4, all_real a5 _ _ _ h5, all_real a6 _ _ _ h6,
    all_real a7 _ _ _ h7, all_real a8 _ _ _ h8, all_real a9 _ _ _ h9, all_real a10 _ _ _ h10, all_real a11 _ _ _ h11,
    all_real a12 _ _ _ h12⟩

/-- THE PRECONDITION AT THE IDEALIZED KERNEL: on every device, every entry of each float argument array the network
    uses is a real number. -/
theorem inputs_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal)) :=
  fn_real _ _ _ _ _ _ _ _ _ _ _ _ _ (congrFun (h c) ix0)

end Cert.KernelIdeal.PreReal

end
-- ==== Proof.lean ====
/-
  A three-layer graph convolution with batch normalisation: the tiled kernel against its reference.

  Both programs compute, per layer, a matrix product, a gather–scale–scatter aggregation over the edge list
  (the same host operations on both sides), a bias-add with leaky activation and, for the first two
  layers, a batch normalisation.  At the ideal instance a change of float format is the identity, a matrix
  product onto a zero accumulator is the plain contraction, and sums do not depend on their grouping, so
  the two programs differ in one place only: the kernel accumulates Σy and Σy² down the rows and forms the
  variance as E[y²] − E[y]², the reference forms E[(y − E[y])²].  These agree for columns of real numbers, and
  every activation is a real number because every float input is (the precondition): the degrees are sums
  of ones, so their reciprocal square roots are real where the degree is positive, and a variance plus the
  positive ε is a positive real.

  The frames of the two kernel programs are the generated ones; the reference's frame is its run with the result
  dropped; the idealization rewrote nothing, so its soundness statement is trivial.
-/
import proofs.«153942_j44160853737649_1_alg».proof.Defs
import proofs.«153942_j44160853737649_1_alg».proof.Proof.Gen.Kernel
import proofs.«153942_j44160853737649_1_alg».proof.Proof.Gen.Kernel.Skeleton
import proofs.«153942_j44160853737649_1_alg».proof.Proof.Gen.Kernel.Launch
import proofs.«153942_j44160853737649_1_alg».proof.Proof.Gen.Kernel.Points
import proofs.«153942_j44160853737649_1_alg».proof.Proof.Gen.Kernel.Frame
import proofs.«153942_j44160853737649_1_alg».proof.Proof.Gen.KernelIdeal
import proofs.«153942_j44160853737649_1_alg».proof.Proof.Gen.KernelIdeal.Skeleton
import proofs.«153942_j44160853737649_1_alg».proof.Proof.Gen.KernelIdeal.Launch
import proofs.«153942_j44160853737649_1_alg».proof.Proof.Gen.KernelIdeal.Points
import proofs.«153942_j44160853737649_1_alg».proof.Proof.Gen.KernelIdeal.Frame
import proofs.«153942_j44160853737649_1_alg».proof.Proof.Gen.ReferenceIdeal
import proofs.«153942_j44160853737649_1_alg».proof.Proof.Gen.Pre_finite_inputs
import proofs.«153942_j44160853737649_1_alg».proof.Proof.RefRun
import proofs.«153942_j44160853737649_1_alg».proof.Proof.KRun
import proofs.«153942_j44160853737649_1_alg».proof.Proof.Chain
import proofs.«153942_j44160853737649_1_alg».proof.Proof.FiniteStages
import proofs.«153942_j44160853737649_1_alg».proof.Proof.PreReal
import Idealize.ShloMosaic.Adequacy
import Idealize.ShloMosaic.Init

noncomputable section

namespace Cert.Proof

open Idealize.ShloMosaic Idealize.SL.Sem

/-- The two idealized programs end with equal results: the kernel's result array, followed back through its
    program, is the reference's last stage of the same argument arrays, which is what the reference's run ends at. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W16 m ρ c (Proc.devRef .tc Cert.KernelIdeal.main_v99_0),
    Cert.KernelIdeal.RunResult.run_result m ρ, ?_⟩
  refine (θ_run Cert.ReferenceIdeal.defs _ _).mono (fun r h c => ⟨(h c).1.trans ?_, (h c).2⟩)
    (Cert.ReferenceIdeal.Value.run (F := Ideal) m' ρ')
  obtain ⟨r0, r3, r4, r5, r6, r7, r8, r9, r10, r11, r12⟩ := Cert.KernelIdeal.PreReal.inputs_real m hpre c
  obtain ⟨a0, a1, a2, a3, a4, a5, a6, a7, a8, a9, a10, a11, a12⟩ := hagree c
  have hy1 := Cert.Bridge.real_v51 _ (m ((c.tc : Thread Cert.KernelIdeal.nD Cert.KernelIdeal.τ).loc Cert.KernelIdeal.main_arg1)) _ _ r0 r3 r4
  have hy2 := Cert.Bridge.real_v98 _ (m ((c.tc : Thread Cert.KernelIdeal.nD Cert.KernelIdeal.τ).loc Cert.KernelIdeal.main_arg1)) _ _ _ _ _ _ r0 r3 r4 r9 r10 r5 r6
  unfold Cert.ReferenceIdeal.Value.res_main_v145
  rw [a0, a1, a3, a4, a5, a6, a7, a8, a9, a10, a11, a12]
  exact (Cert.KernelIdeal.Chain.l3_act m ρ c hy1 hy2).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
